-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128x128 .f32) (main_arg7 : FVec F S128x128 .f32) (main_arg8 : FVec F S128x128 .f32) (main_v13 : IVec S_ 1) (main_v16 : IVec S800000x128 1) : IVec S_ 1 :=
  let main_c_5 : IVec S_ 1 := constantI S_ 1 1#1
  let main_v17 : IVec S_ 1 := (fun x v => Host.reduce IntOp.andi x v reducesTo_S800000x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : FVec F S50000x128 .f32) (main_arg2 : FVec F S50000x128 .f32) (main_arg3 : FVec F S800000x128 .f32) (main_arg4 : IVec S800000 32) (main_arg5 : IVec S800000 32) (main_arg6 : FVec F S128x128 .f32) (main_arg7 : FVec F S128x128 .f32) (main_arg8 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x128 .f32 := Host.absf main_arg2
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S800000x128 .f32 := Host.absf main_arg3
  let main_cst_4 : FVec F S_ .f32 := constant S_ .f32 0x7F800000#32
  let main_v15 : FVec F S800000x128 .f32 := broadcastInDim S800000x128 ![] bcast_S_S800000x128 main_cst_4
  let main_v16 : IVec S800000x128 1 := cmpf .olt main_v14 main_v15
  fn_part1 (F := F) main_arg6 main_arg7 main_arg8 main_v13 main_v16
-- ==== Kernel.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S2000x128 : Shape := ⟨2, ![2000, 128]⟩
abbrev S_ : Shape := ⟨0, ![]⟩
abbrev S800000x1 : Shape := ⟨2, ![800000, 1]⟩
abbrev S2048x128 : Shape := ⟨2, ![2048, 128]⟩
abbrev S2048x8x16 : Shape := ⟨3, ![2048, 8, 16]⟩
abbrev S2048x1x16 : Shape := ⟨3, ![2048, 1, 16]⟩
abbrev S2048x16 : Shape := ⟨2, ![2048, 16]⟩
abbrev S2048x8 : Shape := ⟨2, ![2048, 8]⟩
abbrev S2048x1x8 : Shape := ⟨3, ![2048, 1, 8]⟩
abbrev S2048x8x8 : Shape := ⟨3, ![2048, 8, 8]⟩
abbrev S2048x8x1 : Shape := ⟨3, ![2048, 8, 1]⟩

abbrev nBuf : Space → Nat
  | .hbm => 44
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S50000x128, .f32⟩
  | .hbm, ⟨3, _⟩ => ⟨S800000x128, .f32⟩
  | .hbm, ⟨4, _⟩ => ⟨S800000, .i32⟩
  | .hbm, ⟨5, _⟩ => ⟨S800000, .i32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S50000x128, .f32⟩
  | .hbm, ⟨10, _⟩ => ⟨S50000x128, .f32⟩
  | .hbm, ⟨11, _⟩ => ⟨S50000x128, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S128x128, .f32⟩
  | .local _ .vmem, ⟨24, _⟩ => ⟨S2048x128, .f32⟩
  | .local _ .vmem, ⟨25, _⟩ => ⟨S2048x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![391], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000 : S_.BroadcastsInDim S800000 (![] : Fin 0 → Fin S800000.rank)
  bcast_S800000_S800000x1_0 : S800000.BroadcastsInDim S800000x1 (![0] : Fin 1 → Fin S800000x1.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S2048x128_S2048x8x16 : S2048x128.ShapeCasts S2048x8x16
  slices_S2048x8x16_o0_0_0_S2048x1x16 : S2048x8x16.Slices ![0, 0, 0] S2048x1x16
  shapeCasts_S2048x1x16_S2048x16 : S2048x1x16.ShapeCasts S2048x16
  shapeCasts_S2048x16_S2048x1x16 : S2048x16.ShapeCasts S2048x1x16
  broadcasts_S2048x1x16_S2048x8x16 : S2048x1x16.Broadcasts S2048x8x16
  reduces_S2048x8x16_S2048x8 : S2048x8x16.Reduces [2] S2048x8
  slices_S2048x8x16_o0_1_0_S2048x1x16 : S2048x8x16.Slices ![0, 1, 0] S2048x1x16
  slices_S2048x8x16_o0_2_0_S2048x1x16 : S2048x8x16.Slices ![0, 2, 0] S2048x1x16
  slices_S2048x8x16_o0_3_0_S2048x1x16 : S2048x8x16.Slices ![0, 3, 0] S2048x1x16
  slices_S2048x8x16_o0_4_0_S2048x1x16 : S2048x8x16.Slices ![0, 4, 0] S2048x1x16
  slices_S2048x8x16_o0_5_0_S2048x1x16 : S2048x8x16.Slices ![0, 5, 0] S2048x1x16
  slices_S2048x8x16_o0_6_0_S2048x1x16 : S2048x8x16.Slices ![0, 6, 0] S2048x1x16
  slices_S2048x8x16_o0_7_0_S2048x1x16 : S2048x8x16.Slices ![0, 7, 0] S2048x1x16
  shapeCasts_S2048x8_S2048x1x8 : S2048x8.ShapeCasts S2048x1x8
  concatenates_S2048x1x8_S2048x1x8_S2048x1x8_S2048x1x8_S2048x1x8_S2048x1x8_S2048x1x8_S2048x1x8_S2048x8x8_d1 : Shape.Concatenates [S2048x1x8, S2048x1x8, S2048x1x8, S2048x1x8, S2048x1x8, S2048x1x8, S2048x1x8, S2048x1x8] S2048x8x8 1
  reduces_S2048x8x8_S2048x8 : S2048x8x8.Reduces [2] S2048x8
  shapeCasts_S2048x8_S2048x8x1 : S2048x8.ShapeCasts S2048x8x1
  broadcasts_S2048x8x1_S2048x8x8 : S2048x8x1.Broadcasts S2048x8x8
  slices_S2048x8x8_o0_0_0_S2048x1x8 : S2048x8x8.Slices ![0, 0, 0] S2048x1x8
  shapeCasts_S2048x1x8_S2048x8 : S2048x1x8.ShapeCasts S2048x8
  broadcasts_S2048x8x1_S2048x8x16 : S2048x8x1.Broadcasts S2048x8x16
  reduces_S2048x8x16_S2048x16 : S2048x8x16.Reduces [1] S2048x16
  slices_S2048x8x8_o0_1_0_S2048x1x8 : S2048x8x8.Slices ![0, 1, 0] S2048x1x8
  slices_S2048x8x8_o0_2_0_S2048x1x8 : S2048x8x8.Slices ![0, 2, 0] S2048x1x8
  slices_S2048x8x8_o0_3_0_S2048x1x8 : S2048x8x8.Slices ![0, 3, 0] S2048x1x8
  slices_S2048x8x8_o0_4_0_S2048x1x8 : S2048x8x8.Slices ![0, 4, 0] S2048x1x8
  slices_S2048x8x8_o0_5_0_S2048x1x8 : S2048x8x8.Slices ![0, 5, 0] S2048x1x8
  slices_S2048x8x8_o0_6_0_S2048x1x8 : S2048x8x8.Slices ![0, 6, 0] S2048x1x8
  slices_S2048x8x8_o0_7_0_S2048x1x8 : S2048x8x8.Slices ![0, 7, 0] S2048x1x8
  concatenates_S2048x1x16_S2048x1x16_S2048x1x16_S2048x1x16_S2048x1x16_S2048x1x16_S2048x1x16_S2048x1x16_S2048x8x16_d1 : Shape.Concatenates [S2048x1x16, S2048x1x16, S2048x1x16, S2048x1x16, S2048x1x16, S2048x1x16, S2048x1x16, S2048x1x16] S2048x8x16 1
  shapeCasts_S2048x8x16_S2048x128 : S2048x8x16.ShapeCasts S2048x128
  bcast_S_S50000x128 : S_.BroadcastsInDim S50000x128 (![] : Fin 0 → Fin S50000x128.rank)
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  dot_S2048x128_S128x128_S2048x128_1_0_0_1_n_n_wf : DotDims.WF S2048x128 S128x128 S2048x128 [1] [0] [0] [1] [] []
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .f32 = 32 ∨ (Rect.block (s := S50000x128) S2000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S2048x128.size a < S800000x128.size a
  hwx1_0 : ∀ i : grid1.Coords, EltTy.bits .f32 = 32 ∨ (Rect.unit (s := S800000x128) (fun a => cc1_transform_0 i a * S2048x128.size a) (fun a => (Pipeline.Clip.of (cc1_transform_0 i a) (S2048x128.size a) (S800000x128.size a)).extent (S2048x128.size a)) fun a => Pipeline.Clip.inb (Pipeline.Clip.ok_of (hstart1_0 i a))).WholeWords (EltTy.packing .f32)
  hwxs1_0 : ∀ i : grid1.Coords, EltTy.bits .f32 = 32 ∨ (Rect.unit (s := S2048x128) (fun _ => 0) (fun a => (Pipeline.Clip.of (cc1_transform_0 i a) (S2048x128.size a) (S800000x128.size a)).extent (S2048x128.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S2048x128.size a < S800000x128.size a
  hwx1_1 : ∀ i : grid1.Coords, EltTy.bits .f32 = 32 ∨ (Rect.unit (s := S800000x128) (fun a => cc1_transform_1 i a * S2048x128.size a) (fun a => (Pipeline.Clip.of (cc1_transform_1 i a) (S2048x128.size a) (S800000x128.size a)).extent (S2048x128.size a)) fun a => Pipeline.Clip.inb (Pipeline.Clip.ok_of (hstart1_1 i a))).WholeWords (EltTy.packing .f32)
  hwxs1_1 : ∀ i : grid1.Coords, EltTy.bits .f32 = 32 ∨ (Rect.unit (s := S2048x128) (fun _ => 0) (fun a => (Pipeline.Clip.of (cc1_transform_1 i a) (S2048x128.size a) (S800000x128.size a)).extent (S2048x128.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S2048x128.size a < S800000x128.size a
  hwx1_2 : ∀ i : grid1.Coords, EltTy.bits .f32 = 32 ∨ (Rect.unit (s := S800000x128) (fun a => cc1_transform_2 i a * S2048x128.size a) (fun a => (Pipeline.Clip.of (cc1_transform_2 i a) (S2048x128.size a) (S800000x128.size a)).extent (S2048x128.size a)) fun a => Pipeline.Clip.inb (Pipeline.Clip.ok_of (hstart1_2 i a))).WholeWords (EltTy.packing .f32)
  hwxs1_2 : ∀ i : grid1.Coords, EltTy.bits .f32 = 32 ∨ (Rect.unit (s := S2048x128) (fun _ => 0) (fun a => (Pipeline.Clip.of (cc1_transform_2 i a) (S2048x128.size a) (S800000x128.size a)).extent (S2048x128.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S2048x128.size a < S800000x128.size a
  hwx1_3 : ∀ i : grid1.Coords, EltTy.bits .f32 = 32 ∨ (Rect.unit (s := S800000x128) (fun a => cc1_transform_3 i a * S2048x128.size a) (fun a => (Pipeline.Clip.of (cc1_transform_3 i a) (S2048x128.size a) (S800000x128.size a)).extent (S2048x128.size a)) fun a => Pipeline.Clip.inb (Pipeline.Clip.ok_of (hstart1_3 i a))).WholeWords (EltTy.packing .f32)
  hwxs1_3 : ∀ i : grid1.Coords, EltTy.bits .f32 = 32 ∨ (Rect.unit (s := S2048x128) (fun _ => 0) (fun a => (Pipeline.Clip.of (cc1_transform_3 i a) (S2048x128.size a) (S800000x128.size a)).extent (S2048x128.size a)) fun a => (Nat.zero_add _).trans_le (Pipeline.Clip.extent_le (Pipeline.Clip.ok_of (hstart1_3 i a)))).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hstart1_5 : ∀ (i : grid1.Coords) a, cc1_transform_5 i a * S2048x128.size a < S800000x128.size a
  hwx1_5 : ∀ i : grid1.Coords, EltTy.bits .f32 = 32 ∨ (Rect.unit (s := S800000x128) (fun a => cc1_transform_5 i a * S2048x128.size a) (fun a => (Pipeline.Clip.of (cc1_transform_5 i a) (S2048x128.size a) (S800000x128.size a)).extent (S2048x128.size a)) fun a => Pipeline.Clip.inb (Pipeline.Clip.ok_of (hstart1_5 i a))).WholeWords (EltTy.packing .f32)
  hwxs1_5 : ∀ i : grid1.Coords, EltTy.bits .f32 = 32 ∨ (Rect.unit (s := S2048x128) (fun _ => 0) (fun a => (Pipeline.Clip.of (cc1_transform_5 i a) (S2048x128.size a) (S800000x128.size a)).extent (S2048x128.size a)) fun a => (Nat.zero_add _).trans_le (Pipeline.Clip.extent_le (Pipeline.Clip.ok_of (hstart1_5 i a)))).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S2000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_2) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpecClip (Memref.whole main_v7) S2048x128.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v14) S2048x128.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v21) S2048x128.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_arg3) S2048x128.size cc1_transform_3 reads1_3 false false 2 stage1_3 sem1_3
    hrank1 hreads1_3 hstart1_3 nbuf1_3 (Memref.isWhole_whole _) hwx1_3 hwxs1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpecClip (Memref.whole main_v22) S2048x128.size cc1_transform_5 reads1_5 true false 2 stage1_5 sem1_5
    hrank1 hreads1_5 hstart1_5 nbuf1_5 (Memref.isWhole_whole _) hwx1_5 hwxs1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S50000x8x16 : Shape := ⟨3, ![50000, 8, 16]⟩
abbrev S_ : Shape := ⟨0, ![]⟩
abbrev S800000x1 : Shape := ⟨2, ![800000, 1]⟩
abbrev S800000x8x16 : Shape := ⟨3, ![800000, 8, 16]⟩
abbrev S800000x8x8 : Shape := ⟨3, ![800000, 8, 8]⟩
abbrev S800000x8 : Shape := ⟨2, ![800000, 8]⟩
abbrev S800000x8x1 : Shape := ⟨3, ![800000, 8, 1]⟩

abbrev nBuf : Space → Nat
  | .hbm => 74
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S50000x128, .f32⟩
  | .hbm, ⟨3, _⟩ => ⟨S800000x128, .f32⟩
  | .hbm, ⟨4, _⟩ => ⟨S800000, .i32⟩
  | .hbm, ⟨5, _⟩ => ⟨S800000, .i32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S50000x128, .f32⟩
  | .hbm, ⟨10, _⟩ => ⟨S50000x8x16, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x8x16, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S800000x128, .f32⟩
  | .hbm, ⟨30, _⟩ => ⟨S800000x8x16, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S800000x128, .f32⟩
  | .hbm, ⟨41, _⟩ => ⟨S800000x128, .f32⟩
  | .hbm, ⟨42, _⟩ => ⟨S800000x8x16, .f32⟩
  | .hbm, ⟨43, _⟩ => ⟨S800000x8x8, .f32⟩
  | .hbm, ⟨44, _⟩ => ⟨S_, .f32⟩
  | .hbm, ⟨45, _⟩ => ⟨S800000x8x8, .f32⟩
  | .hbm, ⟨46, _⟩ => ⟨S800000x8x8, .f32⟩
  | .hbm, ⟨47, _⟩ => ⟨S_, .f32⟩
  | .hbm, ⟨48, _⟩ => ⟨S800000x8x8, .f32⟩
  | .hbm, ⟨49, _⟩ => ⟨S800000x8x8, .i1⟩
  | .hbm, ⟨50, _⟩ => ⟨S_, .f32⟩
  | .hbm, ⟨51, _⟩ => ⟨S800000x8x8, .f32⟩
  | .hbm, ⟨52, _⟩ => ⟨S800000x8x8, .f32⟩
  | .hbm, ⟨53, _⟩ => ⟨S800000x8x8, .f32⟩
  | .hbm, ⟨54, _⟩ => ⟨S_, .f32⟩
  | .hbm, ⟨55, _⟩ => ⟨S800000x8, .f32⟩
  | .hbm, ⟨56, _⟩ => ⟨S_, .f32⟩
  | .hbm, ⟨57, _⟩ => ⟨S800000x8, .f32⟩
  | .hbm, ⟨58, _⟩ => ⟨S800000x8, .f32⟩
  | .hbm, ⟨59, _⟩ => ⟨S800000x8x1, .f32⟩
  | .hbm, ⟨60, _⟩ => ⟨S800000x8x8, .f32⟩
  | .hbm, ⟨61, _⟩ => ⟨S800000x8x8, .f32⟩
  | .hbm, ⟨62, _⟩ => ⟨S800000x8x8, .f32⟩
  | .hbm, ⟨63, _⟩ => ⟨S_, .f32⟩
  | .hbm, ⟨64, _⟩ => ⟨S800000x8, .f32⟩
  | .hbm, ⟨65, _⟩ => ⟨S800000x8x1, .f32⟩
  | .hbm, ⟨66, _⟩ => ⟨S800000x8x8, .f32⟩
  | .hbm, ⟨67, _⟩ => ⟨S800000x8x8, .f32⟩
  | .hbm, ⟨68, _⟩ => ⟨S800000x8x16, .f32⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_8 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]

class Facts₀ : Prop where
  shapeCasts_S50000x128_S50000x8x16 : S50000x128.ShapeCasts S50000x8x16
  bcast_S_S800000 : S_.BroadcastsInDim S800000 (![] : Fin 0 → Fin S800000.rank)
  bcast_S800000_S800000x1_0 : S800000.BroadcastsInDim S800000x1 (![0] : Fin 1 → Fin S800000x1.rank)
  shapeCasts_S800000x128_S800000x8x16 : S800000x128.ShapeCasts S800000x8x16
  bcast_S_S800000x8x8 : S_.BroadcastsInDim S800000x8x8 (![] : Fin 0 → Fin S800000x8x8.rank)
  reducesTo_S800000x8x8_S800000x8_d2 : S800000x8x8.ReducesTo [2] S800000x8
  h_S_ : 0 < S_.numel
  bcast_S_S800000x8 : S_.BroadcastsInDim S800000x8 (![] : Fin 0 → Fin S800000x8.rank)
  bcast_S800000x8_S800000x8x1_0_1 : S800000x8.BroadcastsInDim S800000x8x1 (![0, 1] : Fin 2 → Fin S800000x8x1.rank)
  bcast_S800000x8x1_S800000x8x8_0_1_2 : S800000x8x1.BroadcastsInDim S800000x8x8 (![0, 1, 2] : Fin 3 → Fin S800000x8x8.rank)
  shapeCasts_S800000x8x16_S800000x128 : S800000x8x16.ShapeCasts S800000x128
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  gather_S50000x8x16_S800000x1_S800000x8x16_12_0_n_n_0_1_1816_wf : GatherDims.WF S50000x8x16 S800000x1 S800000x8x16 [1, 2] [0] [] [0] [] 1 ![1, 8, 16]
  gather_S50000x128_S800000x1_S800000x128_1_0_n_n_0_1_1128_wf : GatherDims.WF S50000x128 S800000x1 S800000x128 [1] [0] [] [0] [] 1 ![1, 128]
  dot_S800000x128_S128x128_S800000x128_1_0_0_1_n_n_wf : DotDims.WF S800000x128 S128x128 S800000x128 [1] [0] [0] [1] [] []
  dot_S800000x8x16_S800000x8x16_S800000x8x8_2_2_1_1_0_0_wf : DotDims.WF S800000x8x16 S800000x8x16 S800000x8x8 [2] [2] [1] [1] [0] [0]
  dot_S800000x8x8_S800000x8x16_S800000x8x16_2_1_1_2_0_0_wf : DotDims.WF S800000x8x8 S800000x8x16 S800000x8x16 [2] [1] [1] [2] [0] [0]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x8x16_S800000x1_S800000x8x16_12_0_n_n_0_1_1816 : GatherDims S50000x8x16 S800000x1 S800000x8x16 where
  offsetDims := [1, 2]
  collapsedSliceDims := [0]
  operandBatchingDims := []
  startIndicesBatchingDims := []
  startIndexMap := [0]
  indexVectorDim := 1
  sliceSizes := ![1, 8, 16]
  wf := gather_S50000x8x16_S800000x1_S800000x8x16_12_0_n_n_0_1_1816_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x8x16_S800000x8x16_S800000x8x8_2_2_1_1_0_0 : DotDims S800000x8x16 S800000x8x16 S800000x8x8 where
  lhsContracting := [2]
  rhsContracting := [2]
  lhsNonContracting := [1]
  rhsNonContracting := [1]
  lhsBatch := [0]
  rhsBatch := [0]
  wf := dot_S800000x8x16_S800000x8x16_S800000x8x8_2_2_1_1_0_0_wf
def dot_S800000x8x8_S800000x8x16_S800000x8x16_2_1_1_2_0_0 : DotDims S800000x8x8 S800000x8x16 S800000x8x16 where
  lhsContracting := [2]
  rhsContracting := [1]
  lhsNonContracting := [1]
  rhsNonContracting := [2]
  lhsBatch := [0]
  rhsBatch := [0]
  wf := dot_S800000x8x8_S800000x8x16_S800000x8x16_2_1_1_2_0_0_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.ReferenceOps.lean ====
/- The list ops holds @main's 65 host operations in program order, each entry the operation the printed line steps, the
   lines of a called function standing at the call over that call's buffers; ops_sub pairs each entry with the
   library's lemma for its arity (every buffer an operation touches is a TensorCore buffer). -/
import proofs.«151337_j57836029608550_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [ StableHlo.binary main_arg2 main_arg8 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.reshape main_v0 main_v1 rfl shapeCasts_S50000x128_S50000x8x16,
    StableHlo.nullary main_c (constantI S_ 32 0#32),
    StableHlo.unary main_c main_v2 (broadcastInDim S800000 ![] bcast_S_S800000 : (⟨S_, .i32⟩ : BufTy).Contents (Elt F) → (⟨S800000, .i32⟩ : BufTy).Contents (Elt F)),
    StableHlo.binary main_arg4 main_v2 main_v3 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v4 (broadcastInDim S800000 ![] bcast_S_S800000 : (⟨S_, .i32⟩ : BufTy).Contents (Elt F) → (⟨S800000, .i32⟩ : BufTy).Contents (Elt F)),
    StableHlo.binary main_arg4 main_v4 main_v5 (addi : (⟨S800000, .i32⟩ : BufTy).Contents (Elt F) → (⟨S800000, .i32⟩ : BufTy).Contents (Elt F) → (⟨S800000, .i32⟩ : BufTy).Contents (Elt F)),
    StableHlo.ternary main_v3 main_v5 main_arg4 main_v6 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v6 main_v7 (broadcastInDim S800000x1 ![0] bcast_S800000_S800000x1_0 : (⟨S800000, .i32⟩ : BufTy).Contents (Elt F) → (⟨S800000x1, .i32⟩ : BufTy).Contents (Elt F)),
    StableHlo.binary main_v1 main_v7 main_v8 ((fun x i => Host.gather gather_S50000x8x16_S800000x1_S800000x8x16_12_0_n_n_0_1_1816 x i) : (⟨S50000x8x16, .f32⟩ : BufTy).Contents (Elt F) → (⟨S800000x1, .i32⟩ : BufTy).Contents (Elt F) → (⟨S800000x8x16, .f32⟩ : BufTy).Contents (Elt F)),
    StableHlo.nullary main_c_1 (constantI S_ 32 0#32),
    StableHlo.unary main_c_1 main_v9 (broadcastInDim S800000 ![] bcast_S_S800000 : (⟨S_, .i32⟩ : BufTy).Contents (Elt F) → (⟨S800000, .i32⟩ : BufTy).Contents (Elt F)),
    StableHlo.binary main_arg5 main_v9 main_v10 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v11 (broadcastInDim S800000 ![] bcast_S_S800000 : (⟨S_, .i32⟩ : BufTy).Contents (Elt F) → (⟨S800000, .i32⟩ : BufTy).Contents (Elt F)),
    StableHlo.binary main_arg5 main_v11 main_v12 (addi : (⟨S800000, .i32⟩ : BufTy).Contents (Elt F) → (⟨S800000, .i32⟩ : BufTy).Contents (Elt F) → (⟨S800000, .i32⟩ : BufTy).Contents (Elt F)),
    StableHlo.ternary main_v10 main_v12 main_arg5 main_v13 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v13 main_v14 (broadcastInDim S800000x1 ![0] bcast_S800000_S800000x1_0 : (⟨S800000, .i32⟩ : BufTy).Contents (Elt F) → (⟨S800000x1, .i32⟩ : BufTy).Contents (Elt F)),
    StableHlo.binary main_arg0 main_v14 main_v15 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v15 main_arg6 main_v16 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    StableHlo.reshape main_v16 main_v17 rfl shapeCasts_S800000x128_S800000x8x16,
    StableHlo.nullary main_c_3 (constantI S_ 32 0#32),
    StableHlo.unary main_c_3 main_v18 (broadcastInDim S800000 ![] bcast_S_S800000 : (⟨S_, .i32⟩ : BufTy).Contents (Elt F) → (⟨S800000, .i32⟩ : BufTy).Contents (Elt F)),
    StableHlo.binary main_arg4 main_v18 main_v19 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v20 (broadcastInDim S800000 ![] bcast_S_S800000 : (⟨S_, .i32⟩ : BufTy).Contents (Elt F) → (⟨S800000, .i32⟩ : BufTy).Contents (Elt F)),
    StableHlo.binary main_arg4 main_v20 main_v21 (addi : (⟨S800000, .i32⟩ : BufTy).Contents (Elt F) → (⟨S800000, .i32⟩ : BufTy).Contents (Elt F) → (⟨S800000, .i32⟩ : BufTy).Contents (Elt F)),
    StableHlo.ternary main_v19 main_v21 main_arg4 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v22 main_v23 (broadcastInDim S800000x1 ![0] bcast_S800000_S800000x1_0 : (⟨S800000, .i32⟩ : BufTy).Contents (Elt F) → (⟨S800000x1, .i32⟩ : BufTy).Contents (Elt F)),
    StableHlo.binary main_arg1 main_v23 main_v24 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v24 main_arg3 main_v25 (addf : (⟨S800000x128, .f32⟩ : BufTy).Contents (Elt F) → (⟨S800000x128, .f32⟩ : BufTy).Contents (Elt F) → (⟨S800000x128, .f32⟩ : BufTy).Contents (Elt F)),
    StableHlo.binary main_v25 main_arg7 main_v26 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    StableHlo.reshape main_v26 main_v27 rfl shapeCasts_S800000x128_S800000x8x16,
    StableHlo.binary main_v17 main_v27 main_v28 ((fun l r => Host.dotGeneral dot_S800000x8x16_S800000x8x16_S800000x8x8_2_2_1_1_0_0 none l r) : (⟨S800000x8x16, .f32⟩ : BufTy).Contents (Elt F) → (⟨S800000x8x16, .f32⟩ : BufTy).Contents (Elt F) → (⟨S800000x8x8, .f32⟩ : BufTy).Contents (Elt F)),
    StableHlo.nullary main_cst (constant S_ .f32 0x3E800000#32),
    StableHlo.unary main_cst main_v29 (broadcastInDim S800000x8x8 ![] bcast_S_S800000x8x8 : (⟨S_, .f32⟩ : BufTy).Contents (Elt F) → (⟨S800000x8x8, .f32⟩ : BufTy).Contents (Elt F)),
    StableHlo.binary main_v28 main_v29 main_v30 (mulf : (⟨S800000x8x8, .f32⟩ : BufTy).Contents (Elt F) → (⟨S800000x8x8, .f32⟩ : BufTy).Contents (Elt F) → (⟨S800000x8x8, .f32⟩ : BufTy).Contents (Elt F)),
    StableHlo.TRef.nullary main_call0.cst (constant S_ .f32 0x00000000#32),
    StableHlo.TRef.unary main_call0.cst main_call0.v0 (broadcastInDim S800000x8x8 ![] bcast_S_S800000x8x8),
    StableHlo.TRef.binary (.of main_v30) main_call0.v0 main_call0.v1 (cmpf .oge),
    StableHlo.TRef.nullary main_call0.cst_0 (constant S_ .f32 0x3C23D70A#32),
    StableHlo.TRef.unary main_call0.cst_0 main_call0.v2 (broadcastInDim S800000x8x8 ![] bcast_S_S800000x8x8),
    StableHlo.TRef.binary main_call0.v2 (.of main_v30) main_call0.v3 mulf,
    StableHlo.TRef.ternary main_call0.v1 (.of main_v30) main_call0.v3 main_call0.call0.v0 select,
    StableHlo.nullary main_cst_5 (constant S_ .f32 0xFF800000#32),
    StableHlo.binary main_v31 main_cst_5 main_v32 ((fun x v => Host.reduce FloatOps.maximumf x v reducesTo_S800000x8x8_S800000x8_d2 h_S_) : (⟨S800000x8x8, .f32⟩ : BufTy).Contents (Elt F) → (⟨S_, .f32⟩ : BufTy).Contents (Elt F) → (⟨S800000x8, .f32⟩ : BufTy).Contents (Elt F)),
    StableHlo.nullary main_cst_6 (constant S_ .f32 0xFF800000#32),
    StableHlo.unary main_cst_6 main_v33 (broadcastInDim S800000x8 ![] bcast_S_S800000x8 : (⟨S_, .f32⟩ : BufTy).Contents (Elt F) → (⟨S800000x8, .f32⟩ : BufTy).Contents (Elt F)),
    StableHlo.binary main_v33 main_v32 main_v34 (maximumf : (⟨S800000x8, .f32⟩ : BufTy).Contents (Elt F) → (⟨S800000x8, .f32⟩ : BufTy).Contents (Elt F) → (⟨S800000x8, .f32⟩ : BufTy).Contents (Elt F)),
    StableHlo.unary main_v34 main_v35 (broadcastInDim S800000x8x1 ![0, 1] bcast_S800000x8_S800000x8x1_0_1 : (⟨S800000x8, .f32⟩ : BufTy).Contents (Elt F) → (⟨S800000x8x1, .f32⟩ : BufTy).Contents (Elt F)),
    StableHlo.unary main_v35 main_v36 (broadcastInDim S800000x8x8 ![0, 1, 2] bcast_S800000x8x1_S800000x8x8_0_1_2 : (⟨S800000x8x1, .f32⟩ : BufTy).Contents (Elt F) → (⟨S800000x8x8, .f32⟩ : BufTy).Contents (Elt F)),
    StableHlo.binary main_v31 main_v36 main_v37 (subf : (⟨S800000x8x8, .f32⟩ : BufTy).Contents (Elt F) → (⟨S800000x8x8, .f32⟩ : BufTy).Contents (Elt F) → (⟨S800000x8x8, .f32⟩ : BufTy).Contents (Elt F)),
    StableHlo.unary main_v37 main_v38 (Host.exp : (⟨S800000x8x8, .f32⟩ : BufTy).Contents (Elt F) → (⟨S800000x8x8, .f32⟩ : BufTy).Contents (Elt F)),
    StableHlo.nullary main_cst_7 (constant S_ .f32 0x00000000#32),
    StableHlo.binary main_v38 main_cst_7 main_v39 ((fun x v => Host.reduceAdd x v reducesTo_S800000x8x8_S800000x8_d2 h_S_) : (⟨S800000x8x8, .f32⟩ : BufTy).Contents (Elt F) → (⟨S_, .f32⟩ : BufTy).Contents (Elt F) → (⟨S800000x8, .f32⟩ : BufTy).Contents (Elt F)),
    StableHlo.unary main_v39 main_v40 (broadcastInDim S800000x8x1 ![0, 1] bcast_S800000x8_S800000x8x1_0_1 : (⟨S800000x8, .f32⟩ : BufTy).Contents (Elt F) → (⟨S800000x8x1, .f32⟩ : BufTy).Contents (Elt F)),
    StableHlo.unary main_v40 main_v41 (broadcastInDim S800000x8x8 ![0, 1, 2] bcast_S800000x8x1_S800000x8x8_0_1_2 : (⟨S800000x8x1, .f32⟩ : BufTy).Contents (Elt F) → (⟨S800000x8x8, .f32⟩ : BufTy).Contents (Elt F)),
    StableHlo.binary main_v38 main_v41 main_v42 (Host.divf : (⟨S800000x8x8, .f32⟩ : BufTy).Contents (Elt F) → (⟨S800000x8x8, .f32⟩ : BufTy).Contents (Elt F) → (⟨S800000x8x8, .f32⟩ : BufTy).Contents (Elt F)),
    StableHlo.binary main_v42 main_v8 main_v43 ((fun l r => Host.dotGeneral dot_S800000x8x8_S800000x8x16_S800000x8x16_2_1_1_2_0_0 none l r) : (⟨S800000x8x8, .f32⟩ : BufTy).Contents (Elt F) → (⟨S800000x8x16, .f32⟩ : BufTy).Contents (Elt F) → (⟨S800000x8x16, .f32⟩ : BufTy).Contents (Elt F)),
    StableHlo.reshape main_v43 main_v44 rfl shapeCasts_S800000x8x16_S800000x128,
    StableHlo.nullary main_cst_8 (constant S_ .f32 0x00000000#32),
    StableHlo.unary main_cst_8 main_v45 (broadcastInDim S50000x128 ![] bcast_S_S50000x128 : (⟨S_, .f32⟩ : BufTy).Contents (Elt F) → (⟨S50000x128, .f32⟩ : BufTy).Contents (Elt F)),
    StableHlo.unary main_arg5 main_v46 (broadcastInDim S800000x1 ![0] bcast_S800000_S800000x1_0 : (⟨S800000, .i32⟩ : BufTy).Contents (Elt F) → (⟨S800000x1, .i32⟩ : BufTy).Contents (Elt F)),
    StableHlo.ternary main_v45 main_v46 main_v44 main_v47 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

theorem ops_sub : (ops : List (HloOp τ sig (Elt F))).Forall fun op => op.bufs ⊆ tcRefs τ sig :=
  ⟨binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., reshape_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., reshape_bufs_sub .., nullary_bufs_sub .., unary_bufs_sub .., unary_bufs_sub .., ternary_bufs_sub ..⟩

end Cert.ReferenceIdeal.Line

end
-- ==== Proof.ReferenceRun.lean ====
/-
  The reference program's run.

  The reference is a host program with no kernel: a matrix product of v with Wv, three row gathers by the edge lists
  (the index first brought into range the way jnp indexing does: a negative index has the row count added), the
  per-edge products with Wq and Wk, the 8×8 score matrix of every edge, leaky-relu, a softmax over the last axis,
  the weighted combination of the gathered value rows and a scatter-add of the edge rows into the destination nodes.
  Its @main is a straight line: once the two outlined functions (leaky-relu and the select it calls) are put at
  their call, it is the sequence of the 65 operations of the table `Line.ops`. A straight line of host operations
  always runs to its end without a fault, and each buffer ends at the fold of the operations over the launch memory
  (`run_line`). None of the 65 operations writes an argument buffer, so every argument ends as launched
  (`kept_arg0` … `kept_arg8`): that is the reference's frame.
-/
import proofs.«151337_j57836029608550_2_alg».proof.Proof.ReferenceOps

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

-- sixty-five binds are re-associated one by one; the default recursion bound ends a little before that
set_option maxRecDepth 4096 in
/-- @main is the straight line: with the two called functions unfolded at their call and sequencing re-associated,
    both sides are one chain of the same 65 steps. -/
theorem main_eq (c : Dev nD) : main (F := F) c = seq ops := by
  simp only [main, fn_leaky_relu.body, fn_where.body, seq, bind_assoc, pure_bind]

/-- The reference names no scoped buffer and no scoped semaphore: it launches no kernel. -/
theorem scopedRefs_eq : (Finset.univ.filter fun b : Ref sig .tc => b.isScoped) = ∅ := by decide
theorem scopedSems_eq : (Finset.univ.filter fun sm : SemLoc sig => sm.isScoped .tc) = ∅ := by decide

/-- On every device, at any float instance, from any memory with zero counters: every weakly fair execution of @main
    terminates without a fault, and every buffer ends at the fold of the 65 operations over the launch contents. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

/-- No operation of the line writes argument 0: after the whole line its buffer holds what the launch memory held. -/
theorem kept_arg0 (m : (ℓ : Loc nD τ sig) → Buf (Elt F) ℓ) (c : Dev nD) :
    after ops (launchContents m c) (Proc.devRef .tc main_arg0) = m ((c.tc : Thread nD τ).loc main_arg0) := by
  after_results

/-- No operation of the line writes argument 1: after the whole line its buffer holds what the launch memory held. -/
theorem kept_arg1 (m : (ℓ : Loc nD τ sig) → Buf (Elt F) ℓ) (c : Dev nD) :
    after ops (launchContents m c) (Proc.devRef .tc main_arg1) = m ((c.tc : Thread nD τ).loc main_arg1) := by
  after_results

/-- No operation of the line writes argument 2: after the whole line its buffer holds what the launch memory held. -/
theorem kept_arg2 (m : (ℓ : Loc nD τ sig) → Buf (Elt F) ℓ) (c : Dev nD) :
    after ops (launchContents m c) (Proc.devRef .tc main_arg2) = m ((c.tc : Thread nD τ).loc main_arg2) := by
  after_results

/-- No operation of the line writes argument 3: after the whole line its buffer holds what the launch memory held. -/
theorem kept_arg3 (m : (ℓ : Loc nD τ sig) → Buf (Elt F) ℓ) (c : Dev nD) :
    after ops (launchContents m c) (Proc.devRef .tc main_arg3) = m ((c.tc : Thread nD τ).loc main_arg3) := by
  after_results

/-- No operation of the line writes argument 4: after the whole line its buffer holds what the launch memory held. -/
theorem kept_arg4 (m : (ℓ : Loc nD τ sig) → Buf (Elt F) ℓ) (c : Dev nD) :
    after ops (launchContents m c) (Proc.devRef .tc main_arg4) = m ((c.tc : Thread nD τ).loc main_arg4) := by
  after_results

/-- No operation of the line writes argument 5: after the whole line its buffer holds what the launch memory held. -/
theorem kept_arg5 (m : (ℓ : Loc nD τ sig) → Buf (Elt F) ℓ) (c : Dev nD) :
    after ops (launchContents m c) (Proc.devRef .tc main_arg5) = m ((c.tc : Thread nD τ).loc main_arg5) := by
  after_results

/-- No operation of the line writes argument 6: after the whole line its buffer holds what the launch memory held. -/
theorem kept_arg6 (m : (ℓ : Loc nD τ sig) → Buf (Elt F) ℓ) (c : Dev nD) :
    after ops (launchContents m c) (Proc.devRef .tc main_arg6) = m ((c.tc : Thread nD τ).loc main_arg6) := by
  after_results

/-- No operation of the line writes argument 7: after the whole line its buffer holds what the launch memory held. -/
theorem kept_arg7 (m : (ℓ : Loc nD τ sig) → Buf (Elt F) ℓ) (c : Dev nD) :
    after ops (launchContents m c) (Proc.devRef .tc main_arg7) = m ((c.tc : Thread nD τ).loc main_arg7) := by
  after_results

/-- No operation of the line writes argument 8: after the whole line its buffer holds what the launch memory held. -/
theorem kept_arg8 (m : (ℓ : Loc nD τ sig) → Buf (Elt F) ℓ) (c : Dev nD) :
    after ops (launchContents m c) (Proc.devRef .tc main_arg8) = m ((c.tc : Thread nD τ).loc main_arg8) := by
  after_results

end Cert.ReferenceIdeal.Line

end
-- ==== Proof.ReferenceFrame.lean ====
/-
  The reference's frame: under the precondition (not needed here: a straight line of host operations runs from any
  memory) every weakly fair execution of the reference terminates, nothing faults, and each of the nine argument
  arrays ends holding what it held at launch, because no operation of the line writes an argument.
-/
import proofs.«151337_j57836029608550_2_alg».proof.Defs
import proofs.«151337_j57836029608550_2_alg».proof.Proof.ReferenceRun
import proofs.«151337_j57836029608550_2_alg».proof.Proof.Gen.Pre_finite_inputs

noncomputable section

namespace Cert.Proof.Reference

open Idealize.ShloMosaic Idealize.SL.Sem

/-- The frame of the reference, read off its run: the run names every buffer's final contents, and at an argument
    that is the launch contents. -/
theorem frame : Cert.frame_ReferenceIdeal := fun m ρ _ =>
  (θ_run (Cert.ReferenceIdeal.defs (F := Ideal)) _ _).mono
    (fun _ h c => ⟨(h c Cert.ReferenceIdeal.main_arg0).trans (Cert.ReferenceIdeal.Line.kept_arg0 m c),
      (h c Cert.ReferenceIdeal.main_arg1).trans (Cert.ReferenceIdeal.Line.kept_arg1 m c),
      (h c Cert.ReferenceIdeal.main_arg2).trans (Cert.ReferenceIdeal.Line.kept_arg2 m c),
      (h c Cert.ReferenceIdeal.main_arg3).trans (Cert.ReferenceIdeal.Line.kept_arg3 m c),
      (h c Cert.ReferenceIdeal.main_arg4).trans (Cert.ReferenceIdeal.Line.kept_arg4 m c),
      (h c Cert.ReferenceIdeal.main_arg5).trans (Cert.ReferenceIdeal.Line.kept_arg5 m c),
      (h c Cert.ReferenceIdeal.main_arg6).trans (Cert.ReferenceIdeal.Line.kept_arg6 m c),
      (h c Cert.ReferenceIdeal.main_arg7).trans (Cert.ReferenceIdeal.Line.kept_arg7 m c),
      (h c Cert.ReferenceIdeal.main_arg8).trans (Cert.ReferenceIdeal.Line.kept_arg8 m c)⟩)
    (Cert.ReferenceIdeal.Line.run_line (F := Ideal) m ρ)

end Cert.Proof.Reference

end
-- ==== Proof.KB.Region0.lean ====
/-
  The projection kernel (the first pallas_call), at the contents `V` its region is entered with.

  The grid has 25 points; point t sees rows 2000·t … 2000·t + 1999 of q, k and v (windows 0, 1, 2), the three
  128 × 128 weights whole (windows 3, 4, 5: their block never moves, so they are fetched once), and writes the same
  rows of the three results (windows 6, 7, 8). The body loads its six input blocks whole and stores three matrix products,
  each a block of rows times a weight: what a result's staging buffer holds after the body is that one product
  (`out0_6`, `out0_7`, `out0_8`), a function of the point's input blocks alone. No block overhangs an array
  (25 · 2000 = 50000).

  This file: the blocks (`iblk0`), the three stored blocks, the body's triple (`sound_kernel0`: run by the symbolic
  executor), the pipeline's proof data `dat0` and the body obligation at every point (`body_obligation0`). Stated at
  any float instance.
-/
import proofs.«151337_j57836029608550_2_alg».proof.Proof.Gen.Kernel.Launch
import proofs.«151337_j57836029608550_2_alg».proof.Proof.Gen.Kernel.Skeleton
import proofs.«151337_j57836029608550_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not (a window that is
    not fetched at a point has not moved its block index since the last fetch), for any proof data whose array is
    `V`'s and whose body leaves the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What the body stores -/

/-- The whole 2000 × 128 block and the whole 128 × 128 weight, as rectangles. -/
abbrev rB : Rect S2000x128 := Rect.unit (s := S2000x128) ![0, 0] S2000x128.size inb_S2000x128_S2000x128_0_0
abbrev rW : Rect S128x128 := Rect.unit (s := S128x128) ![0, 0] S128x128.size inb_S128x128_S128x128_0_0

/-- The three result buffers after the body: one whole store each, of the product of a row block with a weight. -/
def out0_6 (x0 : Vec F S2000x128 .f32) (x3 : Vec F S128x128 .f32) : Vec F S2000x128 .f32 :=
  View.canon [⟨rB, k0_pay1 (View.ld x0 rB) (View.ld x3 rW)⟩]
def out0_7 (x1 : Vec F S2000x128 .f32) (x4 : Vec F S128x128 .f32) : Vec F S2000x128 .f32 :=
  View.canon [⟨rB, k0_pay2 (View.ld x1 rB) (View.ld x4 rW)⟩]
def out0_8 (x2 : Vec F S2000x128 .f32) (x5 : Vec F S128x128 .f32) : Vec F S2000x128 .f32 :=
  View.canon [⟨rB, k0_pay3 (View.ld x2 rB) (View.ld x5 rW)⟩]

/-- A whole store covers the buffer. -/
theorem cover0 (p0 : Vec F S2000x128 .f32) (y : S2000x128.Idx) :
    ∃ pc ∈ ([⟨rB, p0⟩] : List (View.Piece (Elt F) S2000x128 .f32)), y ∈ pc.1.set :=
  View.cover_of_tiled [⟨rB, p0⟩] S2000x128.size (by rfl) y

/-! ## The body's triple -/

set_option maxHeartbeats 1000000 in
/-- The body on whole staging memrefs, the six inputs' at read contents and the three outputs' at anything, runs to the
    continuation holding the inputs' as they were and each output's at its one stored product. -/
theorem sound_kernel0 (c : Dev nD) (E : Set ℕ) (i : grid0.Coords)
    (arg1 : Memref sig .tc .vmem S2000x128 .f32) (harg1 : arg1.IsWhole) (arg2 : Memref sig .tc .vmem S2000x128 .f32) (harg2 : arg2.IsWhole)
    (arg3 : Memref sig .tc .vmem S2000x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S2000x128 .f32) (harg7 : arg7.IsWhole) (arg8 : Memref sig .tc .vmem S2000x128 .f32) (harg8 : arg8.IsWhole)
    (arg9 : Memref sig .tc .vmem S2000x128 .f32) (harg9 : arg9.IsWhole)
    (x0 x1 x2 : Vec F S2000x128 .f32) (x3 x4 x5 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x3) ∗ owns (c : Thread nD τ) arg8 fullShare (out0_7 x1 x4)
            ∗ owns (c : Thread nD τ) arg9 fullShare (out0_8 x2 x5)) -∗ K ⟨⟩))
      ⊢ wp frame (wpE (defs₀ (F := F)) Variants.none c none) E
          (cc0__proj_kernel i arg1 harg1 arg2 harg2 arg3 harg3 arg4 harg4 arg5 harg5 arg6 harg6 arg7 harg7 arg8 harg8 arg9 harg9) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  isplitl [H7]
  · iexists _; isplitr
    swap; · iexact H7
    ipureintro
    exact View.read_writes_eq_canon _ _ _ (cover0 _)
  iexists _; isplitr
  swap; · iexact H8
  ipureintro
  exact View.read_writes_eq_canon _ _ _ (cover0 _)

/-! ## The pipeline's proof data -/

/-- The proof data of the projection pipeline on core `c`: the arrays as the region finds them; after the body at point `t`
    each input's buffer at its block and each result's at its product of the point's blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 3 t)
    | ⟨7, _⟩ => out0_7 (iblk0 V c 1 t) (iblk0 V c 4 t)
    | ⟨8, _⟩ => out0_8 (iblk0 V c 2 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 3 t) := by dsimp only [dat0]
theorem after0_7 (c : Dev nD) (t : Fin cfg0.N) : (dat0 V c).after 7 t = out0_7 (iblk0 V c 1 t) (iblk0 V c 4 t) := by dsimp only [dat0]
theorem after0_8 (c : Dev nD) (t : Fin cfg0.N) : (dat0 V c).after 8 t = out0_8 (iblk0 V c 2 t) (iblk0 V c 5 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' memrefs hold their blocks, so the body's triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Region1.lean ====
/-
  The edge kernel (the second pallas_call), at the contents `V` its region is entered with, for a claim that does
  not read what it writes.

  The grid has 391 points; point t sees rows 2048·t … 2048·t + 2047 of the gathered queries, keys and values and of
  the edge features (windows 0–3), the 128 × 128 key weight whole (window 4) and writes the same rows of the result
  (window 5). The last block overhangs the arrays by 768 rows (391 · 2048 = 800768): a fetch fills only the rows
  inside the array, so the body computes on rows nothing names. The proof data therefore CONSTRAIN nothing about
  what the body leaves in any staging buffer: the body's loads and its one store are of whole buffers, so it runs
  whatever they hold, and that is all a claim about the arguments needs. Stated at any float instance.
-/
import proofs.«151337_j57836029608550_2_alg».proof.Proof.Gen.Kernel.Launch
import proofs.«151337_j57836029608550_2_alg».proof.Proof.Gen.Kernel.Skeleton
import proofs.«151337_j57836029608550_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

/-- The edge kernel's body on whole staging memrefs held at any contents runs to the continuation holding each at
    some contents: its five loads, the dead load of the output buffer and its one store are within the buffers, and
    nothing else touches memory. -/
theorem sound_kernel1 (c : Dev nD) (E : Set ℕ) (i : grid1.Coords)
    (arg1 : Memref sig .tc .vmem S2048x128 .f32) (harg1 : arg1.IsWhole) (arg2 : Memref sig .tc .vmem S2048x128 .f32) (harg2 : arg2.IsWhole)
    (arg3 : Memref sig .tc .vmem S2048x128 .f32) (harg3 : arg3.IsWhole) (arg4 : Memref sig .tc .vmem S2048x128 .f32) (harg4 : arg4.IsWhole)
    (arg5 : Memref sig .tc .vmem S128x128 .f32) (harg5 : arg5.IsWhole) (arg6 : Memref sig .tc .vmem S2048x128 .f32) (harg6 : arg6.IsWhole)
    (K : PUnit → sProp 𝕄) :
    iprop((∃ d, owns (c : Thread nD τ) arg1 fullShare d) ∗ (∃ d, owns (c : Thread nD τ) arg2 fullShare d)
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop((∃ d, owns (c : Thread nD τ) arg1 fullShare d) ∗ (∃ d, owns (c : Thread nD τ) arg2 fullShare d)
            ∗ (∃ d, owns (c : Thread nD τ) arg3 fullShare d) ∗ (∃ d, owns (c : Thread nD τ) arg4 fullShare d)
            ∗ (∃ d, owns (c : Thread nD τ) arg5 fullShare d) ∗ (∃ d, owns (c : Thread nD τ) arg6 fullShare d)) -∗ K ⟨⟩))
      ⊢ wp frame (wpE (defs₀ (F := F)) Variants.none c none) E (cc1__edge_kernel i arg1 harg1 arg2 harg2 arg3 harg3 arg4 harg4 arg5 harg5 arg6 harg6) K := by
  simp only [cc1__edge_kernel_eq_skeleton]; unfold cc1__edge_kernel_skel
  simp only [k1_part1_eq_skeleton, k1_part2_eq_skeleton, k1_part3_eq_skeleton]
  unfold k1_part1_skel k1_part2_skel k1_part3_skel
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, Hk⟩
  sl_exec
  sl_step
  iapply Hk
  isplitl [H1]
  · iexists _; iexists _; isplitr; swap; · iexact H1
    ipureintro; rfl
  isplitl [H2]
  · iexists _; iexists _; isplitr; swap; · iexact H2
    ipureintro; rfl
  isplitl [H3]
  · iexists _; iexists _; isplitr; swap; · iexact H3
    ipureintro; rfl
  isplitl [H4]
  · iexists _; iexists _; isplitr; swap; · iexact H4
    ipureintro; rfl
  isplitl [H5]
  · iexists _; iexists _; isplitr; swap; · iexact H5
    ipureintro; rfl
  · iexists _; iexists _; isplitr; swap; · iexact H6
    ipureintro; rfl

section Region1

variable (V : (c : Dev nD) → (b : Ref sig .tc) → Buf (Elt F) ((c : Thread nD τ).loc b))

/-- The relational proof data of pipeline 1 on core `c`: the arrays as the region finds them (`V`); of what the body
    leaves in any staging buffer nothing is said; the invariant is the scoped rest and the generator register,
    untouched; nothing owed; full shares. -/
def rd1 (c : Dev nD) : RDat τ (Elt F) Unit ℕ (UR sig nD τ) ℕ cfg1 c where
  A w := V c (Pipeline.arrRef spec1 w)
  after _ _ _ _ := True
  Φ _ := Pipeline.ΦA spec1 c
  q _ := fullShare
  owed _ := 0

/-- What the body is called with at point `t`, the windows one by one, each current buffer at the contents `Y w`, -/
def bodyPre1 (c : Dev nD) (t : Fin cfg1.N) (Y : (w : Fin cfg1.W) → (cfg1.win w).block.Idx → Elt F (cfg1.win w).elt) : sProp 𝕄 :=
  iprop((rd1 V c).Φ t.castSucc ∗ (rd1 V c).owesAt () t.castSucc
    ∗ owns (c : Thread nD τ) (st1_0 t) fullShare (Y 0) ∗ owns (c : Thread nD τ) (st1_1 t) fullShare (Y 1)
    ∗ owns (c : Thread nD τ) (st1_2 t) fullShare (Y 2) ∗ owns (c : Thread nD τ) (st1_3 t) fullShare (Y 3)
    ∗ owns (c : Thread nD τ) (st1_4 t) fullShare (Y 4) ∗ owns (c : Thread nD τ) (st1_5 t) fullShare (Y 5))

/-- and what it returns: each at some contents. -/
def bodyPost1 (c : Dev nD) (t : Fin cfg1.N) (Y : (w : Fin cfg1.W) → (cfg1.win w).block.Idx → Elt F (cfg1.win w).elt) : sProp 𝕄 :=
  iprop((rd1 V c).Φ t.succ ∗ (rd1 V c).owesAt () t.succ
    ∗ (∃ X, ⌜(rd1 V c).after 0 t (Y 0) X⌝ ∗ owns (c : Thread nD τ) (st1_0 t) fullShare X)
    ∗ (∃ X, ⌜(rd1 V c).after 1 t (Y 1) X⌝ ∗ owns (c : Thread nD τ) (st1_1 t) fullShare X)
    ∗ (∃ X, ⌜(rd1 V c).after 2 t (Y 2) X⌝ ∗ owns (c : Thread nD τ) (st1_2 t) fullShare X)
    ∗ (∃ X, ⌜(rd1 V c).after 3 t (Y 3) X⌝ ∗ owns (c : Thread nD τ) (st1_3 t) fullShare X)
    ∗ (∃ X, ⌜(rd1 V c).after 4 t (Y 4) X⌝ ∗ owns (c : Thread nD τ) (st1_4 t) fullShare X)
    ∗ (∃ X, ⌜(rd1 V c).after 5 t (Y 5) X⌝ ∗ owns (c : Thread nD τ) (st1_5 t) fullShare X))

/-- The body at any point: whatever its buffers hold, it runs and hands each back; the invariant and the core's
    `owes` pass through unread. -/
theorem sound_body1 (c : Dev nD) (t : Fin cfg1.N) (Y : (w : Fin cfg1.W) → (cfg1.win w).block.Idx → Elt F (cfg1.win w).elt) :
    bodyPre1 V c t Y ⊢ wp frame (wpE (defs₀ (F := F)) Variants.none c none) Set.univ (bodyAt1 t) (fun _ => bodyPost1 V c t Y) := by
  unfold bodyPre1 bodyPost1 bodyAt1
  rw [show (rd1 V c).Φ t.succ = (rd1 V c).Φ t.castSucc from rfl,
    show (rd1 V c).owesAt () t.succ = (rd1 V c).owesAt () t.castSucc from rfl]
  iintro ⟨HΦ, Ho, H0, H1, H2, H3, H4, H5⟩
  iapply (sound_kernel1 c Set.univ _ _ _ _ _ _ _ _ _ _ _ _ _ _)
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  iintro ⟨⟨%X0, H0⟩, ⟨%X1, H1⟩, ⟨%X2, H2⟩, ⟨%X3, H3⟩, ⟨%X4, H4⟩, ⟨%X5, H5⟩⟩
  isplitl [HΦ]; · iexact HΦ
  isplitl [Ho]; · iexact Ho
  isplitl [H0]; · iexists X0; isplitr; · ipureintro; trivial
                  iexact H0
  isplitl [H1]; · iexists X1; isplitr; · ipureintro; trivial
                  iexact H1
  isplitl [H2]; · iexists X2; isplitr; · ipureintro; trivial
                  iexact H2
  isplitl [H3]; · iexists X3; isplitr; · ipureintro; trivial
                  iexact H3
  isplitl [H4]; · iexists X4; isplitr; · ipureintro; trivial
                  iexact H4
  · iexists X5; isplitr; · ipureintro; trivial
    iexact H5

/-- The library's body obligation of the relational data, at every point: nothing of what the buffers may hold is used. -/
theorem body_obligation1 (c : Dev nD) : (rd1 (F := F) V c).BodyObligation (defs₀ (F := F)) Variants.none () Set.univ := fun t Y _ => by
  rw [bigSep_W1, bigSep_W1]
  exact sound_body1 V c t Y

end Region1

end Cert.Kernel.Hand

end
-- ==== Proof.KB.Run0.lean ====
/-
  The run of the word-level kernel program, first half: the buffer contents at the segment boundaries that can be
  named (the launch contents; region 0's exit, its outputs at the products the exact proof data name; the first host
  stretch's results), the nine arguments read back through them, the thread states, the two host stretches as segments
  — the second over a thread state that names no contents, only that the arguments are kept — and region 0's record.
  Stated at any float instance.
-/
import proofs.«151337_j57836029608550_2_alg».proof.Proof.KB.Region0
import proofs.«151337_j57836029608550_2_alg».proof.Proof.KB.Region1
import proofs.«151337_j57836029608550_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (HostSeg)

variable (m : (ℓ : Loc nD τ sig) → Buf (Elt F) ℓ)

/-! ## The buffer contents at the segment boundaries that name them -/

/-- Core `c`'s buffers at launch (region 0's entry). -/
abbrev U0 : Dev nD → Valuation τ sig (Elt F) := fun c b => m (c, b)
abbrev X0 : (c : Dev nD) → (b : Ref sig .tc) → Buf (Elt F) ((c : Thread nD τ).loc b) := fun c b => U0 m c b
/-- At region 0's exit: its arrays at what the pipeline leaves, every other buffer as entered. -/
def U1 (c : Dev nD) : Valuation τ sig (Elt F) :=
  Pipeline.withArrays spec0 c (U0 m c) fun w => (dat0 (X0 m) c).arrAt w cfg0.N
theorem U1_arr (c : Dev nD) (w : Fin cfg0.W) :
    U1 m c (Proc.devRef .tc (Pipeline.arrRef spec0 w)) = (dat0 (X0 m) c).arrAt w cfg0.N := by
  unfold U1; exact Pipeline.withArrays_arr spec0 launch0.win.arr_inj c _ _ w
theorem U1_of_ne (c : Dev nD) (b : Ref sig .tc) (hb : ∀ w, Pipeline.arrRef spec0 w ≠ b) :
    U1 m c (Proc.devRef .tc b) = U0 m c (Proc.devRef .tc b) := by
  unfold U1; exact Pipeline.withArrays_of_ne spec0 c _ _ b hb
abbrev X1 : (c : Dev nD) → (b : Ref sig .tc) → Buf (Elt F) ((c : Thread nD τ).loc b) := fun c b => U1 m c b
theorem hF0 (c : Dev nD) (w : Fin cfg0.W) : (dat0 (X0 m) c).arrAt w cfg0.N = X1 m c (Pipeline.arrRef spec0 w) :=
  (U1_arr m c w).symm
theorem hrest0 (c : Dev nD) : ∀ b, b ∉ Finset.univ.image (Pipeline.arrRef spec0) → X1 m c b = X0 m c b :=
  fun b hb => U1_of_ne m c b fun w e => hb (Finset.mem_image.mpr ⟨w, Finset.mem_univ _, e⟩)
/-- After the first host stretch (region 1's entry). -/
abbrev U2 : Dev nD → Valuation τ sig (Elt F) := fun c => StableHlo.after hostOps1 (U1 m c)
abbrev X2 : (c : Dev nD) → (b : Ref sig .tc) → Buf (Elt F) ((c : Thread nD τ).loc b) := fun c b => U2 m c b

/-! ## The arguments through region 0 and the first host stretch: region 0 reads six of them through input windows
    and bypasses the others; the stretch writes none -/

theorem U1_main_arg0 (c : Dev nD) : U1 m c (Proc.devRef .tc main_arg0) = m ((c : Thread nD τ).loc main_arg0) :=
  (U1_arr m c 0).trans (((dat0 (X0 m) c).arrAt_in 0 rfl _).trans (A_eq0 (X0 m) c 0))
theorem U1_main_arg1 (c : Dev nD) : U1 m c (Proc.devRef .tc main_arg1) = m ((c : Thread nD τ).loc main_arg1) :=
  (U1_arr m c 1).trans (((dat0 (X0 m) c).arrAt_in 1 rfl _).trans (A_eq0 (X0 m) c 1))
theorem U1_main_arg2 (c : Dev nD) : U1 m c (Proc.devRef .tc main_arg2) = m ((c : Thread nD τ).loc main_arg2) :=
  (U1_arr m c 2).trans (((dat0 (X0 m) c).arrAt_in 2 rfl _).trans (A_eq0 (X0 m) c 2))
theorem U1_main_arg3 (c : Dev nD) : U1 m c (Proc.devRef .tc main_arg3) = m ((c : Thread nD τ).loc main_arg3) :=
  U1_of_ne m c main_arg3 (by decide)
theorem U1_main_arg4 (c : Dev nD) : U1 m c (Proc.devRef .tc main_arg4) = m ((c : Thread nD τ).loc main_arg4) :=
  U1_of_ne m c main_arg4 (by decide)
theorem U1_main_arg5 (c : Dev nD) : U1 m c (Proc.devRef .tc main_arg5) = m ((c : Thread nD τ).loc main_arg5) :=
  U1_of_ne m c main_arg5 (by decide)
theorem U1_main_arg6 (c : Dev nD) : U1 m c (Proc.devRef .tc main_arg6) = m ((c : Thread nD τ).loc main_arg6) :=
  (U1_arr m c 3).trans (((dat0 (X0 m) c).arrAt_in 3 rfl _).trans (A_eq0 (X0 m) c 3))
theorem U1_main_arg7 (c : Dev nD) : U1 m c (Proc.devRef .tc main_arg7) = m ((c : Thread nD τ).loc main_arg7) :=
  (U1_arr m c 4).trans (((dat0 (X0 m) c).arrAt_in 4 rfl _).trans (A_eq0 (X0 m) c 4))
theorem U1_main_arg8 (c : Dev nD) : U1 m c (Proc.devRef .tc main_arg8) = m ((c : Thread nD τ).loc main_arg8) :=
  (U1_arr m c 5).trans (((dat0 (X0 m) c).arrAt_in 5 rfl _).trans (A_eq0 (X0 m) c 5))
theorem U2_main_arg0 (c : Dev nD) : U2 m c (Proc.devRef .tc main_arg0) = m ((c : Thread nD τ).loc main_arg0) :=
  (StableHlo.after_of_writes_sub hostOps1 _ hostOps1_writes (r := main_arg0) (by decide)).trans (U1_main_arg0 m c)
theorem U2_main_arg1 (c : Dev nD) : U2 m c (Proc.devRef .tc main_arg1) = m ((c : Thread nD τ).loc main_arg1) :=
  (StableHlo.after_of_writes_sub hostOps1 _ hostOps1_writes (r := main_arg1) (by decide)).trans (U1_main_arg1 m c)
theorem U2_main_arg2 (c : Dev nD) : U2 m c (Proc.devRef .tc main_arg2) = m ((c : Thread nD τ).loc main_arg2) :=
  (StableHlo.after_of_writes_sub hostOps1 _ hostOps1_writes (r := main_arg2) (by decide)).trans (U1_main_arg2 m c)
theorem U2_main_arg3 (c : Dev nD) : U2 m c (Proc.devRef .tc main_arg3) = m ((c : Thread nD τ).loc main_arg3) :=
  (StableHlo.after_of_writes_sub hostOps1 _ hostOps1_writes (r := main_arg3) (by decide)).trans (U1_main_arg3 m c)
theorem U2_main_arg4 (c : Dev nD) : U2 m c (Proc.devRef .tc main_arg4) = m ((c : Thread nD τ).loc main_arg4) :=
  (StableHlo.after_of_writes_sub hostOps1 _ hostOps1_writes (r := main_arg4) (by decide)).trans (U1_main_arg4 m c)
theorem U2_main_arg5 (c : Dev nD) : U2 m c (Proc.devRef .tc main_arg5) = m ((c : Thread nD τ).loc main_arg5) :=
  (StableHlo.after_of_writes_sub hostOps1 _ hostOps1_writes (r := main_arg5) (by decide)).trans (U1_main_arg5 m c)
theorem U2_main_arg6 (c : Dev nD) : U2 m c (Proc.devRef .tc main_arg6) = m ((c : Thread nD τ).loc main_arg6) :=
  (StableHlo.after_of_writes_sub hostOps1 _ hostOps1_writes (r := main_arg6) (by decide)).trans (U1_main_arg6 m c)
theorem U2_main_arg7 (c : Dev nD) : U2 m c (Proc.devRef .tc main_arg7) = m ((c : Thread nD τ).loc main_arg7) :=
  (StableHlo.after_of_writes_sub hostOps1 _ hostOps1_writes (r := main_arg7) (by decide)).trans (U1_main_arg7 m c)
theorem U2_main_arg8 (c : Dev nD) : U2 m c (Proc.devRef .tc main_arg8) = m ((c : Thread nD τ).loc main_arg8) :=
  (StableHlo.after_of_writes_sub hostOps1 _ hostOps1_writes (r := main_arg8) (by decide)).trans (U1_main_arg8 m c)

/-- The arguments hold their launch contents. -/
def ArgsKept (c : Dev nD) (V : Valuation τ sig (Elt F)) : Prop :=
  V (Proc.devRef .tc main_arg0) = m ((c : Thread nD τ).loc main_arg0)
    ∧ V (Proc.devRef .tc main_arg1) = m ((c : Thread nD τ).loc main_arg1)
    ∧ V (Proc.devRef .tc main_arg2) = m ((c : Thread nD τ).loc main_arg2)
    ∧ V (Proc.devRef .tc main_arg3) = m ((c : Thread nD τ).loc main_arg3)
    ∧ V (Proc.devRef .tc main_arg4) = m ((c : Thread nD τ).loc main_arg4)
    ∧ V (Proc.devRef .tc main_arg5) = m ((c : Thread nD τ).loc main_arg5)
    ∧ V (Proc.devRef .tc main_arg6) = m ((c : Thread nD τ).loc main_arg6)
    ∧ V (Proc.devRef .tc main_arg7) = m ((c : Thread nD τ).loc main_arg7)
    ∧ V (Proc.devRef .tc main_arg8) = m ((c : Thread nD τ).loc main_arg8)

theorem argsKept_U2 (c : Dev nD) : ArgsKept m c (U2 m c) :=
  ⟨U2_main_arg0 m c, U2_main_arg1 m c, U2_main_arg2 m c, U2_main_arg3 m c, U2_main_arg4 m c, U2_main_arg5 m c, U2_main_arg6 m c, U2_main_arg7 m c, U2_main_arg8 m c⟩

/-- The second host stretch writes no argument. -/
theorem argsKept_after2 (c : Dev nD) (V : Valuation τ sig (Elt F)) (h : ArgsKept m c V) : ArgsKept m c (StableHlo.after hostOps2 V) :=
  ⟨(StableHlo.after_of_writes_sub hostOps2 _ hostOps2_writes (r := main_arg0) (by decide)).trans h.1,
   (StableHlo.after_of_writes_sub hostOps2 _ hostOps2_writes (r := main_arg1) (by decide)).trans h.2.1,
   (StableHlo.after_of_writes_sub hostOps2 _ hostOps2_writes (r := main_arg2) (by decide)).trans h.2.2.1,
   (StableHlo.after_of_writes_sub hostOps2 _ hostOps2_writes (r := main_arg3) (by decide)).trans h.2.2.2.1,
   (StableHlo.after_of_writes_sub hostOps2 _ hostOps2_writes (r := main_arg4) (by decide)).trans h.2.2.2.2.1,
   (StableHlo.after_of_writes_sub hostOps2 _ hostOps2_writes (r := main_arg5) (by decide)).trans h.2.2.2.2.2.1,
   (StableHlo.after_of_writes_sub hostOps2 _ hostOps2_writes (r := main_arg6) (by decide)).trans h.2.2.2.2.2.2.1,
   (StableHlo.after_of_writes_sub hostOps2 _ hostOps2_writes (r := main_arg7) (by decide)).trans h.2.2.2.2.2.2.2.1,
   (StableHlo.after_of_writes_sub hostOps2 _ hostOps2_writes (r := main_arg8) (by decide)).trans h.2.2.2.2.2.2.2.2⟩

/-! ## The proof data family and the thread states -/

/-- Every pipeline's proof data: region 0's exact data read relationally, region 1's relational data at its entry contents. -/
def rdats : (p : Fin 2) → (c : Dev nD) → RDat τ (Elt F) Unit ℕ (UR sig nD τ) ℕ (Pipeline.pin (pcfgs (F := F)) adm p) c
  | ⟨0, _⟩ => fun c => (dat0 (X0 m) c).toR
  | ⟨1, _⟩ => fun c => rd1 (X2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- The thread state from region 1's exit on: every unscoped buffer at SOME contents that keep the arguments. -/
def TK (c : Dev nD) : sProp 𝕄 :=
  iprop(∃ V : Valuation τ sig (Elt F), ⌜ArgsKept m c V⌝ ∗ StableHlo.held (c : Thread nD τ) (Pipeline.ucRefs τ sig) V ∗ R c)
abbrev Tₙ (c : Dev nD) : sProp 𝕄 :=
  iprop(∃ V : Valuation τ sig (Elt F), ⌜ArgsKept m c V⌝ ∗ StableHlo.held (c : Thread nD τ) (Pipeline.ucRefs τ sig) V ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The host stretches as segments -/

/-- The first stretch, from region 0's exit contents. -/
abbrev seg1 : HostSeg (Ix := Unit) (Name := ℕ) (U := UR sig nD τ) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U1 m) R

set_option backward.isDefEq.respectTransparency.types false in
/-- The second stretch, from SOME contents that keep the arguments to some such contents: the stretch runs from any
    valuation, and writes no argument. -/
def seg3 : HostSeg (Ix := Unit) (Name := ℕ) (U := UR sig nD τ) (Lvl := ℕ) (pcfgs (F := F)) defs₀ 𝒱₀ L lv where
  prog := StableHlo.seq hostOps2
  pre c := TK m c
  post c := TK m c
  run c {β} k K := by
    have hseq := fun V : Valuation τ sig (Elt F) => StableHlo.wp_seq (defs := Pipeline.defs (pcfgs (F := F)) defs₀) (Variants.lift 𝒱₀) none Set.univ c (Pipeline.ucRefs τ sig) k (K := K) hostOps2
      (fun op h => Pipeline.sub_ucRefs op ((List.forall_iff_forall_mem.mp hostOps2_sub) op h))
      (fun op h => (List.forall_iff_forall_mem.mp hostOps2_fresh) op h) V
    unfold TK
    iintro ⟨Hk, Hbd, ⟨%V, %hV, Hh, HR⟩, -⟩
    iapply (hseq V) $$ [Hbd Hh]
    · isplitl [Hbd] <;> iassumption
    iintro ⟨Hbd, Hh⟩
    iapply Hk
    isplitl [Hbd]; · iexact Hbd
    iexists _
    isplitr; · ipureintro; exact argsKept_after2 m c V hV
    isplitl [Hh] <;> iassumption

/-! ## The regions as segments -/

theorem share0 (c : Dev nD) (w : Fin cfg0.W) : (rdats m 0 c).share w = fullShare := by
  unfold RDat.share; split <;> rfl
theorem share1 (c : Dev nD) (w : Fin cfg1.W) : (rdats m 1 c).share w = fullShare := by
  unfold RDat.share; split <;> rfl

/-- EXIT, the arrays' part, of relational data: pipeline `p`'s arrays at contents `G` and the unscoped rest at `V` are
    the core's unscoped buffers at any valuation `V'` that has the arrays at `G` and agrees with `V` off them. -/
theorem bufs_of_arraysR (p : Fin 2) (hw : Pipeline.WinFacts (Pipeline.pin (pcfgs (F := F)) adm p).spec)
    (harr : ∀ w, ((Pipeline.pin (pcfgs (F := F)) adm p).spec w).arr.IsWhole) (c : Dev nD)
    (hshare : ∀ w, (rdats m p c).share w = fullShare)
    (V V' : (b : Ref sig .tc) → Buf (Elt F) ((c : Thread nD τ).loc b))
    (G : (w : Fin (Pipeline.pin (pcfgs (F := F)) adm p).W) → Buf (Elt F) (((Pipeline.pin (pcfgs (F := F)) adm p).spec w).arr.view.loc (c : Thread nD τ)))
    (hG : ∀ w, G w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rdats m p c).arrays G ∗ Pipeline.unscopedRest (Ix := Unit) (Name := ℕ) (U := UR sig nD τ) (Lvl := ℕ) (Pipeline.pin (pcfgs (F := F)) adm p).spec c V)
      ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm (rdats m) p c harr hshare]
  refine sep_mono (Entails.of_eq (bigSep_congr fun w _ => by rw [hG])) (Entails.of_eq ?_)
  unfold Pipeline.unscopedRest
  exact bigSep_congr fun b hb => by rw [hrest b (Finset.mem_sdiff.mp hb).2]

set_option backward.isDefEq.respectTransparency.types false in
/-- REGION 0 over the thread state: entered from every unscoped buffer at the launch contents, left at `U1`. Its
    arrays split out of the unscoped buffers and put back at the exit contents the exact data name; the generator
    register into the invariant and out; nothing owed; no semaphore of the kernel's own. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (X0 m) c).toR
  hwaits := Pipeline.RDat.hwaits_of_owed_zero _ _ _ _ L lv 0 fun _ _ => rfl
  pre c := iprop(StableHlo.held (c : Thread nD τ) (Pipeline.ucRefs τ sig) (U0 m c) ∗ R c)
  post c := iprop(StableHlo.held (c : Thread nD τ) (Pipeline.ucRefs τ sig) (U1 m c) ∗ R c)
  X c := iprop(∃ r, prngReg c r)
  Y c := iprop(∃ r, prngReg c r)
  Z c := Pipeline.unscopedRest (Ix := Unit) (Name := ℕ) (U := UR sig nD τ) (Lvl := ℕ) spec0 c (X0 m c)
  hentry c := by
    rw [Pipeline.ownSems0_none]
    have hsplit := Pipeline.RDat.arrays_of_unscopedBufs (p := 0) (pcfgs (F := F)) adm (rdats m) launch0.win launch0.arr_whole c
      (share0 m c) (X0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := bufs_of_arraysR m 0 launch0.win launch0.arr_whole c (share0 m c)
      (X0 m c) (X1 m c) ((dat0 (X0 m) c).arrAt · cfg0.N) (hF0 m c) (hrest0 m c)
    rw [Pipeline.unscopedBufs_held] at hjoin
    rw [show (rdats m 0 c).arraysAt (Pipeline.pin (pcfgs (F := F)) adm 0).N = (rdats m 0 c).arrays ((dat0 (X0 m) c).arrAt · cfg0.N)
      from (dat0 (X0 m) c).toR_arraysAt_eq cfg0.N]
    iintro ⟨Ha, HO, HY, Hrest⟩
    imodintro
    isplitl [Ha Hrest]
    · iapply hjoin
      isplitl [Ha]; · iexact Ha
      iexact Hrest
    isplitl [HY]; · iexact HY
    unfold Pipeline.RDat.owesAt Pipeline.owesWithin
    icases HO with ⟨%W, -, HO⟩; iexists W; iexact HO

end Cert.Kernel.Hand

end
-- ==== Proof.KB.Exit1.lean ====
/-
  Region 1's exit contents: its input arrays as entered, its output array at contents `G5` nothing names; the core's
  buffers there (`U3`), which keep the arguments whatever `G5` is. Stated at any float instance.
-/
import proofs.«151337_j57836029608550_2_alg».proof.Proof.KB.Run0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (HostSeg)

variable (m : (ℓ : Loc nD τ sig) → Buf (Elt F) ℓ)

/-! ## Region 1's exit: the inputs as entered, the output at some contents -/

/-- Region 1's arrays at its exit: the inputs as entered, the output at `G5`. -/
def G1 (c : Dev nD) (G5 : Buf (Elt F) ((cfg1.win 5).arr.view.loc (c : Thread nD τ))) :
    (w : Fin cfg1.W) → Buf (Elt F) ((cfg1.win w).arr.view.loc (c : Thread nD τ))
  | ⟨0, _⟩ => X2 m c (Pipeline.arrRef spec1 0)
  | ⟨1, _⟩ => X2 m c (Pipeline.arrRef spec1 1)
  | ⟨2, _⟩ => X2 m c (Pipeline.arrRef spec1 2)
  | ⟨3, _⟩ => X2 m c (Pipeline.arrRef spec1 3)
  | ⟨4, _⟩ => X2 m c (Pipeline.arrRef spec1 4)
  | ⟨5, _⟩ => G5
/-- The core's buffers at region 1's exit, if its output array holds `G5`. -/
def U3 (c : Dev nD) (G5 : Buf (Elt F) ((cfg1.win 5).arr.view.loc (c : Thread nD τ))) : Valuation τ sig (Elt F) :=
  Pipeline.withArrays spec1 c (U2 m c) (G1 m c G5)
theorem U3_arr (c : Dev nD) (G5) (w : Fin cfg1.W) :
    U3 m c G5 (Proc.devRef .tc (Pipeline.arrRef spec1 w)) = G1 m c G5 w := by
  unfold U3; exact Pipeline.withArrays_arr spec1 launch1.win.arr_inj c _ _ w
theorem U3_of_ne (c : Dev nD) (G5) (b : Ref sig .tc) (hb : ∀ w, Pipeline.arrRef spec1 w ≠ b) :
    U3 m c G5 (Proc.devRef .tc b) = U2 m c (Proc.devRef .tc b) := by
  unfold U3; exact Pipeline.withArrays_of_ne spec1 c _ _ b hb
theorem argsKept_U3 (c : Dev nD) (G5) : ArgsKept m c (U3 m c G5) :=
  ⟨(U3_of_ne m c G5 main_arg0 (by decide)).trans (U2_main_arg0 m c),
   (U3_of_ne m c G5 main_arg1 (by decide)).trans (U2_main_arg1 m c),
   (U3_of_ne m c G5 main_arg2 (by decide)).trans (U2_main_arg2 m c),
   (U3_arr m c G5 3).trans (U2_main_arg3 m c),
   (U3_of_ne m c G5 main_arg4 (by decide)).trans (U2_main_arg4 m c),
   (U3_of_ne m c G5 main_arg5 (by decide)).trans (U2_main_arg5 m c),
   (U3_of_ne m c G5 main_arg6 (by decide)).trans (U2_main_arg6 m c),
   (U3_arr m c G5 4).trans (U2_main_arg7 m c),
   (U3_of_ne m c G5 main_arg8 (by decide)).trans (U2_main_arg8 m c)⟩

theorem G1_0 (c : Dev nD) (G5) : G1 m c G5 0 = X2 m c (Pipeline.arrRef spec1 0) := by dsimp only [G1]
theorem G1_1 (c : Dev nD) (G5) : G1 m c G5 1 = X2 m c (Pipeline.arrRef spec1 1) := by dsimp only [G1]
theorem G1_2 (c : Dev nD) (G5) : G1 m c G5 2 = X2 m c (Pipeline.arrRef spec1 2) := by dsimp only [G1]
theorem G1_3 (c : Dev nD) (G5) : G1 m c G5 3 = X2 m c (Pipeline.arrRef spec1 3) := by dsimp only [G1]
theorem G1_4 (c : Dev nD) (G5) : G1 m c G5 4 = X2 m c (Pipeline.arrRef spec1 4) := by dsimp only [G1]
theorem G1_5 (c : Dev nD) (G5) : G1 m c G5 5 = G5 := by dsimp only [G1]

/-- Windows 0–4 of region 1 are inputs. -/
theorem hio1 : ∀ w : Fin cfg1.W, w ≠ 5 → (cfg1.win w).isOut = false := by decide

/-- An input window's array is never written back: whatever point the write-backs have reached, it holds its entry contents. -/
theorem arrAt_in1 (c : Dev nD) (n : Nat) (w : Fin cfg1.W) (hw : w ≠ 5) (G) (h : (rdats m 1 c).ArrAt w n G) : G = X2 m c (Pipeline.arrRef spec1 w) :=
  (congrFun ((rdats m 1 c).ArrAt_in w (hio1 w hw) n) G).mp h

end Cert.Kernel.Hand

end
-- ==== Proof.KB.Run.lean ====
/-
  The run of the word-level kernel program, second half, and its frame. Region 1's record: entered from the buffers
  after the first host stretch, left with every unscoped buffer at SOME contents that keep the nine arguments — its
  input arrays are never written back, its output array ends at contents nothing names (the last block of its
  windows overhangs the arrays, and the body computes on rows no fetch fills). Then @main as four segments (region,
  host stretch, region, host stretch) and the launch: every weakly fair execution terminates, nothing faulting, and
  each argument array ends as launched. Stated at any float instance.
-/
import proofs.«151337_j57836029608550_2_alg».proof.Proof.KB.Exit1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (HostSeg)

variable (m : (ℓ : Loc nD τ sig) → Buf (Elt F) ℓ)

set_option maxHeartbeats 2000000 in
/-- What region 1's arrays may hold after the write-backs below any point: the inputs as entered (an input window's
    array is never written back), the output at some contents. -/
theorem arraysAt_open (c : Dev nD) (n : Nat) :
    ((rdats m 1 c).arraysAt n : sProp 𝕄) ⊢ iprop(∃ G5, (rdats m 1 c).arrays (G1 m c G5)) := by
  unfold RDat.arraysAt RDat.arrays
  rw [bigSep_W1]
  iintro ⟨⟨%G0, %h0, A0⟩, ⟨%G1', %h1, A1⟩, ⟨%G2, %h2, A2⟩, ⟨%G3, %h3, A3⟩, ⟨%G4, %h4, A4⟩, ⟨%G5, -, A5⟩⟩
  obtain rfl := arrAt_in1 m c n 0 (by decide) G0 h0
  obtain rfl := arrAt_in1 m c n 1 (by decide) G1' h1
  obtain rfl := arrAt_in1 m c n 2 (by decide) G2 h2
  obtain rfl := arrAt_in1 m c n 3 (by decide) G3 h3
  obtain rfl := arrAt_in1 m c n 4 (by decide) G4 h4
  iexists G5
  rw [bigSep_W1]
  simp only [G1_0, G1_1, G1_2, G1_3, G1_4, G1_5]
  isplitl [A0]; · iexact A0
  isplitl [A1]; · iexact A1
  isplitl [A2]; · iexact A2
  isplitl [A3]; · iexact A3
  isplitl [A4]; · iexact A4
  iexact A5

set_option backward.isDefEq.respectTransparency.types false in
/-- REGION 1 over the thread state: entered from every unscoped buffer at `U2`, left at SOME contents that keep the
    arguments: its input arrays are never written back, its output array ends at contents nothing names. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (X2 m) c
  hwaits := Pipeline.RDat.hwaits_of_owed_zero _ _ _ _ L lv 1 fun _ _ => rfl
  pre c := iprop(StableHlo.held (c : Thread nD τ) (Pipeline.ucRefs τ sig) (U2 m c) ∗ R c)
  post c := TK m c
  X c := iprop(∃ r, prngReg c r)
  Y c := iprop(∃ r, prngReg c r)
  Z c := Pipeline.unscopedRest (Ix := Unit) (Name := ℕ) (U := UR sig nD τ) (Lvl := ℕ) spec1 c (X2 m c)
  hentry c := by
    rw [Pipeline.ownSems0_none]
    have hsplit := Pipeline.RDat.arrays_of_unscopedBufs (p := 1) (pcfgs (F := F)) adm (rdats m) launch1.win launch1.arr_whole c
      (share1 m c) (X2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : ∀ G5, iprop((rdats m 1 c).arrays (G1 m c G5) ∗ Pipeline.unscopedRest (Ix := Unit) (Name := ℕ) (U := UR sig nD τ) (Lvl := ℕ) spec1 c (X2 m c))
        ⊢ (StableHlo.held (c : Thread nD τ) (Pipeline.ucRefs τ sig) (U3 m c G5) : sProp 𝕄) := fun G5 => by
      have h := bufs_of_arraysR m 1 launch1.win launch1.arr_whole c (share1 m c) (X2 m c) (fun b => U3 m c G5 b) (G1 m c G5)
        (fun w => (U3_arr m c G5 w).symm)
        (fun b hb => U3_of_ne m c G5 b fun w e => hb (Finset.mem_image.mpr ⟨w, Finset.mem_univ _, e⟩))
      rw [Pipeline.unscopedBufs_held] at h
      exact h
    unfold TK
    iintro ⟨Ha, HO, HY, Hrest⟩
    ihave Ha' := (arraysAt_open m c _) $$ Ha
    icases Ha' with ⟨%G5, Ha⟩
    imodintro
    iexists (U3 m c G5)
    isplitr; · ipureintro; exact argsKept_U3 m c G5
    isplitl [Ha Hrest]
    · iapply (hjoin G5)
      isplitl [Ha]; · iexact Ha
      iexact Hrest
    isplitl [HY]; · iexact HY
    unfold Pipeline.RDat.owesAt Pipeline.owesWithin
    icases HO with ⟨%W, -, HO⟩; iexists W; iexact HO

/-! ## @main as segments, and the launch -/

/-- @main's 4 segments in order. -/
abbrev segs : List (Pipeline.RDat.Seg (pcfgs (F := F)) adm (rdats m) () defs₀ 𝒱₀ L lv) :=
  [ .region (reg0 m), .host (seg1 m), .region (reg1 m), .host (seg3 m) ]

set_option backward.isDefEq.respectTransparency.types false in
/-- THE FRAME, at any float instance: from any memory with zero counters, every weakly fair execution of @main on the
    TensorCores terminates, nothing faulting, and every final state has the argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.RDat.θ_run_regions_kit (pcfgs (F := F)) adm (rdats m) () cellOf_inj emb₁ defs₀ 𝒱₀ L lv m ρ main (segs m)
    (fun c Q => by
      rewrite [main_chain c, Pipeline.RDat.Seg.run_eq_chain,
        show (segs m).map Pipeline.RDat.Seg.prog = [
          Prog.lift (.customCall (Pipeline.entry 0) ()),
          StableHlo.seq hostOps1,
          Prog.lift (.customCall (Pipeline.entry 1) ()),
          StableHlo.seq hostOps2 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl, fun _ => .rfl, fun c => by
      show TK m c ⊢ _
      unfold TK
      iintro ⟨%V, %hV, Hh, Hp, HO⟩
      isplitr [HO]
      · iexists V; isplitr; · ipureintro; exact hV
        isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => by
      iintro ⟨⟨%V, %hV, Hh, -⟩, HSI⟩
      unfold StableHlo.held
      ihave Hr := (pointsTo_read_all (Pipeline.ucRefs τ sig) (fun b => ((c : Thread nD τ).1, b)) V s') $$ [Hh HSI]
      · isplitl [Hh] <;> iassumption
      icases Hr with ⟨%h, HSI⟩
      imodintro
      isplitr
      · ipureintro
        exact ⟨(h (Proc.devRef .tc main_arg0) (Finset.mem_filter.mpr ⟨StableHlo.devRef_mem_tcRefs main_arg0, by decide⟩)).trans hV.1,
        (h (Proc.devRef .tc main_arg1) (Finset.mem_filter.mpr ⟨StableHlo.devRef_mem_tcRefs main_arg1, by decide⟩)).trans hV.2.1,
        (h (Proc.devRef .tc main_arg2) (Finset.mem_filter.mpr ⟨StableHlo.devRef_mem_tcRefs main_arg2, by decide⟩)).trans hV.2.2.1,
        (h (Proc.devRef .tc main_arg3) (Finset.mem_filter.mpr ⟨StableHlo.devRef_mem_tcRefs main_arg3, by decide⟩)).trans hV.2.2.2.1,
        (h (Proc.devRef .tc main_arg4) (Finset.mem_filter.mpr ⟨StableHlo.devRef_mem_tcRefs main_arg4, by decide⟩)).trans hV.2.2.2.2.1,
        (h (Proc.devRef .tc main_arg5) (Finset.mem_filter.mpr ⟨StableHlo.devRef_mem_tcRefs main_arg5, by decide⟩)).trans hV.2.2.2.2.2.1,
        (h (Proc.devRef .tc main_arg6) (Finset.mem_filter.mpr ⟨StableHlo.devRef_mem_tcRefs main_arg6, by decide⟩)).trans hV.2.2.2.2.2.2.1,
        (h (Proc.devRef .tc main_arg7) (Finset.mem_filter.mpr ⟨StableHlo.devRef_mem_tcRefs main_arg7, by decide⟩)).trans hV.2.2.2.2.2.2.2.1,
        (h (Proc.devRef .tc main_arg8) (Finset.mem_filter.mpr ⟨StableHlo.devRef_mem_tcRefs main_arg8, by decide⟩)).trans hV.2.2.2.2.2.2.2.2⟩
      · iexact HSI)
    (hQ := fun s h c => h c)

/-- info: 'Cert.Kernel.Hand.frame' depends on axioms: [propext, Classical.choice, Quot.sound] -/
#guard_msgs in #print axioms frame

end Cert.Kernel.Hand

end
-- ==== Proof.KB.Frame.lean ====
/-
  The frame of the word-level kernel program: under the precondition (not needed: the two kernels' bodies touch
  memory only by whole-buffer loads and stores, and the host stretches run from any memory) every weakly fair
  execution terminates, nothing faults, and each of the nine argument arrays ends holding what it held at launch —
  no host operation writes an argument, and a kernel region reads an argument through an input window, whose array
  is never written back, or not at all.
-/
import proofs.«151337_j57836029608550_2_alg».proof.Defs
import proofs.«151337_j57836029608550_2_alg».proof.Proof.KB.Run
import proofs.«151337_j57836029608550_2_alg».proof.Proof.Gen.Pre_finite_inputs

noncomputable section

namespace Cert.Proof.KernelBits

open Idealize.ShloMosaic Idealize.SL.Sem

/-- The frame of the kernel program at the word level: the run at any float instance, read at the bit-exact one. -/
theorem frame : Cert.frame_Kernel := fun m ρ _ => Cert.Kernel.Hand.frame (F := Bits) m ρ

/-- info: 'Cert.Proof.KernelBits.frame' depends on axioms: [propext, Classical.choice, Quot.sound] -/
#guard_msgs in #print axioms frame

end Cert.Proof.KernelBits

end
-- ==== Proof.KI.Region0.lean ====
/-
  The projection kernel (the first pallas_call), at the contents `V` its region is entered with.

  The grid has 25 points; point t sees rows 2000·t … 2000·t + 1999 of q, k and v (windows 0, 1, 2), the three
  128 × 128 weights whole (windows 3, 4, 5: their block never moves, so they are fetched once), and writes the same
  rows of the three results (windows 6, 7, 8). The body loads its six input blocks whole and stores three matrix products,
  each a block of rows times a weight: what a result's staging buffer holds after the body is that one product
  (`out0_6`, `out0_7`, `out0_8`), a function of the point's input blocks alone. No block overhangs an array
  (25 · 2000 = 50000).

  This file: the blocks (`iblk0`), the three stored blocks, the body's triple (`sound_kernel0`: run by the symbolic
  executor), the pipeline's proof data `dat0` and the body obligation at every point (`body_obligation0`). Stated at
  any float instance.
-/
import proofs.«151337_j57836029608550_2_alg».proof.Proof.Gen.KernelIdeal.Launch
import proofs.«151337_j57836029608550_2_alg».proof.Proof.Gen.KernelIdeal.Skeleton
import proofs.«151337_j57836029608550_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not (a window that is
    not fetched at a point has not moved its block index since the last fetch), for any proof data whose array is
    `V`'s and whose body leaves the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What the body stores -/

/-- The whole 2000 × 128 block and the whole 128 × 128 weight, as rectangles. -/
abbrev rB : Rect S2000x128 := Rect.unit (s := S2000x128) ![0, 0] S2000x128.size inb_S2000x128_S2000x128_0_0
abbrev rW : Rect S128x128 := Rect.unit (s := S128x128) ![0, 0] S128x128.size inb_S128x128_S128x128_0_0

/-- The three result buffers after the body: one whole store each, of the product of a row block with a weight. -/
def out0_6 (x0 : Vec F S2000x128 .f32) (x3 : Vec F S128x128 .f32) : Vec F S2000x128 .f32 :=
  View.canon [⟨rB, k0_pay1 (View.ld x0 rB) (View.ld x3 rW)⟩]
def out0_7 (x1 : Vec F S2000x128 .f32) (x4 : Vec F S128x128 .f32) : Vec F S2000x128 .f32 :=
  View.canon [⟨rB, k0_pay2 (View.ld x1 rB) (View.ld x4 rW)⟩]
def out0_8 (x2 : Vec F S2000x128 .f32) (x5 : Vec F S128x128 .f32) : Vec F S2000x128 .f32 :=
  View.canon [⟨rB, k0_pay3 (View.ld x2 rB) (View.ld x5 rW)⟩]

/-- A whole store covers the buffer. -/
theorem cover0 (p0 : Vec F S2000x128 .f32) (y : S2000x128.Idx) :
    ∃ pc ∈ ([⟨rB, p0⟩] : List (View.Piece (Elt F) S2000x128 .f32)), y ∈ pc.1.set :=
  View.cover_of_tiled [⟨rB, p0⟩] S2000x128.size (by rfl) y

/-! ## The body's triple -/

set_option maxHeartbeats 1000000 in
/-- The body on whole staging memrefs, the six inputs' at read contents and the three outputs' at anything, runs to the
    continuation holding the inputs' as they were and each output's at its one stored product. -/
theorem sound_kernel0 (c : Dev nD) (E : Set ℕ) (i : grid0.Coords)
    (arg1 : Memref sig .tc .vmem S2000x128 .f32) (harg1 : arg1.IsWhole) (arg2 : Memref sig .tc .vmem S2000x128 .f32) (harg2 : arg2.IsWhole)
    (arg3 : Memref sig .tc .vmem S2000x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S2000x128 .f32) (harg7 : arg7.IsWhole) (arg8 : Memref sig .tc .vmem S2000x128 .f32) (harg8 : arg8.IsWhole)
    (arg9 : Memref sig .tc .vmem S2000x128 .f32) (harg9 : arg9.IsWhole)
    (x0 x1 x2 : Vec F S2000x128 .f32) (x3 x4 x5 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x3) ∗ owns (c : Thread nD τ) arg8 fullShare (out0_7 x1 x4)
            ∗ owns (c : Thread nD τ) arg9 fullShare (out0_8 x2 x5)) -∗ K ⟨⟩))
      ⊢ wp frame (wpE (defs₀ (F := F)) Variants.none c none) E
          (cc0__proj_kernel i arg1 harg1 arg2 harg2 arg3 harg3 arg4 harg4 arg5 harg5 arg6 harg6 arg7 harg7 arg8 harg8 arg9 harg9) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  isplitl [H7]
  · iexists _; isplitr
    swap; · iexact H7
    ipureintro
    exact View.read_writes_eq_canon _ _ _ (cover0 _)
  iexists _; isplitr
  swap; · iexact H8
  ipureintro
  exact View.read_writes_eq_canon _ _ _ (cover0 _)

/-! ## The pipeline's proof data -/

/-- The proof data of the projection pipeline on core `c`: the arrays as the region finds them; after the body at point `t`
    each input's buffer at its block and each result's at its product of the point's blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 3 t)
    | ⟨7, _⟩ => out0_7 (iblk0 V c 1 t) (iblk0 V c 4 t)
    | ⟨8, _⟩ => out0_8 (iblk0 V c 2 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 3 t) := by dsimp only [dat0]
theorem after0_7 (c : Dev nD) (t : Fin cfg0.N) : (dat0 V c).after 7 t = out0_7 (iblk0 V c 1 t) (iblk0 V c 4 t) := by dsimp only [dat0]
theorem after0_8 (c : Dev nD) (t : Fin cfg0.N) : (dat0 V c).after 8 t = out0_8 (iblk0 V c 2 t) (iblk0 V c 5 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' memrefs hold their blocks, so the body's triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.EdgePayloadDef.lean ====
/-
  The edge kernel's body as one function of what it loads. The body loads its five input blocks whole (gathered query
  rows X0, gathered key rows X1, gathered value rows X2, edge feature rows X3 — 2048 × 128 each — and the 128 × 128 weight
  W), computes without touching memory again, and stores one 2048 × 128 block. `payload` is the stored block: the
  skeleton's named pieces composed in the order the body passes them on.
-/
import proofs.«151337_j57836029608550_2_alg».proof.Proof.Gen.KernelIdeal.Skeleton

noncomputable section

namespace Cert.KernelIdeal.Edge

open Cert.KernelIdeal Cert.KernelIdeal.Gen Idealize.ShloMosaic

variable {F : FTy → Type} [FloatOps F]

/-- The 8 × 8 scores of every row of the block (before leaky-relu), from the loaded blocks. -/
def scores (X0 X1 X3 : Vec F S2048x128 .f32) (W : Vec F S128x128 .f32) : FVec F S2048x8x8 .f32 :=
  k1_pay9 (k1_pay2 X0) (k1_pay3 X1 X3 W) (k1_pay5 X0 X1 X3 W) (k1_pay6 X0 X1 X3 W) (k1_pay7 X0 X1 X3 W) (k1_pay8 X0)

/-- Where a score is non-negative (the leaky-relu's condition). -/
def nonneg (X0 X1 X3 : Vec F S2048x128 .f32) (W : Vec F S128x128 .f32) : IVec S2048x8x8 1 :=
  k1_pay10 (k1_pay2 X0) (k1_pay3 X1 X3 W) (k1_pay5 X0 X1 X3 W) (k1_pay6 X0 X1 X3 W) (k1_pay7 X0 X1 X3 W) (k1_pay8 X0)

/-- The leaky-relu slope as the body carries it. -/
def slopeWord : F .f32 := Scalar.ofBits .f32 0x3C23D70A#32

/-- The block the body stores, from the five blocks it loads. -/
def payload (X0 X1 X2 X3 : Vec F S2048x128 .f32) (W : Vec F S128x128 .f32) : FVec F S2048x128 .f32 :=
  let v14 := k1_pay4 X2
  let v87 := scores X0 X1 X3 W
  let v89 := nonneg X0 X1 X3 W
  let s : F .f32 := slopeWord
  k1_pay1 v14 (k1_pay11 v87 v89 s) (k1_pay12 v14 v87 v89 s) (k1_pay13 v14 v87 v89 s) (k1_pay14 v14 v87 v89 s)
    (k1_pay15 v14 v87 v89 s) (k1_pay16 v14 v87 v89 s) (k1_pay17 v14 v87 v89 s) (k1_pay18 v87 v89 s)

end Cert.KernelIdeal.Edge

end
-- ==== Proof.KI.Region1.lean ====
/-
  The edge kernel (the second pallas_call), at the contents `V` its region is entered with.

  The grid has 391 points; point t sees rows 2048·t … of the gathered query, key and value rows and of the edge features
  (windows 0, 1, 2, 3), the weight Wk whole (window 4, fetched once) and writes the same rows of the result (window 5).
  391 · 2048 = 800768: at the last point only the first 1280 rows of a block lie inside the 800000-row arrays. A fetch
  there fills the first 1280 rows of the staging buffer and leaves the other 768 holding words nothing names; the body
  computes on all 2048 rows; the write-back copies the first 1280. What makes this harmless is that the body works ROW BY
  ROW: row r of the stored block is a function of row r of each loaded block (and of Wk), so the rows inside the array do
  not see the unnamed ones (`RowLocal`, a hypothesis here; over the extended reals it follows from the body's value read
  at an index).

  The body loads its five input blocks whole, computes, and stores one block, `Edge.payload` of the five.
-/
import proofs.«151337_j57836029608550_2_alg».proof.Proof.KI.Region0
import proofs.«151337_j57836029608550_2_alg».proof.Proof.KI.EdgePayloadDef
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What the body stores -/

/-- The whole 2048 × 128 block, as a rectangle. -/
abbrev rE : Rect S2048x128 := Rect.unit (s := S2048x128) ![0, 0] S2048x128.size inb_S2048x128_S2048x128_0_0

/-- The result buffer after the body: one whole store, of the payload of the five loaded blocks. -/
def out1_5 (x0 x1 x2 x3 : Vec F S2048x128 .f32) (x4 : Vec F S128x128 .f32) : Vec F S2048x128 .f32 :=
  View.canon [⟨rE, Edge.payload (View.ld x0 rE) (View.ld x1 rE) (View.ld x2 rE) (View.ld x3 rE) (View.ld x4 rW)⟩]

/-- A whole store covers the buffer. -/
theorem cover1 (p0 : Vec F S2048x128 .f32) (y : S2048x128.Idx) :
    ∃ pc ∈ ([⟨rE, p0⟩] : List (View.Piece (Elt F) S2048x128 .f32)), y ∈ pc.1.set :=
  View.cover_of_tiled [⟨rE, p0⟩] S2048x128.size (by rfl) y

/-! ## The body's triple -/

set_option maxHeartbeats 2000000 in
/-- The body on whole staging memrefs, the five inputs' at read contents and the output's at anything, runs to the
    continuation holding the inputs' as they were and the output's at the stored payload. -/
theorem sound_kernel1 (c : Dev nD) (E : Set ℕ) (i : grid1.Coords)
    (arg1 : Memref sig .tc .vmem S2048x128 .f32) (harg1 : arg1.IsWhole) (arg2 : Memref sig .tc .vmem S2048x128 .f32) (harg2 : arg2.IsWhole)
    (arg3 : Memref sig .tc .vmem S2048x128 .f32) (harg3 : arg3.IsWhole) (arg4 : Memref sig .tc .vmem S2048x128 .f32) (harg4 : arg4.IsWhole)
    (arg5 : Memref sig .tc .vmem S128x128 .f32) (harg5 : arg5.IsWhole) (arg6 : Memref sig .tc .vmem S2048x128 .f32) (harg6 : arg6.IsWhole)
    (x0 x1 x2 x3 : Vec F S2048x128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__edge_kernel i arg1 harg1 arg2 harg2 arg3 harg3 arg4 harg4 arg5 harg5 arg6 harg6) K := by
  simp only [cc1__edge_kernel_eq_skeleton]; unfold cc1__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1 _)

/-! ## The windows' blocks -/

-- the TensorCore's buffer contents when the region is entered
variable (V : (c : Dev nD) → (b : Ref sig .tc) → Buf (Elt F) ((c : Thread nD τ).loc b))

/-- Window `w`'s block at point `t`, its part inside the array, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The word this proof writes where a staging buffer's contents are not named (rows past the array's end): zero. -/
abbrev zB : S2048x128.Idx → Elt F .f32 := fun _ => Scalar.ofBits .f32 0#32

/-! The five row windows move one block of rows per point: their row-block index at point `t` is `t`, so two points with one
    block index are one point, and how a block is cut depends on the block index only. -/

theorem idx1_0_row : ∀ t : Fin cfg1.N, (cfg1.win 0).index t (0 : Fin 2) = t.val :=
  (by decide +kernel : ∀ t : Fin grid1.N, win1_0.index t (0 : Fin 2) = t.val)
theorem hclip1_0 (t t' : Fin cfg1.N) (h : (cfg1.win 0).index t = (cfg1.win 0).index t') :
    (cfg1.win 0).clip (cfg1.grid.coords t) = (cfg1.win 0).clip (cfg1.grid.coords t') := by
  have e : t = t' := Fin.ext (by have := congrFun h (0 : Fin 2); rw [idx1_0_row, idx1_0_row] at this; exact this)
  subst e; rfl
theorem idx1_1_row : ∀ t : Fin cfg1.N, (cfg1.win 1).index t (0 : Fin 2) = t.val :=
  (by decide +kernel : ∀ t : Fin grid1.N, win1_1.index t (0 : Fin 2) = t.val)
theorem hclip1_1 (t t' : Fin cfg1.N) (h : (cfg1.win 1).index t = (cfg1.win 1).index t') :
    (cfg1.win 1).clip (cfg1.grid.coords t) = (cfg1.win 1).clip (cfg1.grid.coords t') := by
  have e : t = t' := Fin.ext (by have := congrFun h (0 : Fin 2); rw [idx1_1_row, idx1_1_row] at this; exact this)
  subst e; rfl
theorem idx1_2_row : ∀ t : Fin cfg1.N, (cfg1.win 2).index t (0 : Fin 2) = t.val :=
  (by decide +kernel : ∀ t : Fin grid1.N, win1_2.index t (0 : Fin 2) = t.val)
theorem hclip1_2 (t t' : Fin cfg1.N) (h : (cfg1.win 2).index t = (cfg1.win 2).index t') :
    (cfg1.win 2).clip (cfg1.grid.coords t) = (cfg1.win 2).clip (cfg1.grid.coords t') := by
  have e : t = t' := Fin.ext (by have := congrFun h (0 : Fin 2); rw [idx1_2_row, idx1_2_row] at this; exact this)
  subst e; rfl
theorem idx1_3_row : ∀ t : Fin cfg1.N, (cfg1.win 3).index t (0 : Fin 2) = t.val :=
  (by decide +kernel : ∀ t : Fin grid1.N, win1_3.index t (0 : Fin 2) = t.val)
theorem hclip1_3 (t t' : Fin cfg1.N) (h : (cfg1.win 3).index t = (cfg1.win 3).index t') :
    (cfg1.win 3).clip (cfg1.grid.coords t) = (cfg1.win 3).clip (cfg1.grid.coords t') := by
  have e : t = t' := Fin.ext (by have := congrFun h (0 : Fin 2); rw [idx1_3_row, idx1_3_row] at this; exact this)
  subst e; rfl
theorem idx1_5_row : ∀ t : Fin cfg1.N, (cfg1.win 5).index t (0 : Fin 2) = t.val :=
  (by decide +kernel : ∀ t : Fin grid1.N, win1_5.index t (0 : Fin 2) = t.val)
theorem hclip1_5 (t t' : Fin cfg1.N) (h : (cfg1.win 5).index t = (cfg1.win 5).index t') :
    (cfg1.win 5).clip (cfg1.grid.coords t) = (cfg1.win 5).clip (cfg1.grid.coords t') := by
  have e : t = t' := Fin.ext (by have := congrFun h (0 : Fin 2); rw [idx1_5_row, idx1_5_row] at this; exact this)
  subst e; rfl

/-! Each input window's current staging buffer holds, at every point, its block on the rows the fetch fills and whatever it
    held (`d`) on the others, for any proof data whose array is `V`'s and whose body leaves the block in place there. -/

theorem before1_0_of {c : Dev nD} (dat : Dat τ (Elt F) Unit ℕ (UR sig nD τ) ℕ cfg1 c) (hA : dat.A 0 = V c (Pipeline.arrRef spec1 0))
    (hafter : ∀ t, dat.after 0 t = win1_0.fill (grid1.coords t) zB (iblk1 V c 0 t)) (t : Fin cfg1.N) (d) :
    dat.before 0 t d = win1_0.fill (grid1.coords t) d (iblk1 V c 0 t) :=
  (dat.before_in_eq_fetched 0 rfl (fun _ => rfl) hclip1_0
    (fun t => by rw [hafter]; refine (win1_0.cut_fill _ _ _).trans ?_; unfold Dat.blockOf iblk1; rw [hA]) t d).trans
    (by unfold Dat.fetched Dat.blockOf iblk1; rw [hA])
theorem before1_1_of {c : Dev nD} (dat : Dat τ (Elt F) Unit ℕ (UR sig nD τ) ℕ cfg1 c) (hA : dat.A 1 = V c (Pipeline.arrRef spec1 1))
    (hafter : ∀ t, dat.after 1 t = win1_1.fill (grid1.coords t) zB (iblk1 V c 1 t)) (t : Fin cfg1.N) (d) :
    dat.before 1 t d = win1_1.fill (grid1.coords t) d (iblk1 V c 1 t) :=
  (dat.before_in_eq_fetched 1 rfl (fun _ => rfl) hclip1_1
    (fun t => by rw [hafter]; refine (win1_1.cut_fill _ _ _).trans ?_; unfold Dat.blockOf iblk1; rw [hA]) t d).trans
    (by unfold Dat.fetched Dat.blockOf iblk1; rw [hA])
theorem before1_2_of {c : Dev nD} (dat : Dat τ (Elt F) Unit ℕ (UR sig nD τ) ℕ cfg1 c) (hA : dat.A 2 = V c (Pipeline.arrRef spec1 2))
    (hafter : ∀ t, dat.after 2 t = win1_2.fill (grid1.coords t) zB (iblk1 V c 2 t)) (t : Fin cfg1.N) (d) :
    dat.before 2 t d = win1_2.fill (grid1.coords t) d (iblk1 V c 2 t) :=
  (dat.before_in_eq_fetched 2 rfl (fun _ => rfl) hclip1_2
    (fun t => by rw [hafter]; refine (win1_2.cut_fill _ _ _).trans ?_; unfold Dat.blockOf iblk1; rw [hA]) t d).trans
    (by unfold Dat.fetched Dat.blockOf iblk1; rw [hA])
theorem before1_3_of {c : Dev nD} (dat : Dat τ (Elt F) Unit ℕ (UR sig nD τ) ℕ cfg1 c) (hA : dat.A 3 = V c (Pipeline.arrRef spec1 3))
    (hafter : ∀ t, dat.after 3 t = win1_3.fill (grid1.coords t) zB (iblk1 V c 3 t)) (t : Fin cfg1.N) (d) :
    dat.before 3 t d = win1_3.fill (grid1.coords t) d (iblk1 V c 3 t) :=
  (dat.before_in_eq_fetched 3 rfl (fun _ => rfl) hclip1_3
    (fun t => by rw [hafter]; refine (win1_3.cut_fill _ _ _).trans ?_; unfold Dat.blockOf iblk1; rw [hA]) t d).trans
    (by unfold Dat.fetched Dat.blockOf iblk1; rw [hA])
/-- The weight window is not cut and never moves: its buffer holds the whole weight at every point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body works row by row -/

/-- Row `r` of the stored block depends on row `r` of each loaded row block only (and on the weight). -/
def RowLocal (F : FTy → Type) [FloatOps F] : Prop :=
  ∀ (X0 X0' X1 X1' X2 X2' X3 X3' : Vec F S2048x128 .f32) (W : Vec F S128x128 .f32) (y : S2048x128.Idx),
    (∀ y' : S2048x128.Idx, (y' 0).val = (y 0).val → X0 y' = X0' y' ∧ X1 y' = X1' y' ∧ X2 y' = X2' y' ∧ X3 y' = X3' y') →
    Edge.payload X0 X1 X2 X3 W y = Edge.payload X0' X1' X2' X3' W y

/-- The one whole store read back: the result buffer holds the payload of the loaded blocks. -/
theorem out1_5_eq (x0 x1 x2 x3 : Vec F S2048x128 .f32) (x4 : Vec F S128x128 .f32) :
    out1_5 x0 x1 x2 x3 x4 = Edge.payload x0 x1 x2 x3 x4 := by
  have hz : (![0, 0] : Fin 2 → Nat) = fun _ => 0 := funext fun a => by fin_cases a <;> rfl
  unfold out1_5
  rw [View.canon_unit_zero hz]
  simp only [View.ld_unit_zero (S := S2048x128) hz, View.ld_unit_zero (S := S128x128) hz]

/-! How many rows and columns of a block the transfers move: all 128 columns always; 2048 rows, but 1280 at the last point. -/

theorem xsize1_0_col : ∀ t : Fin cfg1.N, win1_0.xsize (grid1.coords t) (1 : Fin 2) = 128 :=
  (by decide +kernel : ∀ t : Fin grid1.N, win1_0.xsize (grid1.coords t) (1 : Fin 2) = 128)
theorem xsize1_0_row : ∀ t : Fin cfg1.N, win1_0.xsize (grid1.coords t) (0 : Fin 2) = if t.val = 390 then 1280 else 2048 :=
  (by decide +kernel : ∀ t : Fin grid1.N, win1_0.xsize (grid1.coords t) (0 : Fin 2) = if t.val = 390 then 1280 else 2048)
theorem xsize1_1_col : ∀ t : Fin cfg1.N, win1_1.xsize (grid1.coords t) (1 : Fin 2) = 128 :=
  (by decide +kernel : ∀ t : Fin grid1.N, win1_1.xsize (grid1.coords t) (1 : Fin 2) = 128)
theorem xsize1_1_row : ∀ t : Fin cfg1.N, win1_1.xsize (grid1.coords t) (0 : Fin 2) = if t.val = 390 then 1280 else 2048 :=
  (by decide +kernel : ∀ t : Fin grid1.N, win1_1.xsize (grid1.coords t) (0 : Fin 2) = if t.val = 390 then 1280 else 2048)
theorem xsize1_2_col : ∀ t : Fin cfg1.N, win1_2.xsize (grid1.coords t) (1 : Fin 2) = 128 :=
  (by decide +kernel : ∀ t : Fin grid1.N, win1_2.xsize (grid1.coords t) (1 : Fin 2) = 128)
theorem xsize1_2_row : ∀ t : Fin cfg1.N, win1_2.xsize (grid1.coords t) (0 : Fin 2) = if t.val = 390 then 1280 else 2048 :=
  (by decide +kernel : ∀ t : Fin grid1.N, win1_2.xsize (grid1.coords t) (0 : Fin 2) = if t.val = 390 then 1280 else 2048)
theorem xsize1_3_col : ∀ t : Fin cfg1.N, win1_3.xsize (grid1.coords t) (1 : Fin 2) = 128 :=
  (by decide +kernel : ∀ t : Fin grid1.N, win1_3.xsize (grid1.coords t) (1 : Fin 2) = 128)
theorem xsize1_3_row : ∀ t : Fin cfg1.N, win1_3.xsize (grid1.coords t) (0 : Fin 2) = if t.val = 390 then 1280 else 2048 :=
  (by decide +kernel : ∀ t : Fin grid1.N, win1_3.xsize (grid1.coords t) (0 : Fin 2) = if t.val = 390 then 1280 else 2048)
theorem xsize1_5_col : ∀ t : Fin cfg1.N, win1_5.xsize (grid1.coords t) (1 : Fin 2) = 128 :=
  (by decide +kernel : ∀ t : Fin grid1.N, win1_5.xsize (grid1.coords t) (1 : Fin 2) = 128)
theorem xsize1_5_row : ∀ t : Fin cfg1.N, win1_5.xsize (grid1.coords t) (0 : Fin 2) = if t.val = 390 then 1280 else 2048 :=
  (by decide +kernel : ∀ t : Fin grid1.N, win1_5.xsize (grid1.coords t) (0 : Fin 2) = if t.val = 390 then 1280 else 2048)

/-- On a row the transfers move, window 0's filled block does not see what it was filled over. -/
theorem fill1_0_row (t : Fin cfg1.N) (d d' : S2048x128.Idx → Elt F .f32) (g : (win1_0.xblock (grid1.coords t)).Idx → Elt F .f32)
    (y : S2048x128.Idx) (hy : (y 0).val < if t.val = 390 then 1280 else 2048) :
    win1_0.fill (grid1.coords t) d g y = win1_0.fill (grid1.coords t) d' g y := by
  have hm : win1_0.moved (grid1.coords t) y = true := (win1_0.moved_iff _ _).mpr fun a => by
    match a with
    | ⟨0, _⟩ => show (y (0 : Fin 2)).val < win1_0.xsize (grid1.coords t) (0 : Fin 2); rw [xsize1_0_row t]; exact hy
    | ⟨1, _⟩ => show (y (1 : Fin 2)).val < win1_0.xsize (grid1.coords t) (1 : Fin 2); rw [xsize1_0_col t]; exact (y 1).isLt
  unfold Pipeline.Window.fill
  rw [dif_pos hm, dif_pos hm]
/-- On a row the transfers move, window 1's filled block does not see what it was filled over. -/
theorem fill1_1_row (t : Fin cfg1.N) (d d' : S2048x128.Idx → Elt F .f32) (g : (win1_1.xblock (grid1.coords t)).Idx → Elt F .f32)
    (y : S2048x128.Idx) (hy : (y 0).val < if t.val = 390 then 1280 else 2048) :
    win1_1.fill (grid1.coords t) d g y = win1_1.fill (grid1.coords t) d' g y := by
  have hm : win1_1.moved (grid1.coords t) y = true := (win1_1.moved_iff _ _).mpr fun a => by
    match a with
    | ⟨0, _⟩ => show (y (0 : Fin 2)).val < win1_1.xsize (grid1.coords t) (0 : Fin 2); rw [xsize1_1_row t]; exact hy
    | ⟨1, _⟩ => show (y (1 : Fin 2)).val < win1_1.xsize (grid1.coords t) (1 : Fin 2); rw [xsize1_1_col t]; exact (y 1).isLt
  unfold Pipeline.Window.fill
  rw [dif_pos hm, dif_pos hm]
/-- On a row the transfers move, window 2's filled block does not see what it was filled over. -/
theorem fill1_2_row (t : Fin cfg1.N) (d d' : S2048x128.Idx → Elt F .f32) (g : (win1_2.xblock (grid1.coords t)).Idx → Elt F .f32)
    (y : S2048x128.Idx) (hy : (y 0).val < if t.val = 390 then 1280 else 2048) :
    win1_2.fill (grid1.coords t) d g y = win1_2.fill (grid1.coords t) d' g y := by
  have hm : win1_2.moved (grid1.coords t) y = true := (win1_2.moved_iff _ _).mpr fun a => by
    match a with
    | ⟨0, _⟩ => show (y (0 : Fin 2)).val < win1_2.xsize (grid1.coords t) (0 : Fin 2); rw [xsize1_2_row t]; exact hy
    | ⟨1, _⟩ => show (y (1 : Fin 2)).val < win1_2.xsize (grid1.coords t) (1 : Fin 2); rw [xsize1_2_col t]; exact (y 1).isLt
  unfold Pipeline.Window.fill
  rw [dif_pos hm, dif_pos hm]
/-- On a row the transfers move, window 3's filled block does not see what it was filled over. -/
theorem fill1_3_row (t : Fin cfg1.N) (d d' : S2048x128.Idx → Elt F .f32) (g : (win1_3.xblock (grid1.coords t)).Idx → Elt F .f32)
    (y : S2048x128.Idx) (hy : (y 0).val < if t.val = 390 then 1280 else 2048) :
    win1_3.fill (grid1.coords t) d g y = win1_3.fill (grid1.coords t) d' g y := by
  have hm : win1_3.moved (grid1.coords t) y = true := (win1_3.moved_iff _ _).mpr fun a => by
    match a with
    | ⟨0, _⟩ => show (y (0 : Fin 2)).val < win1_3.xsize (grid1.coords t) (0 : Fin 2); rw [xsize1_3_row t]; exact hy
    | ⟨1, _⟩ => show (y (1 : Fin 2)).val < win1_3.xsize (grid1.coords t) (1 : Fin 2); rw [xsize1_3_col t]; exact (y 1).isLt
  unfold Pipeline.Window.fill
  rw [dif_pos hm, dif_pos hm]

/-! ## The pipeline's proof data -/

/-- The proof data of the edge pipeline on core `c`: the arrays as the region finds them; after the body at point `t` each row
    input's buffer at its block (zero where the fetch did not fill it), the weight's at the weight, and the result's at the
    payload of those; the invariant the scoped rest and the generator register; nothing owed; full shares. On the rows past the
    array's end these contents are this proof's choice and nothing reads them: the five row windows' obligations are stated on
    the moved rows only. -/
def dat1 (c : Dev nD) : Dat τ (Elt F) Unit ℕ (UR sig nD τ) ℕ cfg1 c where
  A w := V c (Pipeline.arrRef spec1 w)
  after w t := match w with
    | ⟨0, _⟩ => win1_0.fill (grid1.coords t) zB (iblk1 V c 0 t)
    | ⟨1, _⟩ => win1_1.fill (grid1.coords t) zB (iblk1 V c 1 t)
    | ⟨2, _⟩ => win1_2.fill (grid1.coords t) zB (iblk1 V c 2 t)
    | ⟨3, _⟩ => win1_3.fill (grid1.coords t) zB (iblk1 V c 3 t)
    | ⟨4, _⟩ => iblk1 V c 4 t
    | ⟨5, _⟩ => Edge.payload (win1_0.fill (grid1.coords t) zB (iblk1 V c 0 t)) (win1_1.fill (grid1.coords t) zB (iblk1 V c 1 t))
        (win1_2.fill (grid1.coords t) zB (iblk1 V c 2 t)) (win1_3.fill (grid1.coords t) zB (iblk1 V c 3 t)) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = win1_0.fill (grid1.coords t) zB (iblk1 V c 0 t) := by dsimp only [dat1]
theorem after1_1 (c : Dev nD) (t : Fin cfg1.N) : (dat1 V c).after 1 t = win1_1.fill (grid1.coords t) zB (iblk1 V c 1 t) := by dsimp only [dat1]
theorem after1_2 (c : Dev nD) (t : Fin cfg1.N) : (dat1 V c).after 2 t = win1_2.fill (grid1.coords t) zB (iblk1 V c 2 t) := by dsimp only [dat1]
theorem after1_3 (c : Dev nD) (t : Fin cfg1.N) : (dat1 V c).after 3 t = win1_3.fill (grid1.coords t) zB (iblk1 V c 3 t) := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = Edge.payload (win1_0.fill (grid1.coords t) zB (iblk1 V c 0 t)) (win1_1.fill (grid1.coords t) zB (iblk1 V c 1 t))
        (win1_2.fill (grid1.coords t) zB (iblk1 V c 2 t)) (win1_3.fill (grid1.coords t) zB (iblk1 V c 3 t)) (iblk1 V c 4 t) := by dsimp only [dat1]

theorem before1_0 (c : Dev nD) (t : Fin cfg1.N) (d) : (dat1 V c).before 0 t d = win1_0.fill (grid1.coords t) d (iblk1 V c 0 t) :=
  before1_0_of V (dat1 V c) (A_eq1 V c 0) (after1_0 V c) t d
theorem before1_1 (c : Dev nD) (t : Fin cfg1.N) (d) : (dat1 V c).before 1 t d = win1_1.fill (grid1.coords t) d (iblk1 V c 1 t) :=
  before1_1_of V (dat1 V c) (A_eq1 V c 1) (after1_1 V c) t d
theorem before1_2 (c : Dev nD) (t : Fin cfg1.N) (d) : (dat1 V c).before 2 t d = win1_2.fill (grid1.coords t) d (iblk1 V c 2 t) :=
  before1_2_of V (dat1 V c) (A_eq1 V c 2) (after1_2 V c) t d
theorem before1_3 (c : Dev nD) (t : Fin cfg1.N) (d) : (dat1 V c).before 3 t d = win1_3.fill (grid1.coords t) d (iblk1 V c 3 t) :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- On the rows the write-back moves, the stored block computed from the buffers as found (each row input's block filled out
    with whatever its buffer held, `d`) is the stored block computed from the blocks filled out with zero: the body works row by
    row, and on those rows the filled blocks agree. -/
theorem cut_payload (hloc : RowLocal F) (c : Dev nD) (t : Fin cfg1.N) (d0 d1 d2 d3 : S2048x128.Idx → Elt F .f32) :
    win1_5.cut (grid1.coords t)
        (out1_5 (win1_0.fill (grid1.coords t) d0 (iblk1 V c 0 t)) (win1_1.fill (grid1.coords t) d1 (iblk1 V c 1 t))
          (win1_2.fill (grid1.coords t) d2 (iblk1 V c 2 t)) (win1_3.fill (grid1.coords t) d3 (iblk1 V c 3 t)) (iblk1 V c 4 t))
      = win1_5.cut (grid1.coords t) ((dat1 V c).after 5 t) := by
  funext j
  show out1_5 _ _ _ _ _ (win1_5.xinj (grid1.coords t) j) = (dat1 V c).after 5 t (win1_5.xinj (grid1.coords t) j)
  rw [after1_5, out1_5_eq]
  refine hloc _ _ _ _ _ _ _ _ _ _ fun y' hy' => ?_
  have hj : (y' 0).val < if t.val = 390 then 1280 else 2048 := by
    rw [hy', ← xsize1_5_row t]; exact (j 0).isLt
  exact ⟨fill1_0_row t d0 zB _ y' hj, fill1_1_row t d1 zB _ y' hj, fill1_2_row t d2 zB _ y' hj, fill1_3_row t d3 zB _ y' hj⟩

/-- The library's body obligation at every point, in the form it takes for windows whose last block overhangs: each row
    window's buffer is handed back stated on the moved rows only. The row inputs come back as found; the weight's buffer
    holds the weight; the result's holds the stored block, which on the moved rows is the proof data's (`cut_payload`). -/
theorem body_obligation1 (hloc : RowLocal F) (c : Dev nD) :
    BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before1_0 V c t d0, before1_1 V c t d1, before1_2 V c t d2, before1_3 V c t d3, before1_4 V c t d4]
  iapply (sound_kernel1 (F := F) c Set.univ (grid1.coords t) _ _ _ _ _ _ _ _ _ _ _ _
    (win1_0.fill (grid1.coords t) d0 (iblk1 V c 0 t)) (win1_1.fill (grid1.coords t) d1 (iblk1 V c 1 t))
    (win1_2.fill (grid1.coords t) d2 (iblk1 V c 2 t)) (win1_3.fill (grid1.coords t) d3 (iblk1 V c 3 t)) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    change _ ⊢ owns (c : Thread nD τ) (win1_0.stage (cfg1.slots t 0)) fullShare (win1_0.fill (grid1.coords t) d0 (win1_0.cut (grid1.coords t) ((dat1 V c).after 0 t)))
    rw [after1_0, Pipeline.Window.cut_fill]; try iexact H0
  isplitl [H1]
  · iexists d1
    change _ ⊢ owns (c : Thread nD τ) (win1_1.stage (cfg1.slots t 1)) fullShare (win1_1.fill (grid1.coords t) d1 (win1_1.cut (grid1.coords t) ((dat1 V c).after 1 t)))
    rw [after1_1, Pipeline.Window.cut_fill]; try iexact H1
  isplitl [H2]
  · iexists d2
    change _ ⊢ owns (c : Thread nD τ) (win1_2.stage (cfg1.slots t 2)) fullShare (win1_2.fill (grid1.coords t) d2 (win1_2.cut (grid1.coords t) ((dat1 V c).after 2 t)))
    rw [after1_2, Pipeline.Window.cut_fill]; try iexact H2
  isplitl [H3]
  · iexists d3
    change _ ⊢ owns (c : Thread nD τ) (win1_3.stage (cfg1.slots t 3)) fullShare (win1_3.fill (grid1.coords t) d3 (win1_3.cut (grid1.coords t) ((dat1 V c).after 3 t)))
    rw [after1_3, Pipeline.Window.cut_fill]; try iexact H3
  isplitl [H4]
  · change _ ⊢ owns (c : Thread nD τ) (win1_4.stage (cfg1.slots t 4)) fullShare ((dat1 V c).after 4 t)
    rw [after1_4]; try iexact H4
  iexists (out1_5 (win1_0.fill (grid1.coords t) d0 (iblk1 V c 0 t)) (win1_1.fill (grid1.coords t) d1 (iblk1 V c 1 t))
    (win1_2.fill (grid1.coords t) d2 (iblk1 V c 2 t)) (win1_3.fill (grid1.coords t) d3 (iblk1 V c 3 t)) (iblk1 V c 4 t))
  change _ ⊢ owns (c : Thread nD τ) (win1_5.stage (cfg1.slots t 5)) fullShare
    (win1_5.fill (grid1.coords t) (out1_5 (win1_0.fill (grid1.coords t) d0 (iblk1 V c 0 t)) (win1_1.fill (grid1.coords t) d1 (iblk1 V c 1 t))
      (win1_2.fill (grid1.coords t) d2 (iblk1 V c 2 t)) (win1_3.fill (grid1.coords t) d3 (iblk1 V c 3 t)) (iblk1 V c 4 t))
      (win1_5.cut (grid1.coords t) ((dat1 V c).after 5 t)))
  rw [win1_5.fill_congr_cut (grid1.coords t) (cut_payload V hloc c t d0 d1 d2 d3)]
  try iexact H5

end Cert.KernelIdeal.Hand

end
-- ==== Proof.KI.Run.lean ====
/-
  The kernel program's run, from the launch to the return, with every buffer's final contents named.

  @main is four segments: the projection region, a stretch of host operations (the three row gathers), the edge region, a
  stretch of host operations (the scatter-add). The contents of a core's buffers at the segment boundaries are a fold from
  the launch memory: a region leaves its windows' arrays at what its write-backs leave (the inputs as entered, each output
  at the pipeline's `arrAt` after the last point) and every other buffer as entered; a host stretch leaves the fold of its
  operations (`W0` … `W4`). Each region is run through the pipeline library from its proof data and body obligation
  (Region0.lean, Region1.lean); the edge region's obligation takes the body's row-locality as a hypothesis. The run's post
  says of every unscoped buffer that it ends at `W4`: the frame and the result's value are both read off it.

  The layout of this file (the valuations at the boundaries, the proof-data family as a literal match, a record per region,
  a host segment per stretch, the launch) follows what the frame generator writes for a program of several regions whose
  kernels it accepts.
-/
import proofs.«151337_j57836029608550_2_alg».proof.Proof.KI.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (the projection region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the projection region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the gathers (the edge region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the edge region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the scatter-add (the return). -/
abbrev W4 : Dev nD → Valuation τ sig (Elt F) := fun c => StableHlo.after hostOps2 (W3 m ρ c)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

variable (hloc : RowLocal F)

set_option backward.isDefEq.respectTransparency.types false in
/-- The edge region over the thread state: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (V2 m ρ) hloc c
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ hloc),
    .host (hseg hostOps2 hostOps2_sub hostOps2_fresh (W3 m ρ)) ]
/-- @main IS the run of the segments. -/
theorem main_run (c : Dev nD) : main (F := F) c = Pipeline.Seg.run (segs m ρ hloc) := (main_chain c).trans (by chain_rfl)

include hloc in
set_option backward.isDefEq.respectTransparency.types false in
/-- THE RUN. At the compiled mesh, from any memory with zero counters, every weakly fair execution of @main on the TensorCores
    terminates, nothing faulting, and every unscoped buffer ends at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ hloc)
    (fun c Q => by rw [main_run m ρ hloc c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Hand

end
-- ==== Proof.KI.Values.lean ====
/-
  The kernel program's boundary contents, read. From the run every buffer ends at `W4`, a fold of the two host stretches
  over the two regions' final arrays; this file opens the fold where the certificate looks:
  * each argument array ends as launched (no host operation writes one; a region reads it through an input window, whose
    array the pipeline leaves as entered, or bypasses it);
  * the three gathered arrays the edge region is entered with are whole-row gathers of the projection region's three
    outputs by the index column made of dst, src, src (`idxCol`: a negative index has 50000 added, and the gather clamps);
  * the result is the scatter-add, by dst, of the edge region's output into zeros.
  What a host stretch does to a buffer is stated once over an arbitrary valuation and then used at the boundary's.
-/
import proofs.«151337_j57836029608550_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem
open Idealize.ShloMosaic.Pipeline (Dat)

variable {F : FTy → Type} [FloatOps F]

/-! ## The host stretches, over any valuation -/

/-- The index column a gather is given: the index list with 50000 added to its negative entries, as a column. -/
def idxCol (i : IVec S800000 32) : IVec S800000x1 32 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32))) i)

theorem after1_main_arg0 (V : Valuation τ sig (Elt F)) : StableHlo.after hostOps1 V (Proc.devRef .tc main_arg0) = V (Proc.devRef .tc main_arg0) := by after_results
theorem after2_main_arg0 (V : Valuation τ sig (Elt F)) : StableHlo.after hostOps2 V (Proc.devRef .tc main_arg0) = V (Proc.devRef .tc main_arg0) := by after_results
theorem after1_main_arg1 (V : Valuation τ sig (Elt F)) : StableHlo.after hostOps1 V (Proc.devRef .tc main_arg1) = V (Proc.devRef .tc main_arg1) := by after_results
theorem after2_main_arg1 (V : Valuation τ sig (Elt F)) : StableHlo.after hostOps2 V (Proc.devRef .tc main_arg1) = V (Proc.devRef .tc main_arg1) := by after_results
theorem after1_main_arg2 (V : Valuation τ sig (Elt F)) : StableHlo.after hostOps1 V (Proc.devRef .tc main_arg2) = V (Proc.devRef .tc main_arg2) := by after_results
theorem after2_main_arg2 (V : Valuation τ sig (Elt F)) : StableHlo.after hostOps2 V (Proc.devRef .tc main_arg2) = V (Proc.devRef .tc main_arg2) := by after_results
theorem after1_main_arg3 (V : Valuation τ sig (Elt F)) : StableHlo.after hostOps1 V (Proc.devRef .tc main_arg3) = V (Proc.devRef .tc main_arg3) := by after_results
theorem after2_main_arg3 (V : Valuation τ sig (Elt F)) : StableHlo.after hostOps2 V (Proc.devRef .tc main_arg3) = V (Proc.devRef .tc main_arg3) := by after_results
theorem after1_main_arg4 (V : Valuation τ sig (Elt F)) : StableHlo.after hostOps1 V (Proc.devRef .tc main_arg4) = V (Proc.devRef .tc main_arg4) := by after_results
theorem after2_main_arg4 (V : Valuation τ sig (Elt F)) : StableHlo.after hostOps2 V (Proc.devRef .tc main_arg4) = V (Proc.devRef .tc main_arg4) := by after_results
theorem after1_main_arg5 (V : Valuation τ sig (Elt F)) : StableHlo.after hostOps1 V (Proc.devRef .tc main_arg5) = V (Proc.devRef .tc main_arg5) := by after_results
theorem after2_main_arg5 (V : Valuation τ sig (Elt F)) : StableHlo.after hostOps2 V (Proc.devRef .tc main_arg5) = V (Proc.devRef .tc main_arg5) := by after_results
theorem after1_main_arg6 (V : Valuation τ sig (Elt F)) : StableHlo.after hostOps1 V (Proc.devRef .tc main_arg6) = V (Proc.devRef .tc main_arg6) := by after_results
theorem after2_main_arg6 (V : Valuation τ sig (Elt F)) : StableHlo.after hostOps2 V (Proc.devRef .tc main_arg6) = V (Proc.devRef .tc main_arg6) := by after_results
theorem after1_main_arg7 (V : Valuation τ sig (Elt F)) : StableHlo.after hostOps1 V (Proc.devRef .tc main_arg7) = V (Proc.devRef .tc main_arg7) := by after_results
theorem after2_main_arg7 (V : Valuation τ sig (Elt F)) : StableHlo.after hostOps2 V (Proc.devRef .tc main_arg7) = V (Proc.devRef .tc main_arg7) := by after_results
theorem after1_main_arg8 (V : Valuation τ sig (Elt F)) : StableHlo.after hostOps1 V (Proc.devRef .tc main_arg8) = V (Proc.devRef .tc main_arg8) := by after_results
theorem after2_main_arg8 (V : Valuation τ sig (Elt F)) : StableHlo.after hostOps2 V (Proc.devRef .tc main_arg8) = V (Proc.devRef .tc main_arg8) := by after_results

/-- The scatter-add stretch at the result buffer. -/
theorem after2_main_v25 (V : Valuation τ sig (Elt F)) : StableHlo.after hostOps2 V (Proc.devRef .tc main_v25)
    = Host.scatterAdd scatter_S50000x128_S800000x1_S800000x128_1_0_0_1
        (broadcastInDim S50000x128 ![] bcast_S_S50000x128 (constant S_ .f32 0x00000000#32))
        (broadcastInDim S800000x1 ![0] bcast_S800000_S800000x1_0 (V (Proc.devRef .tc main_arg5)))
        (V (Proc.devRef .tc main_v22)) := by after_results

variable (m : (ℓ : Loc nD τ sig) → Buf (Elt F) ℓ) (ρ : Dev nD → PrngReg)

/-! ## The arguments end as launched -/

theorem W1_main_arg0 (c : Dev nD) : W1 m ρ c (Proc.devRef .tc main_arg0) = m ((c : Thread nD τ).loc main_arg0) :=
  ((W1_arr m ρ c 0).trans (((dat0 (V0 m ρ) c).arrAt_in 0 rfl _).trans (A_eq0 (V0 m ρ) c 0))).trans rfl
theorem W2_main_arg0 (c : Dev nD) : W2 m ρ c (Proc.devRef .tc main_arg0) = m ((c : Thread nD τ).loc main_arg0) :=
  (after1_main_arg0 (W1 m ρ c)).trans (W1_main_arg0 m ρ c)
theorem W3_main_arg0 (c : Dev nD) : W3 m ρ c (Proc.devRef .tc main_arg0) = m ((c : Thread nD τ).loc main_arg0) :=
  (W3_of_ne m ρ c main_arg0 (by decide)).trans (W2_main_arg0 m ρ c)
theorem W4_main_arg0 (c : Dev nD) : W4 m ρ c (Proc.devRef .tc main_arg0) = m ((c : Thread nD τ).loc main_arg0) :=
  (after2_main_arg0 (W3 m ρ c)).trans (W3_main_arg0 m ρ c)
theorem W1_main_arg1 (c : Dev nD) : W1 m ρ c (Proc.devRef .tc main_arg1) = m ((c : Thread nD τ).loc main_arg1) :=
  ((W1_arr m ρ c 1).trans (((dat0 (V0 m ρ) c).arrAt_in 1 rfl _).trans (A_eq0 (V0 m ρ) c 1))).trans rfl
theorem W2_main_arg1 (c : Dev nD) : W2 m ρ c (Proc.devRef .tc main_arg1) = m ((c : Thread nD τ).loc main_arg1) :=
  (after1_main_arg1 (W1 m ρ c)).trans (W1_main_arg1 m ρ c)
theorem W3_main_arg1 (c : Dev nD) : W3 m ρ c (Proc.devRef .tc main_arg1) = m ((c : Thread nD τ).loc main_arg1) :=
  (W3_of_ne m ρ c main_arg1 (by decide)).trans (W2_main_arg1 m ρ c)
theorem W4_main_arg1 (c : Dev nD) : W4 m ρ c (Proc.devRef .tc main_arg1) = m ((c : Thread nD τ).loc main_arg1) :=
  (after2_main_arg1 (W3 m ρ c)).trans (W3_main_arg1 m ρ c)
theorem W1_main_arg2 (c : Dev nD) : W1 m ρ c (Proc.devRef .tc main_arg2) = m ((c : Thread nD τ).loc main_arg2) :=
  ((W1_arr m ρ c 2).trans (((dat0 (V0 m ρ) c).arrAt_in 2 rfl _).trans (A_eq0 (V0 m ρ) c 2))).trans rfl
theorem W2_main_arg2 (c : Dev nD) : W2 m ρ c (Proc.devRef .tc main_arg2) = m ((c : Thread nD τ).loc main_arg2) :=
  (after1_main_arg2 (W1 m ρ c)).trans (W1_main_arg2 m ρ c)
theorem W3_main_arg2 (c : Dev nD) : W3 m ρ c (Proc.devRef .tc main_arg2) = m ((c : Thread nD τ).loc main_arg2) :=
  (W3_of_ne m ρ c main_arg2 (by decide)).trans (W2_main_arg2 m ρ c)
theorem W4_main_arg2 (c : Dev nD) : W4 m ρ c (Proc.devRef .tc main_arg2) = m ((c : Thread nD τ).loc main_arg2) :=
  (after2_main_arg2 (W3 m ρ c)).trans (W3_main_arg2 m ρ c)
theorem W1_main_arg3 (c : Dev nD) : W1 m ρ c (Proc.devRef .tc main_arg3) = m ((c : Thread nD τ).loc main_arg3) :=
  (W1_of_ne m ρ c main_arg3 (by decide)).trans rfl
theorem W2_main_arg3 (c : Dev nD) : W2 m ρ c (Proc.devRef .tc main_arg3) = m ((c : Thread nD τ).loc main_arg3) :=
  (after1_main_arg3 (W1 m ρ c)).trans (W1_main_arg3 m ρ c)
theorem W3_main_arg3 (c : Dev nD) : W3 m ρ c (Proc.devRef .tc main_arg3) = m ((c : Thread nD τ).loc main_arg3) :=
  ((W3_arr m ρ c 3).trans (((dat1 (V2 m ρ) c).arrAt_in 3 rfl _).trans (A_eq1 (V2 m ρ) c 3))).trans (W2_main_arg3 m ρ c)
theorem W4_main_arg3 (c : Dev nD) : W4 m ρ c (Proc.devRef .tc main_arg3) = m ((c : Thread nD τ).loc main_arg3) :=
  (after2_main_arg3 (W3 m ρ c)).trans (W3_main_arg3 m ρ c)
theorem W1_main_arg4 (c : Dev nD) : W1 m ρ c (Proc.devRef .tc main_arg4) = m ((c : Thread nD τ).loc main_arg4) :=
  (W1_of_ne m ρ c main_arg4 (by decide)).trans rfl
theorem W2_main_arg4 (c : Dev nD) : W2 m ρ c (Proc.devRef .tc main_arg4) = m ((c : Thread nD τ).loc main_arg4) :=
  (after1_main_arg4 (W1 m ρ c)).trans (W1_main_arg4 m ρ c)
theorem W3_main_arg4 (c : Dev nD) : W3 m ρ c (Proc.devRef .tc main_arg4) = m ((c : Thread nD τ).loc main_arg4) :=
  (W3_of_ne m ρ c main_arg4 (by decide)).trans (W2_main_arg4 m ρ c)
theorem W4_main_arg4 (c : Dev nD) : W4 m ρ c (Proc.devRef .tc main_arg4) = m ((c : Thread nD τ).loc main_arg4) :=
  (after2_main_arg4 (W3 m ρ c)).trans (W3_main_arg4 m ρ c)
theorem W1_main_arg5 (c : Dev nD) : W1 m ρ c (Proc.devRef .tc main_arg5) = m ((c : Thread nD τ).loc main_arg5) :=
  (W1_of_ne m ρ c main_arg5 (by decide)).trans rfl
theorem W2_main_arg5 (c : Dev nD) : W2 m ρ c (Proc.devRef .tc main_arg5) = m ((c : Thread nD τ).loc main_arg5) :=
  (after1_main_arg5 (W1 m ρ c)).trans (W1_main_arg5 m ρ c)
theorem W3_main_arg5 (c : Dev nD) : W3 m ρ c (Proc.devRef .tc main_arg5) = m ((c : Thread nD τ).loc main_arg5) :=
  (W3_of_ne m ρ c main_arg5 (by decide)).trans (W2_main_arg5 m ρ c)
theorem W4_main_arg5 (c : Dev nD) : W4 m ρ c (Proc.devRef .tc main_arg5) = m ((c : Thread nD τ).loc main_arg5) :=
  (after2_main_arg5 (W3 m ρ c)).trans (W3_main_arg5 m ρ c)
theorem W1_main_arg6 (c : Dev nD) : W1 m ρ c (Proc.devRef .tc main_arg6) = m ((c : Thread nD τ).loc main_arg6) :=
  ((W1_arr m ρ c 3).trans (((dat0 (V0 m ρ) c).arrAt_in 3 rfl _).trans (A_eq0 (V0 m ρ) c 3))).trans rfl
theorem W2_main_arg6 (c : Dev nD) : W2 m ρ c (Proc.devRef .tc main_arg6) = m ((c : Thread nD τ).loc main_arg6) :=
  (after1_main_arg6 (W1 m ρ c)).trans (W1_main_arg6 m ρ c)
theorem W3_main_arg6 (c : Dev nD) : W3 m ρ c (Proc.devRef .tc main_arg6) = m ((c : Thread nD τ).loc main_arg6) :=
  (W3_of_ne m ρ c main_arg6 (by decide)).trans (W2_main_arg6 m ρ c)
theorem W4_main_arg6 (c : Dev nD) : W4 m ρ c (Proc.devRef .tc main_arg6) = m ((c : Thread nD τ).loc main_arg6) :=
  (after2_main_arg6 (W3 m ρ c)).trans (W3_main_arg6 m ρ c)
theorem W1_main_arg7 (c : Dev nD) : W1 m ρ c (Proc.devRef .tc main_arg7) = m ((c : Thread nD τ).loc main_arg7) :=
  ((W1_arr m ρ c 4).trans (((dat0 (V0 m ρ) c).arrAt_in 4 rfl _).trans (A_eq0 (V0 m ρ) c 4))).trans rfl
theorem W2_main_arg7 (c : Dev nD) : W2 m ρ c (Proc.devRef .tc main_arg7) = m ((c : Thread nD τ).loc main_arg7) :=
  (after1_main_arg7 (W1 m ρ c)).trans (W1_main_arg7 m ρ c)
theorem W3_main_arg7 (c : Dev nD) : W3 m ρ c (Proc.devRef .tc main_arg7) = m ((c : Thread nD τ).loc main_arg7) :=
  ((W3_arr m ρ c 4).trans (((dat1 (V2 m ρ) c).arrAt_in 4 rfl _).trans (A_eq1 (V2 m ρ) c 4))).trans (W2_main_arg7 m ρ c)
theorem W4_main_arg7 (c : Dev nD) : W4 m ρ c (Proc.devRef .tc main_arg7) = m ((c : Thread nD τ).loc main_arg7) :=
  (after2_main_arg7 (W3 m ρ c)).trans (W3_main_arg7 m ρ c)
theorem W1_main_arg8 (c : Dev nD) : W1 m ρ c (Proc.devRef .tc main_arg8) = m ((c : Thread nD τ).loc main_arg8) :=
  ((W1_arr m ρ c 5).trans (((dat0 (V0 m ρ) c).arrAt_in 5 rfl _).trans (A_eq0 (V0 m ρ) c 5))).trans rfl
theorem W2_main_arg8 (c : Dev nD) : W2 m ρ c (Proc.devRef .tc main_arg8) = m ((c : Thread nD τ).loc main_arg8) :=
  (after1_main_arg8 (W1 m ρ c)).trans (W1_main_arg8 m ρ c)
theorem W3_main_arg8 (c : Dev nD) : W3 m ρ c (Proc.devRef .tc main_arg8) = m ((c : Thread nD τ).loc main_arg8) :=
  (W3_of_ne m ρ c main_arg8 (by decide)).trans (W2_main_arg8 m ρ c)
theorem W4_main_arg8 (c : Dev nD) : W4 m ρ c (Proc.devRef .tc main_arg8) = m ((c : Thread nD τ).loc main_arg8) :=
  (after2_main_arg8 (W3 m ρ c)).trans (W3_main_arg8 m ρ c)

/-! ## The gathered arrays -/

theorem after1_main_v7 (V : Valuation τ sig (Elt F)) : StableHlo.after hostOps1 V (Proc.devRef .tc main_v7)
    = Host.gather gather_S50000x128_S800000x1_S800000x128_1_0_n_n_0_1_1128 (V (Proc.devRef .tc main_v0_0)) (idxCol (V (Proc.devRef .tc main_arg5))) := by
  unfold idxCol; after_results
theorem W2_main_v7 (c : Dev nD) : W2 m ρ c (Proc.devRef .tc main_v7)
    = Host.gather gather_S50000x128_S800000x1_S800000x128_1_0_n_n_0_1_1128 (W1 m ρ c (Proc.devRef .tc main_v0_0)) (idxCol (m ((c : Thread nD τ).loc main_arg5))) := by
  rw [← W1_main_arg5 m ρ c]; exact after1_main_v7 (W1 m ρ c)
theorem after1_main_v14 (V : Valuation τ sig (Elt F)) : StableHlo.after hostOps1 V (Proc.devRef .tc main_v14)
    = Host.gather gather_S50000x128_S800000x1_S800000x128_1_0_n_n_0_1_1128 (V (Proc.devRef .tc main_v0_1)) (idxCol (V (Proc.devRef .tc main_arg4))) := by
  unfold idxCol; after_results
theorem W2_main_v14 (c : Dev nD) : W2 m ρ c (Proc.devRef .tc main_v14)
    = Host.gather gather_S50000x128_S800000x1_S800000x128_1_0_n_n_0_1_1128 (W1 m ρ c (Proc.devRef .tc main_v0_1)) (idxCol (m ((c : Thread nD τ).loc main_arg4))) := by
  rw [← W1_main_arg4 m ρ c]; exact after1_main_v14 (W1 m ρ c)
set_option maxHeartbeats 1000000 in
theorem after1_main_v21 (V : Valuation τ sig (Elt F)) : StableHlo.after hostOps1 V (Proc.devRef .tc main_v21)
    = Host.gather gather_S50000x128_S800000x1_S800000x128_1_0_n_n_0_1_1128 (V (Proc.devRef .tc main_v0_2)) (idxCol (V (Proc.devRef .tc main_arg4))) := by
  unfold idxCol; after_results_simp
theorem W2_main_v21 (c : Dev nD) : W2 m ρ c (Proc.devRef .tc main_v21)
    = Host.gather gather_S50000x128_S800000x1_S800000x128_1_0_n_n_0_1_1128 (W1 m ρ c (Proc.devRef .tc main_v0_2)) (idxCol (m ((c : Thread nD τ).loc main_arg4))) := by
  rw [← W1_main_arg4 m ρ c]; exact after1_main_v21 (W1 m ρ c)

/-- The projection region's outputs, as the gathers find them: the pipeline's final arrays. -/
theorem W1_main_v0_0 (c : Dev nD) : W1 m ρ c (Proc.devRef .tc main_v0_0) = (dat0 (V0 m ρ) c).arrAt 6 cfg0.N := W1_arr m ρ c 6
theorem W1_main_v0_1 (c : Dev nD) : W1 m ρ c (Proc.devRef .tc main_v0_1) = (dat0 (V0 m ρ) c).arrAt 7 cfg0.N := W1_arr m ρ c 7
theorem W1_main_v0_2 (c : Dev nD) : W1 m ρ c (Proc.devRef .tc main_v0_2) = (dat0 (V0 m ρ) c).arrAt 8 cfg0.N := W1_arr m ρ c 8

/-! ## The result -/

/-- The edge region's output, as the scatter-add finds it: the pipeline's final array. -/
theorem W3_main_v22 (c : Dev nD) : W3 m ρ c (Proc.devRef .tc main_v22) = (dat1 (V2 m ρ) c).arrAt 5 cfg1.N := W3_arr m ρ c 5

/-- The result buffer at the return: the edge rows added into their destination nodes. -/
theorem W4_main_v25 (c : Dev nD) : W4 m ρ c (Proc.devRef .tc main_v25)
    = Host.scatterAdd scatter_S50000x128_S800000x1_S800000x128_1_0_0_1
        (broadcastInDim S50000x128 ![] bcast_S_S50000x128 (constant S_ .f32 0x00000000#32))
        (broadcastInDim S800000x1 ![0] bcast_S800000_S800000x1_0 (m ((c : Thread nD τ).loc main_arg5)))
        ((dat1 (V2 m ρ) c).arrAt 5 cfg1.N) := by
  rw [← W3_main_arg5 m ρ c, ← W3_main_v22 m ρ c]; exact after2_main_v25 (W3 m ρ c)

end Cert.KernelIdeal.Hand

end
-- ==== Proof.EdgeSpec.lean ====
/-
  What one edge computes, as mathematics on extended reals: the specification both programs are compared with.

  An edge has a query row Q, a key row K and a value row V, each of 128 numbers read as eight heads of sixteen:
  position h·16 + d is coordinate d of head h (`hd h d`). For a pair of heads (h, g) the score is the dot product of
  head h of Q with head g of K, times 1/4; leaky-relu (slope the f32 nearest 0.01) is applied to it; over g the eight
  activations of a fixed h are turned into softmax weights — each minus their maximum, exponentiated, divided by the sum of
  the eight exponentials —; and the output at (h, d) is the weighted sum over g of coordinate d of head g of V.
  `attnRow Q K V` is that output as a row of 128.

  Every definition is stated with the operations' meaning on the extended reals (`Ideal.exp`, `Ideal.div`, EReal's +, ·, max):
  there is no rounding, and a sum is a `Finset` sum, so the order in which a program adds does not show.
-/
import Idealize.ShloMosaic.PureOps.Ideal
import Idealize.ShloMosaic.Lib.ValueIdx

noncomputable section

namespace Cert.EdgeSpec

open Idealize.ShloMosaic

/-- Position of coordinate `d` of head `h` in a 128-wide row: h·16 + d. -/
def hd (h : Fin 8) (d : Fin 16) : Fin 128 := ⟨h.val * 16 + d.val, by omega⟩

/-- The head of a position, and its coordinate inside the head. -/
def headOf (c : Fin 128) : Fin 8 := ⟨c.val / 16, by omega⟩
def coordOf (c : Fin 128) : Fin 16 := ⟨c.val % 16, by omega⟩

theorem hd_headOf_coordOf (c : Fin 128) : hd (headOf c) (coordOf c) = c := by
  apply Fin.ext; simp only [hd, headOf, coordOf]; omega

/-- The scale 1/4 (= 1/√16) and the leaky-relu slope, as the f32 words both programs carry. -/
def quarter : EReal := Ideal.ofBits .f32 0x3E800000#32
def slope : EReal := Ideal.ofBits .f32 0x3C23D70A#32

/-- Leaky-relu: the identity on the non-negative, the slope times the argument below zero. -/
def lrelu (x : EReal) : EReal := if 0 ≤ x then x else slope * x

/-- The scaled score of head `h` of Q against head `g` of K. -/
def score (Q K : Fin 128 → EReal) (h g : Fin 8) : EReal := (∑ d : Fin 16, Q (hd h d) * K (hd g d)) * quarter

/-- Its activation. -/
def act (Q K : Fin 128 → EReal) (h g : Fin 8) : EReal := lrelu (score Q K h g)

/-- The greatest activation of head `h` over the eight key heads (the least upper bound starting from -∞). -/
def rowMax (Q K : Fin 128 → EReal) (h : Fin 8) : EReal := Finset.univ.sup fun g : Fin 8 => act Q K h g

/-- The shifted exponential, the softmax denominator and the softmax weight. -/
def ex (Q K : Fin 128 → EReal) (h g : Fin 8) : EReal := Ideal.exp (act Q K h g - rowMax Q K h)
def den (Q K : Fin 128 → EReal) (h : Fin 8) : EReal := ∑ g : Fin 8, ex Q K h g
def wgt (Q K : Fin 128 → EReal) (h g : Fin 8) : EReal := Ideal.div (ex Q K h g) (den Q K h)

/-- The edge's output at head `h`, coordinate `d`: the weights of head `h` against coordinate `d` of V's heads. -/
def attn (Q K V : Fin 128 → EReal) (h : Fin 8) (d : Fin 16) : EReal := ∑ g : Fin 8, wgt Q K h g * V (hd g d)

/-- The edge's output as a row of 128. -/
def attnRow (Q K V : Fin 128 → EReal) (c : Fin 128) : EReal := attn Q K V (headOf c) (coordOf c)

end Cert.EdgeSpec

end
-- ==== Proof.KI.Final0.lean ====
/-
  The projection kernel's three result arrays after its last grid point, over the extended reals.

  Point t of the 25 writes rows 2000 t … 2000 t + 1999 of each result array. What it writes is the product of the same
  rows of q (of k, of v) with the whole weight Wq (Wk, Wv): entry (p, c) of a stored block is ∑ j x (p, j) · w (j, c) —
  the rounding to bf16 on the way into the product is the identity on extended reals, and the product accumulates onto
  zero. A row window's block index at point t is (t, 0) and a weight window's is (0, 0), so the rows a point reads are
  the rows it writes and the weight is read whole. The 25 blocks of 2000 rows tile the 50000 rows: each result array
  ends as its argument times its weight, entry by entry (`final0_6`, `final0_7`, `final0_8`).
-/
import proofs.«151337_j57836029608550_2_alg».proof.Proof.KI.Region0
import proofs.«151337_j57836029608550_2_alg».proof.Proof.EdgeSpec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe
open Idealize.ShloMosaic.ValueIdx
open Idealize.ShloMosaic.Pipeline (Dat Cfg Window)

/-! ## A stored block, entry by entry -/

/-- The zero offsets of a whole-buffer rectangle. -/
theorem zeroOffsets2 : (![0, 0] : Fin 2 → Nat) = fun _ => 0 := funext fun a => by fin_cases a <;> rfl

/-- A block of rows times a weight, accumulated onto zero, at entry (p, c): the sum over j of A (p, j) · B (j, c). -/
theorem rowsTimesWeight_apply (A : FVec Ideal S2000x128 .bf16) (B : FVec Ideal S128x128 .bf16) (p : Fin 2000) (c : Fin 128) :
    matmul (F := Ideal) dot_S2000x128_S128x128_S2000x128_1_0_0_1_n_n none A B (constant (F := Ideal) S2000x128 .f32 0x00000000#32) (ix2 p c)
      = ∑ j : Fin 128, A (ix2 p j) * B (ix2 j c) := by
  refine (Ideal.matmul_constant_zero_apply dot_S2000x128_S128x128_S2000x128_1_0_0_1_n_n none A B (ix2 p c)).trans ?_
  refine (Equiv.sum_comp (contrEquiv1 dot_S2000x128_S128x128_S2000x128_1_0_0_1_n_n 128 rfl rfl).symm _).symm.trans ?_
  refine Finset.sum_congr rfl fun j _ => ?_
  have e1 : dot_S2000x128_S128x128_S2000x128_1_0_0_1_n_n.lhsIdx (ix2 p c)
      ((contrEquiv1 dot_S2000x128_S128x128_S2000x128_1_0_0_1_n_n 128 rfl rfl).symm j) = ix2 p j :=
    funext fun a => match a with | ⟨0, _⟩ => Fin.ext rfl | ⟨1, _⟩ => Fin.ext rfl
  have e2 : dot_S2000x128_S128x128_S2000x128_1_0_0_1_n_n.rhsIdx (ix2 p c)
      ((contrEquiv1 dot_S2000x128_S128x128_S2000x128_1_0_0_1_n_n 128 rfl rfl).symm j) = ix2 j c :=
    funext fun a => match a with | ⟨0, _⟩ => Fin.ext rfl | ⟨1, _⟩ => Fin.ext rfl
  rw [e1, e2]

/-- Stored block 1 at entry (p, c): the rounding to bf16 is the identity, so it is the rows' product with the weight. -/
theorem pay1_apply (x : Vec Ideal S2000x128 .f32) (w : Vec Ideal S128x128 .f32) (p : Fin 2000) (c : Fin 128) :
    k0_pay1 (F := Ideal) x w (ix2 p c) = ∑ j : Fin 128, x (ix2 p j) * w (ix2 j c) := by
  unfold k0_pay1
  exact rowsTimesWeight_apply _ _ p c
/-- The same at any index of the block, its coordinates read off as numbers below 2000 and 128. -/
theorem pay1_at (x : Vec Ideal S2000x128 .f32) (w : Vec Ideal S128x128 .f32) (y : S2000x128.Idx) :
    k0_pay1 (F := Ideal) x w y = ∑ j : Fin 128, x (ix2 (⟨(y 0).val, idx2_lt0 y⟩ : Fin 2000) j) * w (ix2 j (⟨(y 1).val, idx2_lt1 y⟩ : Fin 128)) := by
  obtain ⟨p, c, rfl⟩ : ∃ (p : Fin 2000) (c : Fin 128), y = ix2 p c := ⟨y 0, y 1, eq_ix2 y⟩
  exact pay1_apply x w p c

/-- Stored block 2 at entry (p, c): the rounding to bf16 is the identity, so it is the rows' product with the weight. -/
theorem pay2_apply (x : Vec Ideal S2000x128 .f32) (w : Vec Ideal S128x128 .f32) (p : Fin 2000) (c : Fin 128) :
    k0_pay2 (F := Ideal) x w (ix2 p c) = ∑ j : Fin 128, x (ix2 p j) * w (ix2 j c) := by
  unfold k0_pay2
  exact rowsTimesWeight_apply _ _ p c
/-- The same at any index of the block, its coordinates read off as numbers below 2000 and 128. -/
theorem pay2_at (x : Vec Ideal S2000x128 .f32) (w : Vec Ideal S128x128 .f32) (y : S2000x128.Idx) :
    k0_pay2 (F := Ideal) x w y = ∑ j : Fin 128, x (ix2 (⟨(y 0).val, idx2_lt0 y⟩ : Fin 2000) j) * w (ix2 j (⟨(y 1).val, idx2_lt1 y⟩ : Fin 128)) := by
  obtain ⟨p, c, rfl⟩ : ∃ (p : Fin 2000) (c : Fin 128), y = ix2 p c := ⟨y 0, y 1, eq_ix2 y⟩
  exact pay2_apply x w p c

/-- Stored block 3 at entry (p, c): the rounding to bf16 is the identity, so it is the rows' product with the weight. -/
theorem pay3_apply (x : Vec Ideal S2000x128 .f32) (w : Vec Ideal S128x128 .f32) (p : Fin 2000) (c : Fin 128) :
    k0_pay3 (F := Ideal) x w (ix2 p c) = ∑ j : Fin 128, x (ix2 p j) * w (ix2 j c) := by
  unfold k0_pay3
  exact rowsTimesWeight_apply _ _ p c
/-- The same at any index of the block, its coordinates read off as numbers below 2000 and 128. -/
theorem pay3_at (x : Vec Ideal S2000x128 .f32) (w : Vec Ideal S128x128 .f32) (y : S2000x128.Idx) :
    k0_pay3 (F := Ideal) x w y = ∑ j : Fin 128, x (ix2 (⟨(y 0).val, idx2_lt0 y⟩ : Fin 2000) j) * w (ix2 j (⟨(y 1).val, idx2_lt1 y⟩ : Fin 128)) := by
  obtain ⟨p, c, rfl⟩ : ∃ (p : Fin 2000) (c : Fin 128), y = ix2 p c := ⟨y 0, y 1, eq_ix2 y⟩
  exact pay3_apply x w p c

/-! ## The product of whole arrays -/

/-- Rows times a weight, over whole arrays: entry (r, c) is the sum over j of A (r, j) · W (j, c). -/
def rowsTimes (A : S50000x128.Idx → EReal) (W : S128x128.Idx → EReal) : S50000x128.Idx → EReal :=
  fun i => ∑ j : Fin 128, A (ix2 (⟨(i 0).val, idx2_lt0 i⟩ : Fin 50000) j) * W (ix2 j (⟨(i 1).val, idx2_lt1 i⟩ : Fin 128))

theorem rowsTimes_at (A : S50000x128.Idx → EReal) (W : S128x128.Idx → EReal) (i : S50000x128.Idx) :
    rowsTimes A W i = ∑ j : Fin 128, A (ix2 (⟨(i 0).val, idx2_lt0 i⟩ : Fin 50000) j) * W (ix2 j (⟨(i 1).val, idx2_lt1 i⟩ : Fin 128)) := rfl

theorem rowsTimes_apply (A : S50000x128.Idx → EReal) (W : S128x128.Idx → EReal) (r : Fin 50000) (c : Fin 128) :
    rowsTimes A W (ix2 r c) = ∑ j : Fin 128, A (ix2 r j) * W (ix2 j c) := rfl

/-! ## The blocks of a point -/

-- the TensorCore's buffer contents when the region is entered
variable (V : (c : Dev nD) → (b : Ref sig .tc) → Buf (Elt Ideal) ((c : Thread nD τ).loc b))

/-! ### q · Wq: windows 0 (rows), 3 (weight), 6 (result) -/

/-- The printed index maps over the grid: the row windows' block index at point t is (t, 0), the weight window's (0, 0). -/
theorem idx0_6_facts : ∀ t : Fin cfg0.N,
    win0_0.index t (0 : Fin 2) = t.val ∧ win0_0.index t (1 : Fin 2) = 0
    ∧ win0_3.index t (0 : Fin 2) = 0 ∧ win0_3.index t (1 : Fin 2) = 0
    ∧ win0_6.index t (0 : Fin 2) = t.val ∧ win0_6.index t (1 : Fin 2) = 0 :=
  (by decide +kernel : ∀ t : Fin grid0.N, _)

/-- Window 0's block at point t is rows 2000 t … 2000 t + 1999 of q. -/
theorem iblk0_0_apply (c : Dev nD) (t : Fin cfg0.N) (x : S2000x128.Idx) (i : S50000x128.Idx)
    (h0 : (i 0).val = 2000 * t.val + (x 0).val) (h1 : (i 1).val = (x 1).val) :
    (iblk0 V c 0 t : Vec Ideal S2000x128 .f32) x = (V c main_arg0 : S50000x128.Idx → EReal) i := by
  obtain ⟨e0, e1, -⟩ := idx0_6_facts t
  unfold iblk0
  rw [View.read_apply]
  show (V c main_arg0 : S50000x128.Idx → EReal) _ = _
  congr 1
  funext a
  apply Fin.ext
  match a with
  | ⟨0, _⟩ => show win0_0.index t (0 : Fin 2) * 2000 + 1 * (x 0).val = (i 0).val; rw [e0, h0]; omega
  | ⟨1, _⟩ => show win0_0.index t (1 : Fin 2) * 128 + 1 * (x 1).val = (i 1).val; rw [e1, h1]; omega

/-- Window 3's block at every point is the whole of Wq. -/
theorem iblk0_3_apply (c : Dev nD) (t : Fin cfg0.N) (x : S128x128.Idx) :
    (iblk0 V c 3 t : Vec Ideal S128x128 .f32) x = (V c main_arg6 : S128x128.Idx → EReal) x := by
  obtain ⟨-, -, e0, e1, -⟩ := idx0_6_facts t
  unfold iblk0
  rw [View.read_apply]
  show (V c main_arg6 : S128x128.Idx → EReal) _ = _
  congr 1
  funext a
  apply Fin.ext
  match a with
  | ⟨0, _⟩ => show win0_3.index t (0 : Fin 2) * 128 + 1 * (x 0).val = (x 0).val; rw [e0]; omega
  | ⟨1, _⟩ => show win0_3.index t (1 : Fin 2) * 128 + 1 * (x 1).val = (x 1).val; rw [e1]; omega

/-- What point t writes back through window 6 is block t of q · Wq. -/
theorem flushed0_6_eq (c : Dev nD) (t : Fin cfg0.N) :
    (dat0 (F := Ideal) V c).flushed 6 t = ((cfg0.win 6).blk t).view.read (Elt Ideal) (rowsTimes (V c main_arg0) (V c main_arg6)) := by
  show (cfg0.win 6).cut (grid0.coords t) ((dat0 (F := Ideal) V c).after 6 t) = _
  rw [after0_6]
  unfold out0_6
  rw [View.canon_unit_zero zeroOffsets2]
  simp only [View.ld_unit_zero (S := S2000x128) zeroOffsets2, View.ld_unit_zero (S := S128x128) zeroOffsets2]
  obtain ⟨-, -, -, -, e0, e1⟩ := idx0_6_facts t
  funext y
  refine (pay1_at _ _ y).trans ?_
  show _ = rowsTimes (V c main_arg0) (V c main_arg6) (((cfg0.win 6).blk t).view.emb y)
  refine Eq.trans ?_ (rowsTimes_at _ _ _).symm
  refine Finset.sum_congr rfl fun j _ => ?_
  congr 1
  · refine iblk0_0_apply V c t _ _ ?_ rfl
    show win0_6.index t (0 : Fin 2) * 2000 + 1 * (y 0).val = 2000 * t.val + (y 0).val
    rw [e0]; omega
  · refine (iblk0_3_apply V c t _).trans ?_
    congr 1
    funext a
    apply Fin.ext
    match a with
    | ⟨0, _⟩ => rfl
    | ⟨1, _⟩ => show (y 1).val = win0_6.index t (1 : Fin 2) * 128 + 1 * (y 1).val; rw [e1]; omega

/-- An entry of the array lies in point t's block of window 6 iff each coordinate lies in the block's range on its axis. -/
theorem mem_blk0_6 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v0_0).slice (win0_6.rect t)).set ↔ _
  rw [View.set_slice_whole, Rect.mem_set_unit]
  exact Iff.rfl

/-- Row r lies in the block of point r / 2000: the 25 blocks of 2000 rows tile the 50000 rows. -/
theorem cover0_6 (i : S50000x128.Idx) : ∃ t : Fin cfg0.N, (cfg0.win 6).flush t = true ∧ i ∈ ((cfg0.win 6).blk t).view.set := by
  have hi0 : (i 0).val < 50000 := idx2_lt0 i
  have hi1 : (i 1).val < 128 := idx2_lt1 i
  have hN : cfg0.N = 25 := N_0
  have hT : (i 0).val / 2000 < cfg0.N := by rw [hN]; omega
  refine ⟨⟨(i 0).val / 2000, hT⟩, flush0_6 _, ?_⟩
  rw [mem_blk0_6]
  obtain ⟨-, -, -, -, e0, e1⟩ := idx0_6_facts ⟨(i 0).val / 2000, hT⟩
  have e0' : win0_6.index ⟨(i 0).val / 2000, hT⟩ (0 : Fin 2) = (i 0).val / 2000 := e0
  intro a
  match a with
  | ⟨0, _⟩ =>
    show win0_6.index ⟨(i 0).val / 2000, hT⟩ (0 : Fin 2) * 2000 ≤ (i 0).val ∧ (i 0).val < win0_6.index ⟨(i 0).val / 2000, hT⟩ (0 : Fin 2) * 2000 + 2000
    rw [e0']; omega
  | ⟨1, _⟩ =>
    show win0_6.index ⟨(i 0).val / 2000, hT⟩ (1 : Fin 2) * 128 ≤ (i 1).val ∧ (i 1).val < win0_6.index ⟨(i 0).val / 2000, hT⟩ (1 : Fin 2) * 128 + 128
    rw [e1]; omega

/-- After the last point the result array of window 6 holds q · Wq, entry by entry (the sum and the products are the extended reals').
    -/
theorem final0_6 (c : Dev nD) (r : Fin 50000) (k : Fin 128) :
    (dat0 (F := Ideal) V c).arrAt 6 cfg0.N (ix2 r k)
      = @Finset.sum (Fin 128) EReal _ Finset.univ fun j => @HMul.hMul EReal EReal EReal _ (V c main_arg0 (ix2 r j)) (V c main_arg6 (ix2 j k)) := by
  rw [(dat0 (F := Ideal) V c).arrAt_eq_of_cover 6 (rowsTimes (V c main_arg0) (V c main_arg6)) (fun t _ => flushed0_6_eq V c t) cover0_6]
  rfl

/-! ### k · Wk: windows 1 (rows), 4 (weight), 7 (result) -/

/-- The printed index maps over the grid: the row windows' block index at point t is (t, 0), the weight window's (0, 0). -/
theorem idx0_7_facts : ∀ t : Fin cfg0.N,
    win0_1.index t (0 : Fin 2) = t.val ∧ win0_1.index t (1 : Fin 2) = 0
    ∧ win0_4.index t (0 : Fin 2) = 0 ∧ win0_4.index t (1 : Fin 2) = 0
    ∧ win0_7.index t (0 : Fin 2) = t.val ∧ win0_7.index t (1 : Fin 2) = 0 :=
  (by decide +kernel : ∀ t : Fin grid0.N, _)

/-- Window 1's block at point t is rows 2000 t … 2000 t + 1999 of k. -/
theorem iblk0_1_apply (c : Dev nD) (t : Fin cfg0.N) (x : S2000x128.Idx) (i : S50000x128.Idx)
    (h0 : (i 0).val = 2000 * t.val + (x 0).val) (h1 : (i 1).val = (x 1).val) :
    (iblk0 V c 1 t : Vec Ideal S2000x128 .f32) x = (V c main_arg1 : S50000x128.Idx → EReal) i := by
  obtain ⟨e0, e1, -⟩ := idx0_7_facts t
  unfold iblk0
  rw [View.read_apply]
  show (V c main_arg1 : S50000x128.Idx → EReal) _ = _
  congr 1
  funext a
  apply Fin.ext
  match a with
  | ⟨0, _⟩ => show win0_1.index t (0 : Fin 2) * 2000 + 1 * (x 0).val = (i 0).val; rw [e0, h0]; omega
  | ⟨1, _⟩ => show win0_1.index t (1 : Fin 2) * 128 + 1 * (x 1).val = (i 1).val; rw [e1, h1]; omega

/-- Window 4's block at every point is the whole of Wk. -/
theorem iblk0_4_apply (c : Dev nD) (t : Fin cfg0.N) (x : S128x128.Idx) :
    (iblk0 V c 4 t : Vec Ideal S128x128 .f32) x = (V c main_arg7 : S128x128.Idx → EReal) x := by
  obtain ⟨-, -, e0, e1, -⟩ := idx0_7_facts t
  unfold iblk0
  rw [View.read_apply]
  show (V c main_arg7 : S128x128.Idx → EReal) _ = _
  congr 1
  funext a
  apply Fin.ext
  match a with
  | ⟨0, _⟩ => show win0_4.index t (0 : Fin 2) * 128 + 1 * (x 0).val = (x 0).val; rw [e0]; omega
  | ⟨1, _⟩ => show win0_4.index t (1 : Fin 2) * 128 + 1 * (x 1).val = (x 1).val; rw [e1]; omega

/-- What point t writes back through window 7 is block t of k · Wk. -/
theorem flushed0_7_eq (c : Dev nD) (t : Fin cfg0.N) :
    (dat0 (F := Ideal) V c).flushed 7 t = ((cfg0.win 7).blk t).view.read (Elt Ideal) (rowsTimes (V c main_arg1) (V c main_arg7)) := by
  show (cfg0.win 7).cut (grid0.coords t) ((dat0 (F := Ideal) V c).after 7 t) = _
  rw [after0_7]
  unfold out0_7
  rw [View.canon_unit_zero zeroOffsets2]
  simp only [View.ld_unit_zero (S := S2000x128) zeroOffsets2, View.ld_unit_zero (S := S128x128) zeroOffsets2]
  obtain ⟨-, -, -, -, e0, e1⟩ := idx0_7_facts t
  funext y
  refine (pay2_at _ _ y).trans ?_
  show _ = rowsTimes (V c main_arg1) (V c main_arg7) (((cfg0.win 7).blk t).view.emb y)
  refine Eq.trans ?_ (rowsTimes_at _ _ _).symm
  refine Finset.sum_congr rfl fun j _ => ?_
  congr 1
  · refine iblk0_1_apply V c t _ _ ?_ rfl
    show win0_7.index t (0 : Fin 2) * 2000 + 1 * (y 0).val = 2000 * t.val + (y 0).val
    rw [e0]; omega
  · refine (iblk0_4_apply V c t _).trans ?_
    congr 1
    funext a
    apply Fin.ext
    match a with
    | ⟨0, _⟩ => rfl
    | ⟨1, _⟩ => show (y 1).val = win0_7.index t (1 : Fin 2) * 128 + 1 * (y 1).val; rw [e1]; omega

/-- An entry of the array lies in point t's block of window 7 iff each coordinate lies in the block's range on its axis. -/
theorem mem_blk0_7 (t : Fin cfg0.N) (i : S50000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v0_1).slice (win0_7.rect t)).set ↔ _
  rw [View.set_slice_whole, Rect.mem_set_unit]
  exact Iff.rfl

/-- Row r lies in the block of point r / 2000: the 25 blocks of 2000 rows tile the 50000 rows. -/
theorem cover0_7 (i : S50000x128.Idx) : ∃ t : Fin cfg0.N, (cfg0.win 7).flush t = true ∧ i ∈ ((cfg0.win 7).blk t).view.set := by
  have hi0 : (i 0).val < 50000 := idx2_lt0 i
  have hi1 : (i 1).val < 128 := idx2_lt1 i
  have hN : cfg0.N = 25 := N_0
  have hT : (i 0).val / 2000 < cfg0.N := by rw [hN]; omega
  refine ⟨⟨(i 0).val / 2000, hT⟩, flush0_7 _, ?_⟩
  rw [mem_blk0_7]
  obtain ⟨-, -, -, -, e0, e1⟩ := idx0_7_facts ⟨(i 0).val / 2000, hT⟩
  have e0' : win0_7.index ⟨(i 0).val / 2000, hT⟩ (0 : Fin 2) = (i 0).val / 2000 := e0
  intro a
  match a with
  | ⟨0, _⟩ =>
    show win0_7.index ⟨(i 0).val / 2000, hT⟩ (0 : Fin 2) * 2000 ≤ (i 0).val ∧ (i 0).val < win0_7.index ⟨(i 0).val / 2000, hT⟩ (0 : Fin 2) * 2000 + 2000
    rw [e0']; omega
  | ⟨1, _⟩ =>
    show win0_7.index ⟨(i 0).val / 2000, hT⟩ (1 : Fin 2) * 128 ≤ (i 1).val ∧ (i 1).val < win0_7.index ⟨(i 0).val / 2000, hT⟩ (1 : Fin 2) * 128 + 128
    rw [e1]; omega

/-- After the last point the result array of window 7 holds k · Wk, entry by entry (the sum and the products are the extended reals').
    -/
theorem final0_7 (c : Dev nD) (r : Fin 50000) (k : Fin 128) :
    (dat0 (F := Ideal) V c).arrAt 7 cfg0.N (ix2 r k)
      = @Finset.sum (Fin 128) EReal _ Finset.univ fun j => @HMul.hMul EReal EReal EReal _ (V c main_arg1 (ix2 r j)) (V c main_arg7 (ix2 j k)) := by
  rw [(dat0 (F := Ideal) V c).arrAt_eq_of_cover 7 (rowsTimes (V c main_arg1) (V c main_arg7)) (fun t _ => flushed0_7_eq V c t) cover0_7]
  rfl

/-! ### v · Wv: windows 2 (rows), 5 (weight), 8 (result) -/

/-- The printed index maps over the grid: the row windows' block index at point t is (t, 0), the weight window's (0, 0). -/
theorem idx0_8_facts : ∀ t : Fin cfg0.N,
    win0_2.index t (0 : Fin 2) = t.val ∧ win0_2.index t (1 : Fin 2) = 0
    ∧ win0_5.index t (0 : Fin 2) = 0 ∧ win0_5.index t (1 : Fin 2) = 0
    ∧ win0_8.index t (0 : Fin 2) = t.val ∧ win0_8.index t (1 : Fin 2) = 0 :=
  (by decide +kernel : ∀ t : Fin grid0.N, _)

/-- Window 2's block at point t is rows 2000 t … 2000 t + 1999 of v. -/
theorem iblk0_2_apply (c : Dev nD) (t : Fin cfg0.N) (x : S2000x128.Idx) (i : S50000x128.Idx)
    (h0 : (i 0).val = 2000 * t.val + (x 0).val) (h1 : (i 1).val = (x 1).val) :
    (iblk0 V c 2 t : Vec Ideal S2000x128 .f32) x = (V c main_arg2 : S50000x128.Idx → EReal) i := by
  obtain ⟨e0, e1, -⟩ := idx0_8_facts t
  unfold iblk0
  rw [View.read_apply]
  show (V c main_arg2 : S50000x128.Idx → EReal) _ = _
  congr 1
  funext a
  apply Fin.ext
  match a with
  | ⟨0, _⟩ => show win0_2.index t (0 : Fin 2) * 2000 + 1 * (x 0).val = (i 0).val; rw [e0, h0]; omega
  | ⟨1, _⟩ => show win0_2.index t (1 : Fin 2) * 128 + 1 * (x 1).val = (i 1).val; rw [e1, h1]; omega

/-- Window 5's block at every point is the whole of Wv. -/
theorem iblk0_5_apply (c : Dev nD) (t : Fin cfg0.N) (x : S128x128.Idx) :
    (iblk0 V c 5 t : Vec Ideal S128x128 .f32) x = (V c main_arg8 : S128x128.Idx → EReal) x := by
  obtain ⟨-, -, e0, e1, -⟩ := idx0_8_facts t
  unfold iblk0
  rw [View.read_apply]
  show (V c main_arg8 : S128x128.Idx → EReal) _ = _
  congr 1
  funext a
  apply Fin.ext
  match a with
  | ⟨0, _⟩ => show win0_5.index t (0 : Fin 2) * 128 + 1 * (x 0).val = (x 0).val; rw [e0]; omega
  | ⟨1, _⟩ => show win0_5.index t (1 : Fin 2) * 128 + 1 * (x 1).val = (x 1).val; rw [e1]; omega

/-- What point t writes back through window 8 is block t of v · Wv. -/
theorem flushed0_8_eq (c : Dev nD) (t : Fin cfg0.N) :
    (dat0 (F := Ideal) V c).flushed 8 t = ((cfg0.win 8).blk t).view.read (Elt Ideal) (rowsTimes (V c main_arg2) (V c main_arg8)) := by
  show (cfg0.win 8).cut (grid0.coords t) ((dat0 (F := Ideal) V c).after 8 t) = _
  rw [after0_8]
  unfold out0_8
  rw [View.canon_unit_zero zeroOffsets2]
  simp only [View.ld_unit_zero (S := S2000x128) zeroOffsets2, View.ld_unit_zero (S := S128x128) zeroOffsets2]
  obtain ⟨-, -, -, -, e0, e1⟩ := idx0_8_facts t
  funext y
  refine (pay3_at _ _ y).trans ?_
  show _ = rowsTimes (V c main_arg2) (V c main_arg8) (((cfg0.win 8).blk t).view.emb y)
  refine Eq.trans ?_ (rowsTimes_at _ _ _).symm
  refine Finset.sum_congr rfl fun j _ => ?_
  congr 1
  · refine iblk0_2_apply V c t _ _ ?_ rfl
    show win0_8.index t (0 : Fin 2) * 2000 + 1 * (y 0).val = 2000 * t.val + (y 0).val
    rw [e0]; omega
  · refine (iblk0_5_apply V c t _).trans ?_
    congr 1
    funext a
    apply Fin.ext
    match a with
    | ⟨0, _⟩ => rfl
    | ⟨1, _⟩ => show (y 1).val = win0_8.index t (1 : Fin 2) * 128 + 1 * (y 1).val; rw [e1]; omega

/-- An entry of the array lies in point t's block of window 8 iff each coordinate lies in the block's range on its axis. -/
theorem mem_blk0_8 (t : Fin cfg0.N) (i : S50000x128.Idx) :
    i ∈ ((cfg0.win 8).blk t).view.set ↔ ∀ a : Fin 2, win0_8.index t a * S2000x128.size a ≤ (i a).val ∧ (i a).val < win0_8.index t a * S2000x128.size a + S2000x128.size a := by
  show i ∈ ((View.whole main_v0_2).slice (win0_8.rect t)).set ↔ _
  rw [View.set_slice_whole, Rect.mem_set_unit]
  exact Iff.rfl

/-- Row r lies in the block of point r / 2000: the 25 blocks of 2000 rows tile the 50000 rows. -/
theorem cover0_8 (i : S50000x128.Idx) : ∃ t : Fin cfg0.N, (cfg0.win 8).flush t = true ∧ i ∈ ((cfg0.win 8).blk t).view.set := by
  have hi0 : (i 0).val < 50000 := idx2_lt0 i
  have hi1 : (i 1).val < 128 := idx2_lt1 i
  have hN : cfg0.N = 25 := N_0
  have hT : (i 0).val / 2000 < cfg0.N := by rw [hN]; omega
  refine ⟨⟨(i 0).val / 2000, hT⟩, flush0_8 _, ?_⟩
  rw [mem_blk0_8]
  obtain ⟨-, -, -, -, e0, e1⟩ := idx0_8_facts ⟨(i 0).val / 2000, hT⟩
  have e0' : win0_8.index ⟨(i 0).val / 2000, hT⟩ (0 : Fin 2) = (i 0).val / 2000 := e0
  intro a
  match a with
  | ⟨0, _⟩ =>
    show win0_8.index ⟨(i 0).val / 2000, hT⟩ (0 : Fin 2) * 2000 ≤ (i 0).val ∧ (i 0).val < win0_8.index ⟨(i 0).val / 2000, hT⟩ (0 : Fin 2) * 2000 + 2000
    rw [e0']; omega
  | ⟨1, _⟩ =>
    show win0_8.index ⟨(i 0).val / 2000, hT⟩ (1 : Fin 2) * 128 ≤ (i 1).val ∧ (i 1).val < win0_8.index ⟨(i 0).val / 2000, hT⟩ (1 : Fin 2) * 128 + 128
    rw [e1]; omega

/-- After the last point the result array of window 8 holds v · Wv, entry by entry (the sum and the products are the extended reals').
    -/
theorem final0_8 (c : Dev nD) (r : Fin 50000) (k : Fin 128) :
    (dat0 (F := Ideal) V c).arrAt 8 cfg0.N (ix2 r k)
      = @Finset.sum (Fin 128) EReal _ Finset.univ fun j => @HMul.hMul EReal EReal EReal _ (V c main_arg2 (ix2 r j)) (V c main_arg8 (ix2 j k)) := by
  rw [(dat0 (F := Ideal) V c).arrAt_eq_of_cover 8 (rowsTimes (V c main_arg2) (V c main_arg8)) (fun t _ => flushed0_8_eq V c t) cover0_8]
  rfl

end Cert.KernelIdeal.Hand

end
-- ==== Proof.KI.Final1a.lean ====
/-
  The edge region's blocks read off the arrays, at the extended reals.

  At point t a row window's block holds rows 2048·t … of its array; the columns are never cut. On the rows the transfers
  move (all 2048, or the first 1280 at the last point) the filled staging buffer holds the array's row 2048·t + r. The
  weight window holds the whole weight at every point.
-/
import proofs.«151337_j57836029608550_2_alg».proof.Proof.KI.Region1
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-! The column block index of every row window is 0 at every point, and the weight window's block index is (0, 0). -/

theorem idx1_0_col : ∀ t : Fin cfg1.N, (cfg1.win 0).index t (1 : Fin 2) = 0 :=
  (by decide +kernel : ∀ t : Fin grid1.N, win1_0.index t (1 : Fin 2) = 0)
theorem idx1_1_col : ∀ t : Fin cfg1.N, (cfg1.win 1).index t (1 : Fin 2) = 0 :=
  (by decide +kernel : ∀ t : Fin grid1.N, win1_1.index t (1 : Fin 2) = 0)
theorem idx1_2_col : ∀ t : Fin cfg1.N, (cfg1.win 2).index t (1 : Fin 2) = 0 :=
  (by decide +kernel : ∀ t : Fin grid1.N, win1_2.index t (1 : Fin 2) = 0)
theorem idx1_3_col : ∀ t : Fin cfg1.N, (cfg1.win 3).index t (1 : Fin 2) = 0 :=
  (by decide +kernel : ∀ t : Fin grid1.N, win1_3.index t (1 : Fin 2) = 0)
theorem idx1_5_col : ∀ t : Fin cfg1.N, (cfg1.win 5).index t (1 : Fin 2) = 0 :=
  (by decide +kernel : ∀ t : Fin grid1.N, win1_5.index t (1 : Fin 2) = 0)
theorem idx1_4_row : ∀ t : Fin cfg1.N, (cfg1.win 4).index t (0 : Fin 2) = 0 :=
  (by decide +kernel : ∀ t : Fin grid1.N, win1_4.index t (0 : Fin 2) = 0)
theorem idx1_4_col : ∀ t : Fin cfg1.N, (cfg1.win 4).index t (1 : Fin 2) = 0 :=
  (by decide +kernel : ∀ t : Fin grid1.N, win1_4.index t (1 : Fin 2) = 0)

-- the TensorCore's buffer contents when the region is entered
variable (V : (c : Dev nD) → (b : Ref sig .tc) → Buf (Elt Ideal) ((c : Thread nD τ).loc b))

/-- On a row the transfers move, window 0's filled block holds the array's row 2048·t + r. -/
theorem fillrow1_0 (c : Dev nD) (t : Fin cfg1.N) (r : Fin 2048) (jj : Fin 128)
    (hr : r.val < if t.val = 390 then 1280 else 2048) (e : Fin 800000) (he : e.val = t.val * 2048 + r.val) :
    win1_0.fill (grid1.coords t) zB (iblk1 V c 0 t) (ix2 r jj) = V c main_v7 (ix2 e jj) := by
  have hm : win1_0.moved (grid1.coords t) (ix2 r jj) = true := (win1_0.moved_iff _ _).mpr fun a => by
    match a with
    | ⟨0, _⟩ => show r.val < win1_0.xsize (grid1.coords t) (0 : Fin 2); rw [xsize1_0_row t]; exact hr
    | ⟨1, _⟩ => show jj.val < win1_0.xsize (grid1.coords t) (1 : Fin 2); rw [xsize1_0_col t]; exact jj.isLt
  unfold Pipeline.Window.fill
  rw [dif_pos hm]
  unfold iblk1
  show V c main_v7 (((cfg1.win 0).blk t).view.emb _) = V c main_v7 (ix2 e jj)
  refine congrArg (V c main_v7) (funext fun a => Fin.ext ?_)
  match a with
  | ⟨0, _⟩ =>
    show win1_0.index t (0 : Fin 2) * 2048 + 1 * r.val = e.val
    rw [idx1_0_row t, he]; omega
  | ⟨1, _⟩ =>
    show win1_0.index t (1 : Fin 2) * 128 + 1 * jj.val = jj.val
    rw [idx1_0_col t]; omega

/-- On a row the transfers move, window 1's filled block holds the array's row 2048·t + r. -/
theorem fillrow1_1 (c : Dev nD) (t : Fin cfg1.N) (r : Fin 2048) (jj : Fin 128)
    (hr : r.val < if t.val = 390 then 1280 else 2048) (e : Fin 800000) (he : e.val = t.val * 2048 + r.val) :
    win1_1.fill (grid1.coords t) zB (iblk1 V c 1 t) (ix2 r jj) = V c main_v14 (ix2 e jj) := by
  have hm : win1_1.moved (grid1.coords t) (ix2 r jj) = true := (win1_1.moved_iff _ _).mpr fun a => by
    match a with
    | ⟨0, _⟩ => show r.val < win1_1.xsize (grid1.coords t) (0 : Fin 2); rw [xsize1_1_row t]; exact hr
    | ⟨1, _⟩ => show jj.val < win1_1.xsize (grid1.coords t) (1 : Fin 2); rw [xsize1_1_col t]; exact jj.isLt
  unfold Pipeline.Window.fill
  rw [dif_pos hm]
  unfold iblk1
  show V c main_v14 (((cfg1.win 1).blk t).view.emb _) = V c main_v14 (ix2 e jj)
  refine congrArg (V c main_v14) (funext fun a => Fin.ext ?_)
  match a with
  | ⟨0, _⟩ =>
    show win1_1.index t (0 : Fin 2) * 2048 + 1 * r.val = e.val
    rw [idx1_1_row t, he]; omega
  | ⟨1, _⟩ =>
    show win1_1.index t (1 : Fin 2) * 128 + 1 * jj.val = jj.val
    rw [idx1_1_col t]; omega

/-- On a row the transfers move, window 2's filled block holds the array's row 2048·t + r. -/
theorem fillrow1_2 (c : Dev nD) (t : Fin cfg1.N) (r : Fin 2048) (jj : Fin 128)
    (hr : r.val < if t.val = 390 then 1280 else 2048) (e : Fin 800000) (he : e.val = t.val * 2048 + r.val) :
    win1_2.fill (grid1.coords t) zB (iblk1 V c 2 t) (ix2 r jj) = V c main_v21 (ix2 e jj) := by
  have hm : win1_2.moved (grid1.coords t) (ix2 r jj) = true := (win1_2.moved_iff _ _).mpr fun a => by
    match a with
    | ⟨0, _⟩ => show r.val < win1_2.xsize (grid1.coords t) (0 : Fin 2); rw [xsize1_2_row t]; exact hr
    | ⟨1, _⟩ => show jj.val < win1_2.xsize (grid1.coords t) (1 : Fin 2); rw [xsize1_2_col t]; exact jj.isLt
  unfold Pipeline.Window.fill
  rw [dif_pos hm]
  unfold iblk1
  show V c main_v21 (((cfg1.win 2).blk t).view.emb _) = V c main_v21 (ix2 e jj)
  refine congrArg (V c main_v21) (funext fun a => Fin.ext ?_)
  match a with
  | ⟨0, _⟩ =>
    show win1_2.index t (0 : Fin 2) * 2048 + 1 * r.val = e.val
    rw [idx1_2_row t, he]; omega
  | ⟨1, _⟩ =>
    show win1_2.index t (1 : Fin 2) * 128 + 1 * jj.val = jj.val
    rw [idx1_2_col t]; omega

/-- On a row the transfers move, window 3's filled block holds the array's row 2048·t + r. -/
theorem fillrow1_3 (c : Dev nD) (t : Fin cfg1.N) (r : Fin 2048) (jj : Fin 128)
    (hr : r.val < if t.val = 390 then 1280 else 2048) (e : Fin 800000) (he : e.val = t.val * 2048 + r.val) :
    win1_3.fill (grid1.coords t) zB (iblk1 V c 3 t) (ix2 r jj) = V c main_arg3 (ix2 e jj) := by
  have hm : win1_3.moved (grid1.coords t) (ix2 r jj) = true := (win1_3.moved_iff _ _).mpr fun a => by
    match a with
    | ⟨0, _⟩ => show r.val < win1_3.xsize (grid1.coords t) (0 : Fin 2); rw [xsize1_3_row t]; exact hr
    | ⟨1, _⟩ => show jj.val < win1_3.xsize (grid1.coords t) (1 : Fin 2); rw [xsize1_3_col t]; exact jj.isLt
  unfold Pipeline.Window.fill
  rw [dif_pos hm]
  unfold iblk1
  show V c main_arg3 (((cfg1.win 3).blk t).view.emb _) = V c main_arg3 (ix2 e jj)
  refine congrArg (V c main_arg3) (funext fun a => Fin.ext ?_)
  match a with
  | ⟨0, _⟩ =>
    show win1_3.index t (0 : Fin 2) * 2048 + 1 * r.val = e.val
    rw [idx1_3_row t, he]; omega
  | ⟨1, _⟩ =>
    show win1_3.index t (1 : Fin 2) * 128 + 1 * jj.val = jj.val
    rw [idx1_3_col t]; omega

/-- The weight window's block is the whole weight. -/
theorem weight1_4 (c : Dev nD) (t : Fin cfg1.N) (l jj : Fin 128) :
    iblk1 V c 4 t (ix2 l jj) = V c main_arg7 (ix2 l jj) := by
  unfold iblk1
  show V c main_arg7 (((cfg1.win 4).blk t).view.emb _) = V c main_arg7 (ix2 l jj)
  refine congrArg (V c main_arg7) (funext fun a => Fin.ext ?_)
  match a with
  | ⟨0, _⟩ =>
    show win1_4.index t (0 : Fin 2) * 128 + 1 * l.val = l.val
    rw [idx1_4_row t]; omega
  | ⟨1, _⟩ =>
    show win1_4.index t (1 : Fin 2) * 128 + 1 * jj.val = jj.val
    rw [idx1_4_col t]; omega

end Cert.KernelIdeal.Hand

end
-- ==== Proof.KI.EdgePayloadC.lean ====
/-
  The softmax weights of every edge row of the block, read at an index.

  From the 8 × 8 scores x the body forms, over the last axis: the maximum (a maximum reduction started from the word of
  -∞, which is the least upper bound of the eight entries), the entries minus it, their exponentials, the sum of the
  eight exponentials, and the quotient. A per-row quantity ([2048, 8]) is used against the [2048, 8, n] block by giving it
  a unit last axis and spreading it: entry (r, a, g) of the spread block is entry (r, a) of the quantity.
-/
import proofs.«151337_j57836029608550_2_alg».proof.Proof.KI.EdgePayloadDef
import proofs.«151337_j57836029608550_2_alg».proof.Proof.EdgeSpec
import Idealize.ShloMosaic.Lib.ValueLayout
import Idealize.ShloMosaic.PureOps.Ideal.Laws

noncomputable section

namespace Cert.KernelIdeal.Edge

open Idealize.ShloMosaic Idealize.ShloMosaic.ValueIdx Cert.KernelIdeal Cert.KernelIdeal.Gen Cert.EdgeSpec

/-- A [2048, 8] block given a unit last axis and spread over n columns, read at (r, a, g): the block at (r, a). -/
theorem colSpread_apply {α : Type} {n : Nat} (y : S2048x8.Idx → α) (hc : S2048x8.ShapeCasts S2048x8x1)
    (hb : S2048x8x1.Broadcasts ⟨3, ![2048, 8, n]⟩) (r : Fin 2048) (a : Fin 8) (g : Fin n) :
    broadcastTo ⟨3, ![2048, 8, n]⟩ (shapeCast S2048x8x1 y hc) hb (ix3 r a g) = y (ix2 r a) := by
  refine (broadcastTo_apply _ hb (ix3 r a g) (ix3 r a (0 : Fin 1)) (fun c => ?_)).trans ?_
  · match c with
    | ⟨0, _⟩ => rfl
    | ⟨1, _⟩ => rfl
    | ⟨2, _⟩ => rfl
  refine shapeCast_apply y hc _ _ ?_
  rw [Shape.rowMajor_val_two, Shape.rowMajor_val_three]
  show r.val * 8 + a.val = (r.val * 8 + a.val) * 1 + 0
  omega

/-- The f32 word of -∞ is the least extended real. -/
theorem ofBits_negInf_f32 : Ideal.ofBits .f32 0xFF800000#32 = (⊥ : EReal) := by
  simp [Ideal.ofBits, Ideal.ieee]

/-- The maximum over the last axis of a [2048, 8, 8] block, started from -∞, read at (r, a): the least upper bound of
    the eight entries (r, a, ·). -/
theorem rowMax_apply (hr : S2048x8x8.Reduces [2] S2048x8) (hφ : FKind.Formats .f32)
    (hacc : (0xFF800000#32 : BitVec 32) = FKind.maximumf.neutral .f32 hφ)
    (x : FVec Ideal S2048x8x8 .f32) (r : Fin 2048) (a : Fin 8) :
    multiReduction (F := Ideal) .maximumf [2] S2048x8 x 0xFF800000#32 hr hφ hacc (ix2 r a)
      = Finset.univ.sup fun g : Fin 8 => x (ix3 r a g) := by
  refine (Ideal.multiReduction_maximumf_single x _ hr hφ hacc (ix2 r a)).trans ?_
  have e : ∀ g : Fin 8, hr.lift (ix2 r a) g = ix3 r a g := fun g =>
    funext fun c => match c with | ⟨0, _⟩ => Fin.ext rfl | ⟨1, _⟩ => Fin.ext rfl | ⟨2, _⟩ => Fin.ext rfl
  refine (Finset.fold_congr (g := fun g : Fin 8 => x (ix3 r a g)) fun g _ => congrArg x (e g)).trans ?_
  refine (congrArg (fun b : EReal => Finset.fold max b (fun g : Fin 8 => x (ix3 r a g)) Finset.univ) ofBits_negInf_f32).trans ?_
  rfl

/-- The sum over the last axis of a [2048, 8, 8] block, read at (r, a). -/
theorem rowSum_apply (hr : S2048x8x8.Reduces [2] S2048x8) (hφ : FKind.Formats .f32)
    (hacc : (0x00000000#32 : BitVec 32) = FKind.add.neutral .f32 hφ)
    (x : FVec Ideal S2048x8x8 .f32) (r : Fin 2048) (a : Fin 8) :
    multiReduction (F := Ideal) .add [2] S2048x8 x 0x00000000#32 hr hφ hacc (ix2 r a) = ∑ g : Fin 8, x (ix3 r a g) := by
  refine (Ideal.multiReduction_add_single x _ hr hφ hacc (ix2 r a)).trans ?_
  refine Finset.sum_congr rfl fun (g : Fin 8) _ => ?_
  exact congrArg x (funext fun c => match c with | ⟨0, _⟩ => Fin.ext rfl | ⟨1, _⟩ => Fin.ext rfl | ⟨2, _⟩ => Fin.ext rfl)

/-- The softmax over the last axis of a [2048, 8, 8] block, as the body computes it, read at (r, a, g). -/
theorem softmax_apply (hr : S2048x8x8.Reduces [2] S2048x8) (hφM : FKind.Formats .f32)
    (haccM : (0xFF800000#32 : BitVec 32) = FKind.maximumf.neutral .f32 hφM)
    (hφA : FKind.Formats .f32) (haccA : (0x00000000#32 : BitVec 32) = FKind.add.neutral .f32 hφA)
    (hc : S2048x8.ShapeCasts S2048x8x1) (hb : S2048x8x1.Broadcasts S2048x8x8)
    (x : FVec Ideal S2048x8x8 .f32) (r : Fin 2048) (a g : Fin 8) :
    divf
      (exp (subf x (broadcastTo S2048x8x8 (shapeCast S2048x8x1
        (multiReduction (F := Ideal) .maximumf [2] S2048x8 x 0xFF800000#32 hr hφM haccM) hc) hb)))
      (broadcastTo S2048x8x8 (shapeCast S2048x8x1
        (multiReduction (F := Ideal) .add [2] S2048x8
          (exp (subf x (broadcastTo S2048x8x8 (shapeCast S2048x8x1
            (multiReduction (F := Ideal) .maximumf [2] S2048x8 x 0xFF800000#32 hr hφM haccM) hc) hb)))
          0x00000000#32 hr hφA haccA) hc) hb) (ix3 r a g)
      = Ideal.div (Ideal.exp (x (ix3 r a g) - Finset.univ.sup fun g' : Fin 8 => x (ix3 r a g')))
          (∑ g' : Fin 8, Ideal.exp (x (ix3 r a g') - Finset.univ.sup fun g'' : Fin 8 => x (ix3 r a g''))) := by
  have hex : ∀ g' : Fin 8,
      exp (subf x (broadcastTo S2048x8x8 (shapeCast S2048x8x1
        (multiReduction (F := Ideal) .maximumf [2] S2048x8 x 0xFF800000#32 hr hφM haccM) hc) hb)) (ix3 r a g')
        = Ideal.exp (x (ix3 r a g') - Finset.univ.sup fun g'' : Fin 8 => x (ix3 r a g'')) := fun g' => by
    show Ideal.exp (x (ix3 r a g') - broadcastTo S2048x8x8 _ hb (ix3 r a g')) = _
    rw [colSpread_apply (n := 8) _ hc hb r a g', rowMax_apply hr hφM haccM x r a]
  refine (divf_apply _ _ _).trans ?_
  rw [hex g, colSpread_apply (n := 8) _ hc hb r a g, rowSum_apply hr hφA haccA _ r a]
  exact congrArg _ (Finset.sum_congr rfl fun g' _ => hex g')

end Cert.KernelIdeal.Edge

end
-- ==== Proof.KI.EdgePayloadA.lean ====
/-
  The edge body's three reshaped operands read at an index.

  A row of 128 numbers is read as eight heads of sixteen: entry (r, h, d) of the reshaped block is entry
  (r, h·16 + d) of the block (both sit at row-major position r·128 + h·16 + d). The key block is first formed as the
  gathered key rows plus the edge features times the weight: entry (r, j) is X1(r, j) + Σ_k X3(r, k)·W(k, j), the
  matrix product into a zero accumulator being just the sum over the contraction index (the roundings to bf16 in front of
  the product are the identity on extended reals).
-/
import proofs.«151337_j57836029608550_2_alg».proof.Proof.KI.EdgePayloadDef
import proofs.«151337_j57836029608550_2_alg».proof.Proof.EdgeSpec
import Idealize.ShloMosaic.Lib.ValueLayout
import Idealize.ShloMosaic.PureOps.Ideal.Laws

noncomputable section

namespace Cert.KernelIdeal.Edge

open Idealize.ShloMosaic Idealize.ShloMosaic.ValueIdx Cert.KernelIdeal Cert.KernelIdeal.Gen Cert.EdgeSpec

/-- A [2048, 128] block reshaped to [2048, 8, 16], read at (r, h, d): the block at (r, h·16 + d). -/
theorem heads_apply {α : Type} (x : S2048x128.Idx → α) (hc : S2048x128.ShapeCasts S2048x8x16)
    (r : Fin 2048) (a : Fin 8) (d : Fin 16) :
    shapeCast S2048x8x16 x hc (ix3 r a d) = x (ix2 r (hd a d)) :=
  shapeCast_apply x hc _ _ (by
    rw [Shape.rowMajor_val_two, Shape.rowMajor_val_three]
    show r.val * 128 + (a.val * 16 + d.val) = (r.val * 8 + a.val) * 16 + d.val
    omega)

/-- The query block by heads. -/
theorem pay2_apply (X0 : FVec Ideal S2048x128 .f32) (r : Fin 2048) (a : Fin 8) (d : Fin 16) :
    k1_pay2 (F := Ideal) X0 (ix3 r a d) = X0 (ix2 r (hd a d)) := by
  unfold k1_pay2
  refine (heads_apply _ _ r a d).trans ?_
  rw [shapeCast_self]

/-- The value block by heads. -/
theorem pay4_apply (X2 : FVec Ideal S2048x128 .f32) (r : Fin 2048) (a : Fin 8) (d : Fin 16) :
    k1_pay4 (F := Ideal) X2 (ix3 r a d) = X2 (ix2 r (hd a d)) := by
  unfold k1_pay4
  refine (heads_apply _ _ r a d).trans ?_
  rw [shapeCast_self]

/-- The edge's key row: the gathered key row plus the edge features times the weight. -/
def keyRow (X1 X3 : FVec Ideal S2048x128 .f32) (W : FVec Ideal S128x128 .f32) (r : Fin 2048) (j : Fin 128) : EReal :=
  X1 (ix2 r j) + ∑ k : Fin 128, X3 (ix2 r k) * W (ix2 k j)

/-- The product of a [2048, 128] block with a [128, 128] one, into a zero accumulator, read at (r, j): the sum over the
    contraction index k of left (r, k) times right (k, j). -/
theorem featW_apply (A : FVec Ideal S2048x128 .bf16) (B : FVec Ideal S128x128 .bf16) (r : Fin 2048) (j : Fin 128) :
    matmul (F := Ideal) dot_S2048x128_S128x128_S2048x128_1_0_0_1_n_n none A B
        (constant (F := Ideal) S2048x128 .f32 0x00000000#32) (ix2 r j)
      = ∑ k : Fin 128, A (ix2 r k) * B (ix2 k j) := by
  refine (Ideal.matmul_constant_zero_apply dot_S2048x128_S128x128_S2048x128_1_0_0_1_n_n none A B (ix2 r j)).trans ?_
  refine (Equiv.sum_comp (contrEquiv1 dot_S2048x128_S128x128_S2048x128_1_0_0_1_n_n 128 rfl rfl).symm _).symm.trans ?_
  refine Finset.sum_congr rfl fun k _ => ?_
  have e1 : dot_S2048x128_S128x128_S2048x128_1_0_0_1_n_n.lhsIdx (ix2 r j)
      ((contrEquiv1 dot_S2048x128_S128x128_S2048x128_1_0_0_1_n_n 128 rfl rfl).symm k) = ix2 r k :=
    funext fun a => match a with | ⟨0, _⟩ => Fin.ext rfl | ⟨1, _⟩ => Fin.ext rfl
  have e2 : dot_S2048x128_S128x128_S2048x128_1_0_0_1_n_n.rhsIdx (ix2 r j)
      ((contrEquiv1 dot_S2048x128_S128x128_S2048x128_1_0_0_1_n_n 128 rfl rfl).symm k) = ix2 k j :=
    funext fun a => match a with | ⟨0, _⟩ => Fin.ext rfl | ⟨1, _⟩ => Fin.ext rfl
  rw [e1, e2]

/-- The key block by heads: the edge's key row at (h·16 + d). -/
theorem pay3_apply (X1 X3 : FVec Ideal S2048x128 .f32) (W : FVec Ideal S128x128 .f32)
    (r : Fin 2048) (a : Fin 8) (d : Fin 16) :
    k1_pay3 (F := Ideal) X1 X3 W (ix3 r a d) = keyRow X1 X3 W r (hd a d) := by
  unfold k1_pay3
  refine (heads_apply _ _ r a d).trans ?_
  show shapeCast S2048x128 X1 _ (ix2 r (hd a d)) + _ = _
  rw [shapeCast_self]
  exact congrArg (X1 (ix2 r (hd a d)) + ·) (featW_apply _ _ r (hd a d))

end Cert.KernelIdeal.Edge

end
-- ==== Proof.KI.EdgePayloadB.lean ====
/-
  The 8 × 8 scores of every edge row of the block, read at an index.

  For a head h the body takes head h of the query block (a slice along the head axis, the unit axis dropped and put
  back), spreads it over the eight key heads, multiplies by the key block, sums over the sixteen coordinates and scales
  by 1/4: entry (r, g) of that [2048, 8] piece is (Σ_d q(r, h, d)·k(r, g, d))·1/4. The eight pieces, each given a unit
  head axis, are laid side by side along that axis: entry (r, h, g) of the stack is entry (r, g) of piece h.
-/
import proofs.«151337_j57836029608550_2_alg».proof.Proof.KI.EdgePayloadA

noncomputable section

namespace Cert.KernelIdeal.Edge

open Idealize.ShloMosaic Idealize.ShloMosaic.ValueIdx Cert.KernelIdeal Cert.KernelIdeal.Gen Cert.EdgeSpec

/-- Head `a` of a [2048, 8, 16] block, sliced out with its unit axis dropped and put back, read at (r, 0, d). -/
theorem headSlice_apply {α : Type} (o : Nat) (hs : S2048x8x16.Slices ![0, o, 0] S2048x1x16)
    (hc1 : S2048x1x16.ShapeCasts S2048x16) (hc2 : S2048x16.ShapeCasts S2048x1x16)
    (q : S2048x8x16.Idx → α) (a : Fin 8) (ha : a.val = o) (r : Fin 2048) (d : Fin 16) :
    shapeCast S2048x1x16 (shapeCast S2048x16 (extractStridedSlice S2048x1x16 ![0, o, 0] q hs) hc1) hc2 (ix3 r (0 : Fin 1) d)
      = q (ix3 r a d) := by
  refine (shapeCast_apply _ hc2 (ix3 r (0 : Fin 1) d) (ix2 r d) ?_).trans ?_
  · rw [Shape.rowMajor_val_two, Shape.rowMajor_val_three]
    show r.val * 16 + d.val = (r.val * 1 + 0) * 16 + d.val
    omega
  refine (shapeCast_apply _ hc1 (ix2 r d) (ix3 r (0 : Fin 1) d) ?_).trans ?_
  · rw [Shape.rowMajor_val_two, Shape.rowMajor_val_three]
    show (r.val * 1 + 0) * 16 + d.val = r.val * 16 + d.val
    omega
  exact slice3_axis1_apply o q hs r (0 : Fin 1) d a (by simpa using ha)

/-- One query head (a [2048, 1, 16] piece) spread over the eight key heads, multiplied by the key block, summed over the
    sixteen coordinates and scaled by 1/4, read at (r, g). -/
theorem rowScore_apply (hb : S2048x1x16.Broadcasts S2048x8x16)
    (hr : S2048x8x16.Reduces [2] S2048x8) (hφ : FKind.Formats .f32) (hacc : (0x00000000#32 : BitVec 32) = FKind.add.neutral .f32 hφ)
    (q1 : FVec Ideal S2048x1x16 .f32) (k : FVec Ideal S2048x8x16 .f32) (r : Fin 2048) (g : Fin 8) :
    mulf (multiReduction (F := Ideal) .add [2] S2048x8 (mulf (broadcastTo S2048x8x16 q1 hb) k) 0x00000000#32 hr hφ hacc)
      (broadcast S2048x8 (Scalar.ofBits (F := Ideal) .f32 0x3E800000#32)) (ix2 r g)
      = (∑ d : Fin 16, q1 (ix3 r (0 : Fin 1) d) * k (ix3 r g d)) * quarter := by
  show (multiReduction (F := Ideal) .add [2] S2048x8 _ 0x00000000#32 hr hφ hacc (ix2 r g)) * quarter = _
  refine congrArg (· * quarter) ?_
  refine (Ideal.multiReduction_add_single _ _ hr hφ hacc (ix2 r g)).trans ?_
  refine Finset.sum_congr rfl fun (d : Fin 16) _ => ?_
  have e : hr.lift (ix2 r g) d = ix3 r g d :=
    funext fun c => match c with | ⟨0, _⟩ => Fin.ext rfl | ⟨1, _⟩ => Fin.ext rfl | ⟨2, _⟩ => Fin.ext rfl
  rw [e]
  show (broadcastTo S2048x8x16 q1 hb (ix3 r g d)) * k (ix3 r g d) = _
  refine congrArg (· * k (ix3 r g d)) ?_
  refine broadcastTo_apply _ hb (ix3 r g d) (ix3 r (0 : Fin 1) d) (fun c => ?_)
  match c with
  | ⟨0, _⟩ => rfl
  | ⟨1, _⟩ => rfl
  | ⟨2, _⟩ => rfl

/-- Head `a` of the query block against every key head, read at (r, g). -/
theorem headScore_apply (o : Nat) (hs : S2048x8x16.Slices ![0, o, 0] S2048x1x16)
    (hc1 : S2048x1x16.ShapeCasts S2048x16) (hc2 : S2048x16.ShapeCasts S2048x1x16) (hb : S2048x1x16.Broadcasts S2048x8x16)
    (hr : S2048x8x16.Reduces [2] S2048x8) (hφ : FKind.Formats .f32) (hacc : (0x00000000#32 : BitVec 32) = FKind.add.neutral .f32 hφ)
    (q k : FVec Ideal S2048x8x16 .f32) (a : Fin 8) (ha : a.val = o) (r : Fin 2048) (g : Fin 8) :
    mulf (multiReduction (F := Ideal) .add [2] S2048x8
        (mulf (broadcastTo S2048x8x16 (shapeCast S2048x1x16 (shapeCast S2048x16
          (extractStridedSlice S2048x1x16 ![0, o, 0] q hs) hc1) hc2) hb) k) 0x00000000#32 hr hφ hacc)
      (broadcast S2048x8 (Scalar.ofBits (F := Ideal) .f32 0x3E800000#32)) (ix2 r g)
      = (∑ d : Fin 16, q (ix3 r a d) * k (ix3 r g d)) * quarter := by
  refine (rowScore_apply hb hr hφ hacc _ k r g).trans ?_
  refine congrArg (· * quarter) (Finset.sum_congr rfl fun d _ => ?_)
  rw [headSlice_apply o hs hc1 hc2 q a ha r d]

/-- Piece `k` of a list of pieces laid side by side along the middle axis of a [2048, 8, n] block, when that piece is a
    [2048, n] block given a unit middle axis and the `k` pieces before it have extent one each: entry (r, k, g) of the
    whole is entry (r, g) of the block. -/
theorem stackPiece {α : Type} {n : Nat} (xs : List ((s : Shape) × (s.Idx → α)))
    (hcat : Shape.Concatenates (xs.map (·.1)) ⟨3, ![2048, 8, n]⟩ 1)
    (k : Nat) (hk : k < xs.length) (hk8 : k < 8) (y : (⟨2, ![2048, n]⟩ : Shape).Idx → α)
    (hc : (⟨2, ![2048, n]⟩ : Shape).ShapeCasts ⟨3, ![2048, 1, n]⟩)
    (hxk : xs[k] = ⟨⟨3, ![2048, 1, n]⟩, shapeCast ⟨3, ![2048, 1, n]⟩ y hc⟩)
    (hpre : (((xs.take k).map (·.1)).map fun s : Shape =>
      if h : s.rank = 3 then s.size ((1 : Fin 3).cast h.symm) else 0).sum = k)
    (r : Fin 2048) (g : Fin n) :
    concatenate ⟨3, ![2048, 8, n]⟩ 1 xs hcat (ix3 r (⟨k, hk8⟩ : Fin 8) g) = y (ix2 r g) := by
  refine Eq.trans (concatenate_apply_piece (1 : Fin 3) xs hcat (ix3 r (⟨k, hk8⟩ : Fin 8) g) k hk ⟨3, ![2048, 1, n]⟩
    (shapeCast ⟨3, ![2048, 1, n]⟩ y hc) hxk rfl k hpre (ix3 r (0 : Fin 1) g) (fun b hb => ?_) rfl) ?_
  · match b, hb with
    | ⟨0, _⟩, _ => rfl
    | ⟨1, _⟩, hb => exact absurd rfl hb
    | ⟨2, _⟩, _ => rfl
  · refine shapeCast_apply y hc _ _ ?_
    rw [Shape.rowMajor_val_two, Shape.rowMajor_val_three]
    show r.val * n + g.val = (r.val * 1 + 0) * n + g.val
    rw [Nat.mul_one, Nat.add_zero]

/-- Eight [2048, n] pieces, each given a unit middle axis, laid side by side along it: entry (r, a, g) of the stack is
    entry (r, g) of piece `a`. -/
theorem stack8_apply {α : Type} {n : Nat}
    (y0 y1 y2 y3 y4 y5 y6 y7 : (⟨2, ![2048, n]⟩ : Shape).Idx → α)
    (hc : (⟨2, ![2048, n]⟩ : Shape).ShapeCasts ⟨3, ![2048, 1, n]⟩)
    (hcat : Shape.Concatenates
      (([⟨⟨3, ![2048, 1, n]⟩, shapeCast ⟨3, ![2048, 1, n]⟩ y0 hc⟩, ⟨⟨3, ![2048, 1, n]⟩, shapeCast ⟨3, ![2048, 1, n]⟩ y1 hc⟩,
        ⟨⟨3, ![2048, 1, n]⟩, shapeCast ⟨3, ![2048, 1, n]⟩ y2 hc⟩, ⟨⟨3, ![2048, 1, n]⟩, shapeCast ⟨3, ![2048, 1, n]⟩ y3 hc⟩,
        ⟨⟨3, ![2048, 1, n]⟩, shapeCast ⟨3, ![2048, 1, n]⟩ y4 hc⟩, ⟨⟨3, ![2048, 1, n]⟩, shapeCast ⟨3, ![2048, 1, n]⟩ y5 hc⟩,
        ⟨⟨3, ![2048, 1, n]⟩, shapeCast ⟨3, ![2048, 1, n]⟩ y6 hc⟩, ⟨⟨3, ![2048, 1, n]⟩, shapeCast ⟨3, ![2048, 1, n]⟩ y7 hc⟩] :
          List ((s : Shape) × (s.Idx → α))).map (·.1)) ⟨3, ![2048, 8, n]⟩ 1)
    (T : Fin 2048 → Fin 8 → Fin n → α)
    (h0 : ∀ r g, y0 (ix2 r g) = T r 0 g) (h1 : ∀ r g, y1 (ix2 r g) = T r 1 g) (h2 : ∀ r g, y2 (ix2 r g) = T r 2 g)
    (h3 : ∀ r g, y3 (ix2 r g) = T r 3 g) (h4 : ∀ r g, y4 (ix2 r g) = T r 4 g) (h5 : ∀ r g, y5 (ix2 r g) = T r 5 g)
    (h6 : ∀ r g, y6 (ix2 r g) = T r 6 g) (h7 : ∀ r g, y7 (ix2 r g) = T r 7 g)
    (r : Fin 2048) (a : Fin 8) (g : Fin n) :
    concatenate ⟨3, ![2048, 8, n]⟩ 1
      [⟨⟨3, ![2048, 1, n]⟩, shapeCast ⟨3, ![2048, 1, n]⟩ y0 hc⟩, ⟨⟨3, ![2048, 1, n]⟩, shapeCast ⟨3, ![2048, 1, n]⟩ y1 hc⟩,
        ⟨⟨3, ![2048, 1, n]⟩, shapeCast ⟨3, ![2048, 1, n]⟩ y2 hc⟩, ⟨⟨3, ![2048, 1, n]⟩, shapeCast ⟨3, ![2048, 1, n]⟩ y3 hc⟩,
        ⟨⟨3, ![2048, 1, n]⟩, shapeCast ⟨3, ![2048, 1, n]⟩ y4 hc⟩, ⟨⟨3, ![2048, 1, n]⟩, shapeCast ⟨3, ![2048, 1, n]⟩ y5 hc⟩,
        ⟨⟨3, ![2048, 1, n]⟩, shapeCast ⟨3, ![2048, 1, n]⟩ y6 hc⟩, ⟨⟨3, ![2048, 1, n]⟩, shapeCast ⟨3, ![2048, 1, n]⟩ y7 hc⟩]
      hcat (ix3 r a g) = T r a g := by
  obtain ⟨k, hk⟩ := a
  interval_cases k
  · exact Eq.trans (stackPiece _ hcat 0 (Nat.lt_of_lt_of_le (by decide : 0 < 8) (Nat.le_refl 8)) (by decide) y0 hc rfl rfl r g) (h0 r g)
  · exact Eq.trans (stackPiece _ hcat 1 (Nat.lt_of_lt_of_le (by decide : 1 < 8) (Nat.le_refl 8)) (by decide) y1 hc rfl rfl r g) (h1 r g)
  · exact Eq.trans (stackPiece _ hcat 2 (Nat.lt_of_lt_of_le (by decide : 2 < 8) (Nat.le_refl 8)) (by decide) y2 hc rfl rfl r g) (h2 r g)
  · exact Eq.trans (stackPiece _ hcat 3 (Nat.lt_of_lt_of_le (by decide : 3 < 8) (Nat.le_refl 8)) (by decide) y3 hc rfl rfl r g) (h3 r g)
  · exact Eq.trans (stackPiece _ hcat 4 (Nat.lt_of_lt_of_le (by decide : 4 < 8) (Nat.le_refl 8)) (by decide) y4 hc rfl rfl r g) (h4 r g)
  · exact Eq.trans (stackPiece _ hcat 5 (Nat.lt_of_lt_of_le (by decide : 5 < 8) (Nat.le_refl 8)) (by decide) y5 hc rfl rfl r g) (h5 r g)
  · exact Eq.trans (stackPiece _ hcat 6 (Nat.lt_of_lt_of_le (by decide : 6 < 8) (Nat.le_refl 8)) (by decide) y6 hc rfl rfl r g) (h6 r g)
  · exact Eq.trans (stackPiece _ hcat 7 (Nat.lt_of_lt_of_le (by decide : 7 < 8) (Nat.le_refl 8)) (by decide) y7 hc rfl rfl r g) (h7 r g)

end Cert.KernelIdeal.Edge

end
-- ==== Proof.KI.EdgePayloadS.lean ====
/-
  The 8 × 8 scores of every edge row of the block are the specification's scores of that row.

  Each of the body's eight [2048, 8] pieces is one query head against every key head; on the query block by heads and
  the key block by heads (entry (r, h, d) of either is entry (r, h·16 + d) of the row) the sum over the sixteen
  coordinates is the specification's dot product of head h of the query row with head g of the key row.
-/
import proofs.«151337_j57836029608550_2_alg».proof.Proof.KI.EdgePayloadB

noncomputable section

namespace Cert.KernelIdeal.Edge

open Idealize.ShloMosaic Idealize.ShloMosaic.ValueIdx Cert.KernelIdeal Cert.KernelIdeal.Gen Cert.EdgeSpec

/-- The dot product by heads is the specification's score. -/
theorem score_heads (X0 X1 X3 : FVec Ideal S2048x128 .f32) (W : FVec Ideal S128x128 .f32) (r : Fin 2048) (a g : Fin 8) :
    (∑ d : Fin 16, k1_pay2 (F := Ideal) X0 (ix3 r a d) * k1_pay3 (F := Ideal) X1 X3 W (ix3 r g d)) * quarter
      = score (fun j => X0 (ix2 r j)) (keyRow X1 X3 W r) a g := by
  unfold score
  exact congrArg (· * quarter) (Finset.sum_congr rfl fun d _ => by rw [pay2_apply, pay3_apply])

/-- Query head 0 against every key head. -/
theorem pay5_apply (X0 X1 X3 : FVec Ideal S2048x128 .f32) (W : FVec Ideal S128x128 .f32) (r : Fin 2048) (g : Fin 8) :
    k1_pay5 (F := Ideal) X0 X1 X3 W (ix2 r g) = score (fun j => X0 (ix2 r j)) (keyRow X1 X3 W r) 0 g := by
  unfold k1_pay5
  exact Eq.trans (headScore_apply 0 _ _ _ _ _ _ _ (k1_pay2 (F := Ideal) X0) (k1_pay3 (F := Ideal) X1 X3 W) 0 rfl r g) (score_heads X0 X1 X3 W r 0 g)

/-- Query head 1 against every key head. -/
theorem pay6_apply (X0 X1 X3 : FVec Ideal S2048x128 .f32) (W : FVec Ideal S128x128 .f32) (r : Fin 2048) (g : Fin 8) :
    k1_pay6 (F := Ideal) X0 X1 X3 W (ix2 r g) = score (fun j => X0 (ix2 r j)) (keyRow X1 X3 W r) 1 g := by
  unfold k1_pay6
  exact Eq.trans (headScore_apply 1 _ _ _ _ _ _ _ (k1_pay2 (F := Ideal) X0) (k1_pay3 (F := Ideal) X1 X3 W) 1 rfl r g) (score_heads X0 X1 X3 W r 1 g)

/-- Query head 2 against every key head. -/
theorem pay7_apply (X0 X1 X3 : FVec Ideal S2048x128 .f32) (W : FVec Ideal S128x128 .f32) (r : Fin 2048) (g : Fin 8) :
    k1_pay7 (F := Ideal) X0 X1 X3 W (ix2 r g) = score (fun j => X0 (ix2 r j)) (keyRow X1 X3 W r) 2 g := by
  unfold k1_pay7
  exact Eq.trans (headScore_apply 2 _ _ _ _ _ _ _ (k1_pay2 (F := Ideal) X0) (k1_pay3 (F := Ideal) X1 X3 W) 2 rfl r g) (score_heads X0 X1 X3 W r 2 g)

/-- Query head 3, sliced out. -/
theorem pay8_apply (X0 : FVec Ideal S2048x128 .f32) (r : Fin 2048) (d : Fin 16) :
    k1_pay8 (F := Ideal) X0 (ix3 r (0 : Fin 1) d) = k1_pay2 (F := Ideal) X0 (ix3 r 3 d) := by
  unfold k1_pay8
  exact headSlice_apply 3 _ _ _ (k1_pay2 (F := Ideal) X0) 3 rfl r d

/-- The stack of the eight pieces, over any query and key blocks by heads: entry (r, a, g) is head a of the query
    block against head g of the key block. -/
theorem pay9_apply (v12 v13 : FVec Ideal S2048x8x16 .f32) (v22 v30 v38 : FVec Ideal S2048x8 .f32)
    (v41 : FVec Ideal S2048x1x16 .f32) (T : Fin 2048 → Fin 8 → Fin 8 → EReal)
    (hT : ∀ r a g, (∑ d : Fin 16, v12 (ix3 r a d) * v13 (ix3 r g d)) * quarter = T r a g)
    (h22 : ∀ r g, v22 (ix2 r g) = T r 0 g) (h30 : ∀ r g, v30 (ix2 r g) = T r 1 g) (h38 : ∀ r g, v38 (ix2 r g) = T r 2 g)
    (h41 : ∀ r d, v41 (ix3 r (0 : Fin 1) d) = v12 (ix3 r 3 d))
    (r : Fin 2048) (a g : Fin 8) :
    k1_pay9 (F := Ideal) v12 v13 v22 v30 v38 v41 (ix3 r a g) = T r a g := by
  unfold k1_pay9
  refine stack8_apply (n := 8) v22 v30 v38 _ _ _ _ _ _ _ T h22 h30 h38 ?_ ?_ ?_ ?_ ?_ r a g
  · intro r g
    refine Eq.trans (rowScore_apply _ _ _ _ v41 v13 r g) ?_
    exact Eq.trans (congrArg (· * quarter) (Finset.sum_congr rfl fun d _ => by rw [h41])) (hT r 3 g)
  · intro r g
    exact Eq.trans (headScore_apply 4 _ _ _ _ _ _ _ v12 v13 4 rfl r g) (hT r 4 g)
  · intro r g
    exact Eq.trans (headScore_apply 5 _ _ _ _ _ _ _ v12 v13 5 rfl r g) (hT r 5 g)
  · intro r g
    exact Eq.trans (headScore_apply 6 _ _ _ _ _ _ _ v12 v13 6 rfl r g) (hT r 6 g)
  · intro r g
    exact Eq.trans (headScore_apply 7 _ _ _ _ _ _ _ v12 v13 7 rfl r g) (hT r 7 g)

/-- The body's scores are the specification's. -/
theorem scores_apply (X0 X1 X3 : FVec Ideal S2048x128 .f32) (W : FVec Ideal S128x128 .f32) (r : Fin 2048) (a g : Fin 8) :
    scores (F := Ideal) X0 X1 X3 W (ix3 r a g) = score (fun j => X0 (ix2 r j)) (keyRow X1 X3 W r) a g := by
  unfold scores
  exact pay9_apply (k1_pay2 (F := Ideal) X0) (k1_pay3 (F := Ideal) X1 X3 W) _ _ _ _
    (fun r a g => score (fun j => X0 (ix2 r j)) (keyRow X1 X3 W r) a g)
    (fun r a g => score_heads X0 X1 X3 W r a g)
    (pay5_apply X0 X1 X3 W) (pay6_apply X0 X1 X3 W) (pay7_apply X0 X1 X3 W) (pay8_apply X0) r a g

end Cert.KernelIdeal.Edge

end
-- ==== Proof.KI.EdgePayloadW.lean ====
/-
  The body's softmax weights are the specification's.

  The body applies leaky-relu to the scores by a comparison with zero and a choice between the score and the slope times
  the score; on extended reals that is the specification's leaky-relu. The softmax of the activations over the key
  heads, as the body computes it, is then the specification's weight term by term.
-/
import proofs.«151337_j57836029608550_2_alg».proof.Proof.KI.EdgePayloadC
import proofs.«151337_j57836029608550_2_alg».proof.Proof.KI.EdgePayloadS

noncomputable section

namespace Cert.KernelIdeal.Edge

open Idealize.ShloMosaic Idealize.ShloMosaic.ValueIdx Cert.KernelIdeal Cert.KernelIdeal.Gen Cert.EdgeSpec

/-- The choice between x and slope·x by the comparison 0 ≤ x is leaky-relu. -/
theorem lrelu_select (x : EReal) :
    Scalar.select (Ideal.cmp .oge x (Ideal.ofBits .f32 0x00000000#32)) x (Ideal.ofBits .f32 0x3C23D70A#32 * x) = lrelu x := by
  rw [Ideal.ofBits_zero_f32]
  unfold lrelu Cert.EdgeSpec.slope Ideal.cmp
  by_cases h : (0 : EReal) ≤ x
  · rw [if_pos h]; simp [h, select_one]
  · rw [if_neg h]; simp [h, select_zero]

/-- The weights over any scores, condition and slope: the softmax over the key heads of the chosen values. -/
theorem pay11_apply (v87 : FVec Ideal S2048x8x8 .f32) (v89 : IVec S2048x8x8 1) (s : Ideal .f32)
    (r : Fin 2048) (a g : Fin 8) :
    k1_pay11 (F := Ideal) v87 v89 s (ix3 r a g)
      = Ideal.div (Ideal.exp (select v89 v87 (mulf (broadcast S2048x8x8 s) v87) (ix3 r a g) - Finset.univ.sup fun g' : Fin 8 => select v89 v87 (mulf (broadcast S2048x8x8 s) v87) (ix3 r a g')))
          (∑ g' : Fin 8, Ideal.exp (select v89 v87 (mulf (broadcast S2048x8x8 s) v87) (ix3 r a g')
            - Finset.univ.sup fun g'' : Fin 8 => select v89 v87 (mulf (broadcast S2048x8x8 s) v87) (ix3 r a g''))) := by
  unfold k1_pay11
  exact softmax_apply _ _ _ _ _ _ _ (select v89 v87 (mulf (broadcast S2048x8x8 s) v87)) r a g

/-- The value the body's leaky-relu leaves at (r, a, g) is the specification's activation. -/
theorem act_apply (X0 X1 X3 : FVec Ideal S2048x128 .f32) (W : FVec Ideal S128x128 .f32) (r : Fin 2048) (a g : Fin 8) :
    select (nonneg (F := Ideal) X0 X1 X3 W) (scores (F := Ideal) X0 X1 X3 W)
        (mulf (broadcast S2048x8x8 (slopeWord (F := Ideal))) (scores (F := Ideal) X0 X1 X3 W)) (ix3 r a g)
      = act (fun j => X0 (ix2 r j)) (keyRow X1 X3 W r) a g := by
  show Scalar.select (Ideal.cmp .oge (scores (F := Ideal) X0 X1 X3 W (ix3 r a g)) (Ideal.ofBits .f32 0x00000000#32))
      (scores (F := Ideal) X0 X1 X3 W (ix3 r a g))
      (Ideal.ofBits .f32 0x3C23D70A#32 * scores (F := Ideal) X0 X1 X3 W (ix3 r a g)) = _
  rw [scores_apply]
  exact lrelu_select _

/-- The body's weights are the specification's. -/
theorem weights_apply (X0 X1 X3 : FVec Ideal S2048x128 .f32) (W : FVec Ideal S128x128 .f32) (r : Fin 2048) (a g : Fin 8) :
    k1_pay11 (F := Ideal) (scores (F := Ideal) X0 X1 X3 W) (nonneg (F := Ideal) X0 X1 X3 W) (slopeWord (F := Ideal)) (ix3 r a g)
      = wgt (fun j => X0 (ix2 r j)) (keyRow X1 X3 W r) a g := by
  refine (pay11_apply _ _ _ r a g).trans ?_
  unfold wgt den ex rowMax
  simp only [act_apply]

end Cert.KernelIdeal.Edge

end
-- ==== Proof.KI.EdgePayloadD.lean ====
/-
  The weighted sums of the value heads, read at an index.

  For a query head a the body takes row a of the 8 × 8 softmax weights (a slice along the query-head axis with the unit
  axis dropped), gives it a unit last axis, spreads it over the sixteen coordinates, multiplies by the value block and
  sums over the eight key heads: entry (r, d) of that [2048, 16] piece is Σ_g w(r, a, g)·v(r, g, d).
-/
import proofs.«151337_j57836029608550_2_alg».proof.Proof.KI.EdgePayloadC

noncomputable section

namespace Cert.KernelIdeal.Edge

open Idealize.ShloMosaic Idealize.ShloMosaic.ValueIdx Cert.KernelIdeal Cert.KernelIdeal.Gen Cert.EdgeSpec

/-- Row `a` of the weights, sliced out with its unit axis dropped, read at (r, g). -/
theorem wSlice_apply {α : Type} (o : Nat) (hs : S2048x8x8.Slices ![0, o, 0] S2048x1x8)
    (hc1 : S2048x1x8.ShapeCasts S2048x8) (w : S2048x8x8.Idx → α) (a : Fin 8) (ha : a.val = o) (r : Fin 2048) (g : Fin 8) :
    shapeCast S2048x8 (extractStridedSlice S2048x1x8 ![0, o, 0] w hs) hc1 (ix2 r g) = w (ix3 r a g) := by
  refine (shapeCast_apply _ hc1 (ix2 r g) (ix3 r (0 : Fin 1) g) ?_).trans ?_
  · rw [Shape.rowMajor_val_two, Shape.rowMajor_val_three]
    show (r.val * 1 + 0) * 8 + g.val = r.val * 8 + g.val
    omega
  exact slice3_axis1_apply o w hs r (0 : Fin 1) g a (by simpa using ha)

/-- Row `a` of the weights spread over the sixteen coordinates, read at (r, g, d): the weight (r, a, g). -/
theorem wSpread_apply {α : Type} (o : Nat) (hs : S2048x8x8.Slices ![0, o, 0] S2048x1x8)
    (hc1 : S2048x1x8.ShapeCasts S2048x8) (hc2 : S2048x8.ShapeCasts S2048x8x1) (hb : S2048x8x1.Broadcasts S2048x8x16)
    (w : S2048x8x8.Idx → α) (a : Fin 8) (ha : a.val = o) (r : Fin 2048) (g : Fin 8) (d : Fin 16) :
    broadcastTo S2048x8x16 (shapeCast S2048x8x1 (shapeCast S2048x8 (extractStridedSlice S2048x1x8 ![0, o, 0] w hs) hc1) hc2) hb
        (ix3 r g d) = w (ix3 r a g) :=
  (colSpread_apply (n := 16) _ hc2 hb r g d).trans (wSlice_apply o hs hc1 w a ha r g)

/-- The sum over the middle axis of a [2048, 8, 16] block, read at (r, d). -/
theorem colSum_apply (hr : S2048x8x16.Reduces [1] S2048x16) (hφ : FKind.Formats .f32)
    (hacc : (0x00000000#32 : BitVec 32) = FKind.add.neutral .f32 hφ)
    (x : FVec Ideal S2048x8x16 .f32) (r : Fin 2048) (d : Fin 16) :
    multiReduction (F := Ideal) .add [1] S2048x16 x 0x00000000#32 hr hφ hacc (ix2 r d) = ∑ g : Fin 8, x (ix3 r g d) := by
  refine (Ideal.multiReduction_add_single x _ hr hφ hacc (ix2 r d)).trans ?_
  refine Finset.sum_congr rfl fun (g : Fin 8) _ => ?_
  exact congrArg x (funext fun c => match c with | ⟨0, _⟩ => Fin.ext rfl | ⟨1, _⟩ => Fin.ext rfl | ⟨2, _⟩ => Fin.ext rfl)

/-- Head `a`'s output: its weights against the value block, summed over the key heads, read at (r, d). -/
theorem headOut_apply (o : Nat) (hs : S2048x8x8.Slices ![0, o, 0] S2048x1x8)
    (hc1 : S2048x1x8.ShapeCasts S2048x8) (hc2 : S2048x8.ShapeCasts S2048x8x1) (hb : S2048x8x1.Broadcasts S2048x8x16)
    (hr : S2048x8x16.Reduces [1] S2048x16) (hφ : FKind.Formats .f32)
    (hacc : (0x00000000#32 : BitVec 32) = FKind.add.neutral .f32 hφ)
    (w : FVec Ideal S2048x8x8 .f32) (v : FVec Ideal S2048x8x16 .f32) (a : Fin 8) (ha : a.val = o) (r : Fin 2048) (d : Fin 16) :
    multiReduction (F := Ideal) .add [1] S2048x16
      (mulf (broadcastTo S2048x8x16 (shapeCast S2048x8x1 (shapeCast S2048x8
        (extractStridedSlice S2048x1x8 ![0, o, 0] w hs) hc1) hc2) hb) v) 0x00000000#32 hr hφ hacc (ix2 r d)
      = ∑ g : Fin 8, w (ix3 r a g) * v (ix3 r g d) := by
  refine (colSum_apply hr hφ hacc _ r d).trans ?_
  refine Finset.sum_congr rfl fun g _ => ?_
  refine (mulf_apply _ _ _).trans ?_
  rw [wSpread_apply o hs hc1 hc2 hb w a ha r g d]

end Cert.KernelIdeal.Edge

end
-- ==== Proof.KI.EdgePayloadO.lean ====
/-
  The block the body stores, over any weights and value block by heads, read at an index.

  The eight [2048, 16] head outputs, each given a unit head axis, are laid side by side along it and the result is read
  as rows of 128: entry (r, c) of the stored block is entry (r, c mod 16) of the output of head c / 16 (both sit at
  row-major position r·128 + c). Head a's output at (r, d) is Σ_g w(r, a, g)·v(r, g, d).
-/
import proofs.«151337_j57836029608550_2_alg».proof.Proof.KI.EdgePayloadB
import proofs.«151337_j57836029608550_2_alg».proof.Proof.KI.EdgePayloadD

noncomputable section

namespace Cert.KernelIdeal.Edge

open Idealize.ShloMosaic Idealize.ShloMosaic.ValueIdx Cert.KernelIdeal Cert.KernelIdeal.Gen Cert.EdgeSpec

/-- Query head 0's output. -/
theorem pay12_apply (v14 : FVec Ideal S2048x8x16 .f32) (v87 : FVec Ideal S2048x8x8 .f32) (v89 : IVec S2048x8x8 1) (s : Ideal .f32)
    (r : Fin 2048) (d : Fin 16) :
    k1_pay12 (F := Ideal) v14 v87 v89 s (ix2 r d)
      = ∑ g : Fin 8, k1_pay11 (F := Ideal) v87 v89 s (ix3 r 0 g) * v14 (ix3 r g d) := by
  unfold k1_pay12
  exact headOut_apply 0 _ _ _ _ _ _ _ (k1_pay11 (F := Ideal) v87 v89 s) v14 0 rfl r d

/-- Query head 1's output. -/
theorem pay13_apply (v14 : FVec Ideal S2048x8x16 .f32) (v87 : FVec Ideal S2048x8x8 .f32) (v89 : IVec S2048x8x8 1) (s : Ideal .f32)
    (r : Fin 2048) (d : Fin 16) :
    k1_pay13 (F := Ideal) v14 v87 v89 s (ix2 r d)
      = ∑ g : Fin 8, k1_pay11 (F := Ideal) v87 v89 s (ix3 r 1 g) * v14 (ix3 r g d) := by
  unfold k1_pay13
  exact headOut_apply 1 _ _ _ _ _ _ _ (k1_pay11 (F := Ideal) v87 v89 s) v14 1 rfl r d

/-- Query head 2's output. -/
theorem pay14_apply (v14 : FVec Ideal S2048x8x16 .f32) (v87 : FVec Ideal S2048x8x8 .f32) (v89 : IVec S2048x8x8 1) (s : Ideal .f32)
    (r : Fin 2048) (d : Fin 16) :
    k1_pay14 (F := Ideal) v14 v87 v89 s (ix2 r d)
      = ∑ g : Fin 8, k1_pay11 (F := Ideal) v87 v89 s (ix3 r 2 g) * v14 (ix3 r g d) := by
  unfold k1_pay14
  exact headOut_apply 2 _ _ _ _ _ _ _ (k1_pay11 (F := Ideal) v87 v89 s) v14 2 rfl r d

/-- Query head 3's output. -/
theorem pay15_apply (v14 : FVec Ideal S2048x8x16 .f32) (v87 : FVec Ideal S2048x8x8 .f32) (v89 : IVec S2048x8x8 1) (s : Ideal .f32)
    (r : Fin 2048) (d : Fin 16) :
    k1_pay15 (F := Ideal) v14 v87 v89 s (ix2 r d)
      = ∑ g : Fin 8, k1_pay11 (F := Ideal) v87 v89 s (ix3 r 3 g) * v14 (ix3 r g d) := by
  unfold k1_pay15
  exact headOut_apply 3 _ _ _ _ _ _ _ (k1_pay11 (F := Ideal) v87 v89 s) v14 3 rfl r d

/-- Query head 4's output. -/
theorem pay16_apply (v14 : FVec Ideal S2048x8x16 .f32) (v87 : FVec Ideal S2048x8x8 .f32) (v89 : IVec S2048x8x8 1) (s : Ideal .f32)
    (r : Fin 2048) (d : Fin 16) :
    k1_pay16 (F := Ideal) v14 v87 v89 s (ix2 r d)
      = ∑ g : Fin 8, k1_pay11 (F := Ideal) v87 v89 s (ix3 r 4 g) * v14 (ix3 r g d) := by
  unfold k1_pay16
  exact headOut_apply 4 _ _ _ _ _ _ _ (k1_pay11 (F := Ideal) v87 v89 s) v14 4 rfl r d

/-- Query head 5's output. -/
theorem pay17_apply (v14 : FVec Ideal S2048x8x16 .f32) (v87 : FVec Ideal S2048x8x8 .f32) (v89 : IVec S2048x8x8 1) (s : Ideal .f32)
    (r : Fin 2048) (d : Fin 16) :
    k1_pay17 (F := Ideal) v14 v87 v89 s (ix2 r d)
      = ∑ g : Fin 8, k1_pay11 (F := Ideal) v87 v89 s (ix3 r 5 g) * v14 (ix3 r g d) := by
  unfold k1_pay17
  exact headOut_apply 5 _ _ _ _ _ _ _ (k1_pay11 (F := Ideal) v87 v89 s) v14 5 rfl r d

/-- Query head 6's weights spread over the sixteen coordinates. -/
theorem pay18_apply (v87 : FVec Ideal S2048x8x8 .f32) (v89 : IVec S2048x8x8 1) (s : Ideal .f32)
    (r : Fin 2048) (g : Fin 8) (d : Fin 16) :
    k1_pay18 (F := Ideal) v87 v89 s (ix3 r g d) = k1_pay11 (F := Ideal) v87 v89 s (ix3 r 6 g) := by
  unfold k1_pay18
  exact wSpread_apply 6 _ _ _ _ (k1_pay11 (F := Ideal) v87 v89 s) 6 rfl r g d

/-- The stored block, over any value block v14 and weights v101 and any pieces that are the outputs of heads 0 to 5 and
    the spread weights of head 6: entry (r, c) is the output of head c / 16 at coordinate c mod 16. -/
theorem pay1_apply (v14 : FVec Ideal S2048x8x16 .f32) (v101 : FVec Ideal S2048x8x8 .f32)
    (v107 v113 v119 v125 v131 v137 : FVec Ideal S2048x16 .f32) (v141 : FVec Ideal S2048x8x16 .f32)
    (O : Fin 2048 → Fin 8 → Fin 16 → EReal)
    (hO : ∀ r a d, (∑ g : Fin 8, v101 (ix3 r a g) * v14 (ix3 r g d)) = O r a d)
    (h107 : ∀ r d, v107 (ix2 r d) = O r 0 d) (h113 : ∀ r d, v113 (ix2 r d) = O r 1 d)
    (h119 : ∀ r d, v119 (ix2 r d) = O r 2 d) (h125 : ∀ r d, v125 (ix2 r d) = O r 3 d)
    (h131 : ∀ r d, v131 (ix2 r d) = O r 4 d) (h137 : ∀ r d, v137 (ix2 r d) = O r 5 d)
    (h141 : ∀ r g d, v141 (ix3 r g d) = v101 (ix3 r 6 g))
    (r : Fin 2048) (c : Fin 128) :
    k1_pay1 (F := Ideal) v14 v101 v107 v113 v119 v125 v131 v137 v141 (ix2 r c) = O r (headOf c) (coordOf c) := by
  unfold k1_pay1
  refine Eq.trans (shapeCast_apply _ _ (ix2 r c) (ix3 r (headOf c) (coordOf c)) ?_) ?_
  · rw [Shape.rowMajor_val_two, Shape.rowMajor_val_three]
    show (r.val * 8 + c.val / 16) * 16 + c.val % 16 = r.val * 128 + c.val
    omega
  refine stack8_apply (n := 16) v107 v113 v119 v125 v131 v137 _ _ _ _ O h107 h113 h119 h125 h131 h137 ?_ ?_
    r (headOf c) (coordOf c)
  · intro r d
    refine Eq.trans (colSum_apply _ _ _ _ r d) ?_
    exact Eq.trans (Finset.sum_congr rfl fun g _ => by rw [mulf_apply, h141]) (hO r 6 d)
  · intro r d
    exact Eq.trans (headOut_apply 7 _ _ _ _ _ _ _ v101 v14 7 rfl r d) (hO r 7 d)

end Cert.KernelIdeal.Edge

end
-- ==== Proof.KI.EdgePayload.lean ====
/-
  The block the edge body stores, read at an index, is the specification's attention row.

  With Q the gathered query row, K the gathered key row plus the edge features times the weight, and V the gathered
  value row of edge row r of the block, entry (r, c) of the stored block is the attention output of that edge at head
  c / 16, coordinate c mod 16: the body's weights are the specification's softmax weights, its value block by heads
  reads V at h·16 + d, and each head's output is the weights against the value heads.
-/
import proofs.«151337_j57836029608550_2_alg».proof.Proof.KI.EdgePayloadW
import proofs.«151337_j57836029608550_2_alg».proof.Proof.KI.EdgePayloadO

noncomputable section

namespace Cert.KernelIdeal.Edge

open Idealize.ShloMosaic Idealize.ShloMosaic.ValueIdx Cert.KernelIdeal Cert.KernelIdeal.Gen Cert.EdgeSpec

/-- Head a's output over the body's weights and value block is the specification's attention output. -/
theorem attn_heads (X0 X1 X2 X3 : FVec Ideal S2048x128 .f32) (W : FVec Ideal S128x128 .f32)
    (r : Fin 2048) (a : Fin 8) (d : Fin 16) :
    (∑ g : Fin 8, k1_pay11 (F := Ideal) (scores (F := Ideal) X0 X1 X3 W) (nonneg (F := Ideal) X0 X1 X3 W)
        (slopeWord (F := Ideal)) (ix3 r a g) * k1_pay4 (F := Ideal) X2 (ix3 r g d))
      = attn (fun j => X0 (ix2 r j)) (keyRow X1 X3 W r) (fun j => X2 (ix2 r j)) a d := by
  unfold attn
  exact Finset.sum_congr rfl fun g _ => by rw [weights_apply, pay4_apply]

/-- The stored block at (r, c), with the key row named. -/
theorem payload_apply_keyRow (X0 X1 X2 X3 : FVec Ideal S2048x128 .f32) (W : FVec Ideal S128x128 .f32)
    (r : Fin 2048) (c : Fin 128) :
    payload (F := Ideal) X0 X1 X2 X3 W (ix2 r c)
      = attnRow (fun j => X0 (ix2 r j)) (keyRow X1 X3 W r) (fun j => X2 (ix2 r j)) c := by
  have hO := attn_heads X0 X1 X2 X3 W
  unfold payload
  exact pay1_apply (k1_pay4 (F := Ideal) X2) _ _ _ _ _ _ _ _
    (fun r a d => attn (fun j => X0 (ix2 r j)) (keyRow X1 X3 W r) (fun j => X2 (ix2 r j)) a d) hO
    (fun r d => (pay12_apply _ _ _ _ r d).trans (hO r 0 d)) (fun r d => (pay13_apply _ _ _ _ r d).trans (hO r 1 d))
    (fun r d => (pay14_apply _ _ _ _ r d).trans (hO r 2 d)) (fun r d => (pay15_apply _ _ _ _ r d).trans (hO r 3 d))
    (fun r d => (pay16_apply _ _ _ _ r d).trans (hO r 4 d)) (fun r d => (pay17_apply _ _ _ _ r d).trans (hO r 5 d))
    (fun r g d => pay18_apply _ _ _ r g d) r c

open Idealize.ShloMosaic Idealize.ShloMosaic.ValueIdx Cert.KernelIdeal in
/-- The stored block at (r, c): the attention row of the edge whose query row is X0(r, ·), key row
    X1(r, ·) + X3(r, ·)·W and value row X2(r, ·). -/
theorem payload_apply (X0 X1 X2 X3 : FVec Ideal S2048x128 .f32) (W : FVec Ideal S128x128 .f32) (r : Fin 2048) (c : Fin 128) :
    payload (F := Ideal) X0 X1 X2 X3 W (ix2 r c)
      = Cert.EdgeSpec.attnRow (fun j => X0 (ix2 r j))
          (fun j => X1 (ix2 r j) + ∑ k : Fin 128, X3 (ix2 r k) * W (ix2 k j))
          (fun j => X2 (ix2 r j)) c :=
  payload_apply_keyRow X0 X1 X2 X3 W r c

end Cert.KernelIdeal.Edge

end
-- ==== Proof.KI.Final1RowLocal.lean ====
/-
  Over the extended reals the edge body works row by row.

  Entry (r, c) of the stored block is the attention row of the edge whose query, key-plus-features and value rows are
  rows r of the loaded blocks: it mentions the loaded row blocks at row r only. Two families of loaded blocks that agree
  on row r therefore give the same entry.
-/
import proofs.«151337_j57836029608550_2_alg».proof.Proof.KI.Region1
import proofs.«151337_j57836029608550_2_alg».proof.Proof.KI.EdgePayload

noncomputable section

namespace Cert.KernelIdeal.Hand

open Cert.KernelIdeal Cert.KernelIdeal.Gen
open Idealize.ShloMosaic Idealize.ShloMosaic.ValueIdx

/-- Row `r` of the stored block depends on row `r` of each loaded row block only. -/
theorem rowLocal_ideal : RowLocal Ideal := by
  intro X0 X0' X1 X1' X2 X2' X3 X3' W y h
  obtain ⟨r, c, rfl⟩ : ∃ (r : Fin 2048) (c : Fin 128), y = ix2 r c := ⟨y 0, y 1, eq_ix2 y⟩
  have h0 : ∀ j : Fin 128, X0 (ix2 r j) = X0' (ix2 r j) := fun j => (h (ix2 r j) rfl).1
  have h1 : ∀ j : Fin 128, X1 (ix2 r j) = X1' (ix2 r j) := fun j => (h (ix2 r j) rfl).2.1
  have h2 : ∀ j : Fin 128, X2 (ix2 r j) = X2' (ix2 r j) := fun j => (h (ix2 r j) rfl).2.2.1
  have h3 : ∀ j : Fin 128, X3 (ix2 r j) = X3' (ix2 r j) := fun j => (h (ix2 r j) rfl).2.2.2
  refine (Edge.payload_apply X0 X1 X2 X3 W r c).trans ?_
  refine Eq.trans ?_ (Edge.payload_apply X0' X1' X2' X3' W r c).symm
  simp only [h0, h1, h2, h3]

end Cert.KernelIdeal.Hand

end
-- ==== Proof.KI.Final1.lean ====
/-
  The result array of the edge region, at the extended reals.

  Row e of the result is the attention row of edge e: query row e of the gathered queries, key row e of the gathered keys
  plus row e of the edge features times the weight, value row e of the gathered values. Point t of the grid writes back
  rows 2048·t … of it (2048 rows, or the 1280 rows inside the array at the last point): on those rows the filled staging
  buffers hold the arrays' rows, and the body's stored block at row r is the attention row of the rows r it loaded.
  Every row e lies in the block of point e / 2048, so after the last point the array holds that function everywhere.
-/
import proofs.«151337_j57836029608550_2_alg».proof.Proof.KI.Final1a
import proofs.«151337_j57836029608550_2_alg».proof.Proof.KI.Final1RowLocal
import proofs.«151337_j57836029608550_2_alg».proof.Proof.KI.EdgePayload
import proofs.«151337_j57836029608550_2_alg».proof.Proof.Gen.KernelIdeal.Points

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

/-- The attention row of edge `e` at column `k`, from the five arrays the region reads: query rows, key rows, value rows,
    edge features, and the weight. -/
def edgeRow (Qd Ks Vs Ef : S800000x128.Idx → EReal) (Wk : S128x128.Idx → EReal) (e : Fin 800000) (k : Fin 128) : EReal :=
  Cert.EdgeSpec.attnRow (fun j => Qd (ix2 e j)) (fun j => Ks (ix2 e j) + ∑ l : Fin 128, Ef (ix2 e l) * Wk (ix2 l j))
    (fun j => Vs (ix2 e j)) k

/-- The attention rows of all edges, as one function of the arrays the region finds. -/
def edgeOut (c : Dev nD) : S800000x128.Idx → EReal := fun i =>
  edgeRow (V c main_v7) (V c main_v14) (V c main_v21) (V c main_arg3) (V c main_arg7)
    (⟨(i 0).val, (i 0).isLt⟩ : Fin 800000) (⟨(i 1).val, (i 1).isLt⟩ : Fin 128)

/-- What point `t` writes back is block `t` of the attention rows. -/
theorem flushed1_5_eq (c : Dev nD) (t : Fin cfg1.N) :
    (dat1 (F := Ideal) V c).flushed 5 t = ((cfg1.win 5).blk t).view.read (Elt Ideal) (edgeOut V c) := by
  show (cfg1.win 5).cut (grid1.coords t) ((dat1 V c).after 5 t) = _
  rw [after1_5]
  funext j
  have hj0 : (j 0).val < if t.val = 390 then 1280 else 2048 := by rw [← xsize1_5_row t]; exact (j 0).isLt
  have hj1 : (j 1).val < 128 := by rw [← xsize1_5_col t]; exact (j 1).isLt
  have ht : t.val < 391 := t.isLt
  have hr : (j 0).val < 2048 := by split at hj0 <;> omega
  have he : t.val * 2048 + (j 0).val < 800000 := by split at hj0 <;> omega
  show Edge.payload (F := Ideal) _ _ _ _ _ (win1_5.xinj (grid1.coords t) j) = edgeOut V c (((cfg1.win 5).blk t).view.emb j)
  have hx : win1_5.xinj (grid1.coords t) j = ix2 (⟨(j 0).val, hr⟩ : Fin 2048) (⟨(j 1).val, hj1⟩ : Fin 128) :=
    funext fun a => match a with | ⟨0, _⟩ => rfl | ⟨1, _⟩ => rfl
  have hemb : ((cfg1.win 5).blk t).view.emb j
      = ix2 (⟨t.val * 2048 + (j 0).val, he⟩ : Fin 800000) (⟨(j 1).val, hj1⟩ : Fin 128) :=
    funext fun a => Fin.ext (by
      match a with
      | ⟨0, _⟩ =>
        show win1_5.index t (0 : Fin 2) * 2048 + 1 * (j 0).val = t.val * 2048 + (j 0).val
        rw [idx1_5_row t]; omega
      | ⟨1, _⟩ =>
        show win1_5.index t (1 : Fin 2) * 128 + 1 * (j 1).val = (j 1).val
        rw [idx1_5_col t]; omega)
  rw [hx, hemb]
  refine (Edge.payload_apply _ _ _ _ _ _ _).trans ?_
  have e0 := fun jj => fillrow1_0 V c t ⟨(j 0).val, hr⟩ jj hj0 ⟨t.val * 2048 + (j 0).val, he⟩ rfl
  have e1 := fun jj => fillrow1_1 V c t ⟨(j 0).val, hr⟩ jj hj0 ⟨t.val * 2048 + (j 0).val, he⟩ rfl
  have e2 := fun jj => fillrow1_2 V c t ⟨(j 0).val, hr⟩ jj hj0 ⟨t.val * 2048 + (j 0).val, he⟩ rfl
  have e3 := fun jj => fillrow1_3 V c t ⟨(j 0).val, hr⟩ jj hj0 ⟨t.val * 2048 + (j 0).val, he⟩ rfl
  have e4 := weight1_4 V c t
  simp only [e0, e1, e2, e3, e4]
  rfl

/-- An index of the result array is in point `t`'s block iff each coordinate is in the block's range on its axis. -/
theorem mem_blk1_5 (t : Fin cfg1.N) (i : S800000x128.Idx) :
    i ∈ ((cfg1.win 5).blk t).view.set ↔ ∀ a : Fin 2, win1_5.index t a * S2048x128.size a ≤ (i a).val
      ∧ (i a).val < win1_5.index t a * S2048x128.size a + win1_5.xsize (grid1.coords t) a := by
  show i ∈ ((View.whole main_v22).slice (win1_5.rect t)).set ↔ _
  rw [View.set_slice_whole, Rect.mem_set_unit]
  exact Iff.rfl

/-- Every index of the result array is in the block of the point its row over 2048 names. -/
theorem cover1_5 (i : S800000x128.Idx) :
    ∃ t : Fin cfg1.N, (cfg1.win 5).flush t = true ∧ i ∈ ((cfg1.win 5).blk t).view.set := by
  have h0 : (i 0).val < 800000 := (i 0).isLt
  have h1 : (i 1).val < 128 := (i 1).isLt
  have hN : (i 0).val / 2048 < cfg1.N := by show _ < 391; omega
  refine ⟨⟨(i 0).val / 2048, hN⟩, flush1_5 _, ?_⟩
  rw [mem_blk1_5]
  intro a
  match a with
  | ⟨0, _⟩ =>
    show win1_5.index ⟨(i 0).val / 2048, hN⟩ (0 : Fin 2) * 2048 ≤ (i 0).val
      ∧ (i 0).val < win1_5.index ⟨(i 0).val / 2048, hN⟩ (0 : Fin 2) * 2048 + win1_5.xsize (grid1.coords ⟨(i 0).val / 2048, hN⟩) (0 : Fin 2)
    rw [idx1_5_row ⟨(i 0).val / 2048, hN⟩, xsize1_5_row ⟨(i 0).val / 2048, hN⟩]
    show (i 0).val / 2048 * 2048 ≤ (i 0).val
      ∧ (i 0).val < (i 0).val / 2048 * 2048 + (if (i 0).val / 2048 = 390 then 1280 else 2048)
    split <;> omega
  | ⟨1, _⟩ =>
    show win1_5.index ⟨(i 0).val / 2048, hN⟩ (1 : Fin 2) * 128 ≤ (i 1).val
      ∧ (i 1).val < win1_5.index ⟨(i 0).val / 2048, hN⟩ (1 : Fin 2) * 128 + win1_5.xsize (grid1.coords ⟨(i 0).val / 2048, hN⟩) (1 : Fin 2)
    rw [idx1_5_col ⟨(i 0).val / 2048, hN⟩, xsize1_5_col ⟨(i 0).val / 2048, hN⟩]
    omega

/-- The result array after the last point holds the attention rows. -/
theorem final1_5_fun (c : Dev nD) : (dat1 (F := Ideal) V c).arrAt 5 cfg1.N = edgeOut V c :=
  (dat1 (F := Ideal) V c).arrAt_eq_of_cover 5 (edgeOut V c) (fun t _ => flushed1_5_eq V c t) (cover1_5)

/-- The result array after the last point, at row `e` and column `k`: the attention row of edge `e` at `k`. -/
theorem final1_5 (c : Dev nD) (e : Fin 800000) (k : Fin 128) :
    (dat1 (F := Ideal) V c).arrAt 5 cfg1.N (ix2 e k)
      = edgeRow (V c main_v7) (V c main_v14) (V c main_v21) (V c main_arg3) (V c main_arg7) e k := by
  rw [final1_5_fun]
  rfl

end Cert.KernelIdeal.Hand

end
-- ==== Proof.ReferenceValueTerm.lean ====
/-
  The reference's result as one term.

  The reference is a straight line of 65 host operations (`Line.ops`). Composed, they compute: the value table
  v·Wv cut into eight heads of sixteen and gathered by the source list; the query rows gathered by the destination
  list and multiplied by Wq; the key rows gathered by the source list, the edge features added, multiplied by Wk; for
  every edge the 8×8 matrix of head-against-head dot products times 1/4; leaky-relu; a softmax over the last axis
  (maximum from -∞, subtract, exponential, sum from 0, divide); the weights against the gathered value heads; the
  rows of 128 again (`heTerm`); and the scatter-add of those rows by the destination list into zeros (`outTerm`).
  The stages are named one by one below, each written with the operations the program prints, and `result_eq`
  says that the fold of the 65 operations over the launch memory leaves exactly `outTerm` of the nine arguments
  in the result buffer.
-/
import proofs.«151337_j57836029608550_2_alg».proof.Proof.ReferenceRun
import Idealize.ShloMosaic.PureOps.Ideal

noncomputable section

namespace Cert.ReferenceIdeal.Line

open Cert.ReferenceIdeal Cert.ReferenceIdeal.Gen Idealize.ShloMosaic Idealize.ShloMosaic.TcCoe Idealize.SL.Sem Idealize.ShloMosaic.StableHlo

/-- The index column a gather reads: the edge list with 50000 added to its negative entries, as a column. -/
def idxCol (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- The value heads of every edge: v·Wv as [50000, 8, 16], its slabs gathered by the source list. -/
def vsTerm (v : FVec Ideal S50000x128 .f32) (wv : FVec Ideal S128x128 .f32) (src : IVec S800000 32) :
    FVec Ideal S800000x8x16 .f32 :=
  Host.gather gather_S50000x8x16_S800000x1_S800000x8x16_12_0_n_n_0_1_1816
    (shapeCast S50000x8x16 (Host.dotGeneral (F := Ideal) dot_S50000x128_S128x128_S50000x128_1_0_0_1_n_n none v wv)
      shapeCasts_S50000x128_S50000x8x16)
    (idxCol src)

/-- The query heads of every edge: the rows of q gathered by the destination list, times Wq, as [800000, 8, 16]. -/
def qhTerm (q : FVec Ideal S50000x128 .f32) (wq : FVec Ideal S128x128 .f32) (dst : IVec S800000 32) :
    FVec Ideal S800000x8x16 .f32 :=
  shapeCast S800000x8x16
    (Host.dotGeneral (F := Ideal) dot_S800000x128_S128x128_S800000x128_1_0_0_1_n_n none
      (Host.gather gather_S50000x128_S800000x1_S800000x128_1_0_n_n_0_1_1128 q (idxCol dst)) wq)
    shapeCasts_S800000x128_S800000x8x16

/-- The key heads of every edge: the rows of k gathered by the source list plus the edge features, times Wk. -/
def khTerm (k : FVec Ideal S50000x128 .f32) (e : FVec Ideal S800000x128 .f32) (wk : FVec Ideal S128x128 .f32)
    (src : IVec S800000 32) : FVec Ideal S800000x8x16 .f32 :=
  shapeCast S800000x8x16
    (Host.dotGeneral (F := Ideal) dot_S800000x128_S128x128_S800000x128_1_0_0_1_n_n none
      (addf (Host.gather gather_S50000x128_S800000x1_S800000x128_1_0_n_n_0_1_1128 k (idxCol src)) e) wk)
    shapeCasts_S800000x128_S800000x8x16

/-- The scaled scores: head against head dot products over the sixteen coordinates, times 1/4. -/
def scTerm (qh kh : FVec Ideal S800000x8x16 .f32) : FVec Ideal S800000x8x8 .f32 :=
  mulf (Host.dotGeneral (F := Ideal) dot_S800000x8x16_S800000x8x16_S800000x8x8_2_2_1_1_0_0 none qh kh)
    (broadcastInDim S800000x8x8 ![] bcast_S_S800000x8x8 (constant (F := Ideal) S_ .f32 0x3E800000#32))

/-- Leaky-relu of every score: the score where it is at least zero, the slope times the score elsewhere. -/
def actTerm (s : FVec Ideal S800000x8x8 .f32) : FVec Ideal S800000x8x8 .f32 :=
  select
    (cmpf .oge s (broadcastInDim S800000x8x8 ![] bcast_S_S800000x8x8 (constant (F := Ideal) S_ .f32 0x00000000#32)))
    s
    (mulf (broadcastInDim S800000x8x8 ![] bcast_S_S800000x8x8 (constant (F := Ideal) S_ .f32 0x3C23D70A#32)) s)

/-- The maximum over the last axis, from -∞ (and once more against -∞). -/
def maxTerm (a : FVec Ideal S800000x8x8 .f32) : FVec Ideal S800000x8 .f32 :=
  maximumf (broadcastInDim S800000x8 ![] bcast_S_S800000x8 (constant (F := Ideal) S_ .f32 0xFF800000#32))
    (Host.reduce FloatOps.maximumf a (constant (F := Ideal) S_ .f32 0xFF800000#32)
      reducesTo_S800000x8x8_S800000x8_d2 h_S_)

/-- A per-(edge, head) quantity copied along the last axis. -/
def backTerm (r : FVec Ideal S800000x8 .f32) : FVec Ideal S800000x8x8 .f32 :=
  broadcastInDim S800000x8x8 ![0, 1, 2] bcast_S800000x8x1_S800000x8x8_0_1_2
    (broadcastInDim S800000x8x1 ![0, 1] bcast_S800000x8_S800000x8x1_0_1 r)

/-- The exponential of every activation minus its row's maximum. -/
def exTerm (a : FVec Ideal S800000x8x8 .f32) : FVec Ideal S800000x8x8 .f32 :=
  Host.exp (subf a (backTerm (maxTerm a)))

/-- Every exponential divided by its row's sum (from 0). -/
def wgtTerm (x : FVec Ideal S800000x8x8 .f32) : FVec Ideal S800000x8x8 .f32 :=
  Host.divf x
    (backTerm (Host.reduceAdd x (constant (F := Ideal) S_ .f32 0x00000000#32) reducesTo_S800000x8x8_S800000x8_d2 h_S_))

/-- The edge rows before the scatter-add: the weights against the value heads, as rows of 128. -/
def heTerm (q k v : FVec Ideal S50000x128 .f32) (e : FVec Ideal S800000x128 .f32) (src dst : IVec S800000 32)
    (wq wk wv : FVec Ideal S128x128 .f32) : FVec Ideal S800000x128 .f32 :=
  shapeCast S800000x128
    (Host.dotGeneral (F := Ideal) dot_S800000x8x8_S800000x8x16_S800000x8x16_2_1_1_2_0_0 none
      (wgtTerm (exTerm (actTerm (scTerm (qhTerm q wq dst) (khTerm k e wk src)))))
      (vsTerm v wv src))
    shapeCasts_S800000x8x16_S800000x128

/-- The reference's result: the edge rows added into zeros at their destination rows. -/
def outTerm (q k v : FVec Ideal S50000x128 .f32) (e : FVec Ideal S800000x128 .f32) (src dst : IVec S800000 32)
    (wq wk wv : FVec Ideal S128x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (heTerm q k v e src dst wq wk wv)

/-- The fold of the 65 operations over the launch memory leaves `outTerm` of the nine arguments in the result
    buffer. -/
theorem result_eq (m : (ℓ : Loc nD τ sig) → Buf (Elt Ideal) ℓ) (c : Dev nD) :
    after (ops (F := Ideal)) (launchContents m c) (Proc.devRef .tc main_v47)
      = outTerm (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  after_results_simp
  rfl

end Cert.ReferenceIdeal.Line

end
-- ==== Proof.ReferenceValueDots.lean ====
/-
  Host products read at an index, for dimension numbers given by their fields.

  A program states each `dot_general`'s dimension numbers as a record of its own, carrying its own proof of the
  record's conditions. The sums below hold for ANY record with the named fields: the plain product [m,k]·[k,n], the
  product of two stacks matrix by matrix ([G,m,k]·[G,k,n], batch axis 0, contracting 2 against 1) and the product
  of a stack with a stack transposed ([G,m,k]·[G,n,k], batch axis 0, contracting 2 against 2: every row of the
  left member against every row of the right member). At the extended reals each is the exact sum of products.
-/
import Idealize.ShloMosaic.PureOps
import Idealize.ShloMosaic.Lib.ValueIdx
import Idealize.ShloMosaic.Lib.StackMember

noncomputable section

open scoped BigOperators

namespace Idealize.DotRead

open Idealize.ShloMosaic Idealize.ShloMosaic.ValueIdx Idealize.ShloMosaic.StackMember

variable {G m n k : Nat} {φ₁ φ₂ : FTy}

/-- The plain product, for any record with its fields: entry (a, b) is ∑ c, A(a, c) · B(c, b). -/
theorem dotGeneral_plain_fields_apply (D : DotDims ⟨2, ![m, k]⟩ ⟨2, ![k, n]⟩ ⟨2, ![m, n]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (A : FVec Ideal ⟨2, ![m, k]⟩ φ₁) (B : FVec Ideal ⟨2, ![k, n]⟩ φ₂)
    (a : Fin m) (b : Fin n) :
    Host.dotGeneral D prec A B (ix2 a b) = ∑ c : Fin k, A (ix2 a c) * B (ix2 c b) := by
  obtain ⟨lc, rc, ln, rn, lb, rb, wf⟩ := D
  dsimp only at h1 h2 h3 h4 h5 h6
  subst h1 h2 h3 h4 h5 h6
  exact dotGeneral_plain_apply prec A B a b

/-- The product of two stacks matrix by matrix, for any record with its fields: entry (g, a, b) is
    ∑ c, A(g, a, c) · B(g, c, b). -/
theorem dotGeneral_stack_fields_apply (D : DotDims ⟨3, ![G, m, k]⟩ ⟨3, ![G, k, n]⟩ ⟨3, ![G, m, n]⟩)
    (h1 : D.lhsContracting = [2]) (h2 : D.rhsContracting = [1]) (h3 : D.lhsNonContracting = [1])
    (h4 : D.rhsNonContracting = [2]) (h5 : D.lhsBatch = [0]) (h6 : D.rhsBatch = [0])
    (prec : Option ContractPrecision) (A : FVec Ideal ⟨3, ![G, m, k]⟩ φ₁) (B : FVec Ideal ⟨3, ![G, k, n]⟩ φ₂)
    (g : Fin G) (a : Fin m) (b : Fin n) :
    Host.dotGeneral D prec A B (ix3 g a b) = ∑ c : Fin k, A (ix3 g a c) * B (ix3 g c b) := by
  obtain ⟨lc, rc, ln, rn, lb, rb, wf⟩ := D
  dsimp only at h1 h2 h3 h4 h5 h6
  subst h1 h2 h3 h4 h5 h6
  exact dotGeneral_stack_apply wf prec A B g a b

/-- The product of a stack with a stack transposed — batch axis 0, contracting the last axis of both —, read at
    an index: entry (g, a, b) is the dot product of row a of the left member with row b of the right member. -/
theorem dotGeneral_rows_apply
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-- The same for any record with those fields. -/
theorem dotGeneral_rows_fields_apply (D : DotDims ⟨3, ![G, m, k]⟩ ⟨3, ![G, n, k]⟩ ⟨3, ![G, m, n]⟩)
    (h1 : D.lhsContracting = [2]) (h2 : D.rhsContracting = [2]) (h3 : D.lhsNonContracting = [1])
    (h4 : D.rhsNonContracting = [1]) (h5 : D.lhsBatch = [0]) (h6 : D.rhsBatch = [0])
    (prec : Option ContractPrecision) (A : FVec Ideal ⟨3, ![G, m, k]⟩ φ₁) (B : FVec Ideal ⟨3, ![G, n, k]⟩ φ₂)
    (g : Fin G) (a : Fin m) (b : Fin n) :
    Host.dotGeneral D prec A B (ix3 g a b) = ∑ c : Fin k, A (ix3 g a c) * B (ix3 g b c) := by
  obtain ⟨lc, rc, ln, rn, lb, rb, wf⟩ := D
  dsimp only at h1 h2 h3 h4 h5 h6
  subst h1 h2 h3 h4 h5 h6
  exact dotGeneral_rows_apply wf prec A B g a b

end Idealize.DotRead

end
-- ==== Proof.LibGatherRows.lean ====
/-
  WHOLE-ROW GATHERS READ AT AN INDEX.

  What `x[idx]` of a table `x : [N, C]` (or `[N, A, B]`) at an integer vector `idx : [E]` lowers to:
  the index words are first normalised (a negative word has `N` added), the normalised vector is broadcast to
  a column `[E, 1]`, and `stablehlo.gather` reads whole rows: offset_dims the trailing axes, collapsed_slice_dims
  `[0]`, start_index_map `[0]`, index_vector_dim `1`, slice_sizes one row. The gather reads its start index as a
  signed integer and clamps it so that the slice fits, here into `[0, N − 1]`. This file names the row that is
  read for an index word (`rowOf`) and reads the printed normalisation, the broadcast column and the gather
  at an index.
-/
import Idealize.ShloMosaic.PureOps
import Idealize.ShloMosaic.Lib.ValueIdx

namespace Idealize.GatherRows

open Idealize.ShloMosaic Idealize.ShloMosaic.ValueIdx

/-! ## The row read for an index word -/

/-- The normalised index word: the word plus `n` when the word is negative as a signed integer, else the word
    (`i < 0 ? i + n : i`, the addition the machine's, on 32 bits). -/
def normWord (n i : BitVec 32) : BitVec 32 := if i.slt 0#32 then i + n else i

/-- The row of an `N`-row table read for the index word `i`: the normalised word (`N` added to a negative word)
    read as a signed integer and clamped into `[0, N − 1]`. -/
def rowOf (N : Nat) (hN : 0 < N) (i : BitVec 32) : Fin N :=
  ⟨min (normWord (BitVec.ofNat 32 N) i).toInt.toNat (N - 1), by omega⟩

theorem rowOf_val (N : Nat) (hN : 0 < N) (i : BitVec 32) :
    (rowOf N hN i).val = min (normWord (BitVec.ofNat 32 N) i).toInt.toNat (N - 1) := rfl

/-! ## The printed normalisation and the index column, read at a position -/

/-- THE NORMALISATION READ AT A POSITION: `select (idx < 0) (idx + n) idx` with the two constants broadcast from
    scalars is, at every position, the normalised word of the index there. -/
theorem normalise_apply {s : Shape} (idx : IVec s 32) (n : BitVec 32)
    (hz hn : (⟨0, ![]⟩ : Shape).BroadcastsInDim s (![] : Fin 0 → Fin s.rank)) (j : s.Idx) :
    select (cmpi .slt idx (broadcastInDim s ![] hz (constantI ⟨0, ![]⟩ 32 0#32)))
        (addi idx (broadcastInDim s ![] hn (constantI ⟨0, ![]⟩ 32 n))) idx j
      = normWord n (idx j) := by
  show Scalar.select (IntOp.cmpi .slt (idx j) 0#32) (IntOp.addi (idx j) n) (idx j) = normWord n (idx j)
  unfold normWord Scalar.select IntOp.cmpi IntOp.addi
  cases h : (idx j).slt 0#32
  · simp
  · simp

/-- THE INDEX COLUMN READ AT A POSITION: a vector `[E]` broadcast to a column `[E, 1]` reads, at `(e, 0)`, the
    vector at `e`. -/
theorem column_apply {α : Type} {E : Nat} (h : (⟨1, ![E]⟩ : Shape).BroadcastsInDim ⟨2, ![E, 1]⟩ (![0] : Fin 1 → Fin 2))
    (v : (⟨1, ![E]⟩ : Shape).Idx → α) (e : Fin E) (z : Fin 1) :
    broadcastInDim (⟨2, ![E, 1]⟩ : Shape) ![0] h v (ix2 e z) = v (ix1 e) := by
  unfold broadcastInDim
  refine congrArg v (funext fun a => ?_)
  obtain rfl : a = 0 := Subsingleton.elim _ _
  refine Fin.ext ?_
  by_cases h1 : (⟨1, ![E]⟩ : Shape).size 0 = 1
  · rw [dif_pos h1]
    have : E = 1 := h1
    have := e.isLt
    show 0 = e.val
    omega
  · rw [dif_neg h1]; rfl

/-! ## The whole-row gather of a rank-2 table -/

section Rows
variable {α : Type}

/-- The dimension numbers of a whole-row gather: operand `[N, C]`, start indices a column `[E, 1]`, result `[E, C]`;
    their conditions `wf` are decided on a program's literal shapes. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE GATHER READ AT `(e, c)`: column `c` of the operand's row at the start index `col[e, 0]`, read signed and
    clamped into `[0, N − 1]`. -/
theorem gather_rowDims_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (col : IVec ⟨2, ![E, 1]⟩ w) (e : Fin E) (c : Fin C) :
    Host.gather (rowDims N E C wf) x col (ix2 e c)
      = x (ix2 (⟨min (col (ix2 e 0)).toInt.toNat (N - 1), by omega⟩ : Fin N) c) := by
  unfold Host.gather
  congr 1
  funext a
  refine Fin.ext ?_
  show (rowDims N E C wf).start (ix2 e c) col a + (rowDims N E C wf).batchCoord (ix2 e c) a
      + (rowDims N E C wf).offCoord (ix2 e c) a = _
  rw [GatherDims.batchCoord_eq_zero _ _ _ List.not_mem_nil, Nat.add_zero]
  have h0 : (rowDims N E C wf).start (ix2 e c) col 0 + (rowDims N E C wf).offCoord (ix2 e c) 0
      = min (col (ix2 e 0)).toInt.toNat (N - 1) := by
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rowDims N E C wf).startIndexMap from List.mem_singleton.mpr rfl)]
    have hsi : (rowDims N E C wf).siIdx (ix2 e c) ⟨List.idxOf (0 : Fin 2) (rowDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  have h1 : (rowDims N E C wf).start (ix2 e c) col 1 + (rowDims N E C wf).offCoord (ix2 e c) 1 = c.val := by
    unfold GatherDims.start
    rw [dif_neg (fun h : (1 : Fin 2) ∈ (rowDims N E C wf).startIndexMap =>
      Nat.one_ne_zero (congrArg Fin.val (List.mem_singleton.mp h))), Nat.zero_add]
    rfl
  match a with
  | ⟨0, _⟩ => exact h0
  | ⟨1, _⟩ => exact h1

/-- Dimension numbers with the whole-row fields are `rowDims` (whatever proof of their conditions they carry). -/
theorem eq_rowDims {N E C : Nat} (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) : ∃ wf, d = rowDims N E C wf := by
  obtain ⟨od, cd, ob, sb, sm, iv, ss, wf⟩ := d
  dsimp only at h1 h2 h3 h4 h5 h6 h7
  subst h1 h2 h3 h4 h5 h6 h7
  exact ⟨wf, rfl⟩

/-- THE WHOLE-ROW GATHER AT ANY INDEX COLUMN, for any dimension numbers with the whole-row fields: result `(e, c)` is
    column `c` of the operand's row at the start index `col[e, 0]`, read signed and clamped into `[0, N − 1]`. -/
theorem gather_rows_read {N E C w : Nat} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (col : IVec ⟨2, ![E, 1]⟩ w) (e : Fin E) (c : Fin C) :
    Host.gather d x col (ix2 e c)
      = x (ix2 (⟨min (col (ix2 e 0)).toInt.toNat (N - 1), by omega⟩ : Fin N) c) := by
  obtain ⟨wf, rfl⟩ := eq_rowDims d h1 h2 h3 h4 h5 h6 h7
  exact gather_rowDims_apply hN wf x col e c

/-- THE ROW GATHER OF A PROGRAM, READ AT `(e, c)`: with the index vector normalised as printed (`N` added to a negative
    word) and broadcast to a column, result `(e, c)` is column `c` of row `rowOf N (idx e)` of the operand. -/
theorem gather_rows_apply {N E C : Nat} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨1, ![E]⟩ 32)
    (hz hn : (⟨0, ![]⟩ : Shape).BroadcastsInDim ⟨1, ![E]⟩ (![] : Fin 0 → Fin 1))
    (hb : (⟨1, ![E]⟩ : Shape).BroadcastsInDim ⟨2, ![E, 1]⟩ (![0] : Fin 1 → Fin 2)) (e : Fin E) (c : Fin C) :
    Host.gather d x
        (broadcastInDim (⟨2, ![E, 1]⟩ : Shape) ![0] hb
          (select (cmpi .slt idx (broadcastInDim (⟨1, ![E]⟩ : Shape) ![] hz (constantI ⟨0, ![]⟩ 32 0#32)))
            (addi idx (broadcastInDim (⟨1, ![E]⟩ : Shape) ![] hn (constantI ⟨0, ![]⟩ 32 (BitVec.ofNat 32 N)))) idx))
        (ix2 e c)
      = x (ix2 (rowOf N hN (idx (ix1 e))) c) := by
  rw [gather_rows_read hN d h1 h2 h3 h4 h5 h6 h7]
  refine congrArg x (congrArg (fun r => ix2 r c) (Fin.ext ?_))
  change min _ (N - 1) = min _ (N - 1)
  rw [column_apply, normalise_apply]

end Rows

/-! ## The whole-row gather of a rank-3 table -/

section Rows3
variable {α : Type}

/-- The dimension numbers of a whole-row gather of a rank-3 table: operand `[N, A, B]`, start indices a column `[E, 1]`,
    result `[E, A, B]`. -/
abbrev rowDims3 (N E A B : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- THE RANK-3 GATHER READ AT `(e, a, b)`: element `(a, b)` of the operand's slab at the start index `col[e, 0]`, read
    signed and clamped into `[0, N − 1]`. -/
theorem gather_rowDims3_apply {N E A B w : Nat} (hN : 0 < N)
    (wf : GatherDims.WF ⟨3, ![N, A, B]⟩ ⟨2, ![E, 1]⟩ ⟨3, ![E, A, B]⟩ [1, 2] [0] [] [0] [] 1 ![1, A, B])
    (x : (⟨3, ![N, A, B]⟩ : Shape).Idx → α) (col : IVec ⟨2, ![E, 1]⟩ w) (e : Fin E) (a : Fin A) (b : Fin B) :
    Host.gather (rowDims3 N E A B wf) x col (ix3 e a b)
      = x (ix3 (⟨min (col (ix2 e 0)).toInt.toNat (N - 1), by omega⟩ : Fin N) a b) := by
  unfold Host.gather
  congr 1
  funext k
  refine Fin.ext ?_
  show (rowDims3 N E A B wf).start (ix3 e a b) col k + (rowDims3 N E A B wf).batchCoord (ix3 e a b) k
      + (rowDims3 N E A B wf).offCoord (ix3 e a b) k = _
  rw [GatherDims.batchCoord_eq_zero _ _ _ List.not_mem_nil, Nat.add_zero]
  have h0 : (rowDims3 N E A B wf).start (ix3 e a b) col 0 + (rowDims3 N E A B wf).offCoord (ix3 e a b) 0
      = min (col (ix2 e 0)).toInt.toNat (N - 1) := by
    rw [GatherDims.offCoord_eq_zero _ _ _ (fun h => ((GatherDims.mem_sKept _ _).mp h).1 (List.mem_singleton.mpr rfl)),
      Nat.add_zero]
    unfold GatherDims.start
    rw [dif_pos (show (0 : Fin 3) ∈ (rowDims3 N E A B wf).startIndexMap from List.mem_singleton.mpr rfl)]
    have hsi : (rowDims3 N E A B wf).siIdx (ix3 e a b) ⟨List.idxOf (0 : Fin 3) (rowDims3 N E A B wf).startIndexMap,
        List.idxOf_lt_length_iff.2 (List.mem_singleton.mpr rfl)⟩ = ix2 e 0 := by
      funext b'; refine Fin.ext ?_
      match b' with
      | ⟨0, _⟩ => rfl
      | ⟨1, _⟩ => rfl
    rw [hsi]
    rfl
  have h1 : (rowDims3 N E A B wf).start (ix3 e a b) col 1 + (rowDims3 N E A B wf).offCoord (ix3 e a b) 1 = a.val := by
    unfold GatherDims.start
    rw [dif_neg (fun h : (1 : Fin 3) ∈ (rowDims3 N E A B wf).startIndexMap =>
      Nat.one_ne_zero (congrArg Fin.val (List.mem_singleton.mp h))), Nat.zero_add]
    rfl
  have h2 : (rowDims3 N E A B wf).start (ix3 e a b) col 2 + (rowDims3 N E A B wf).offCoord (ix3 e a b) 2 = b.val := by
    unfold GatherDims.start
    rw [dif_neg (fun h : (2 : Fin 3) ∈ (rowDims3 N E A B wf).startIndexMap =>
      (by decide : (2 : Nat) ≠ 0) (congrArg Fin.val (List.mem_singleton.mp h))), Nat.zero_add]
    rfl
  match k with
  | ⟨0, _⟩ => exact h0
  | ⟨1, _⟩ => exact h1
  | ⟨2, _⟩ => exact h2

/-- Dimension numbers with the rank-3 whole-row fields are `rowDims3`. -/
theorem eq_rowDims3 {N E A B : Nat} (d : GatherDims ⟨3, ![N, A, B]⟩ ⟨2, ![E, 1]⟩ ⟨3, ![E, A, B]⟩)
    (h1 : d.offsetDims = [1, 2]) (h2 : d.collapsedSliceDims = [0]) (h3 : d.operandBatchingDims = [])
    (h4 : d.startIndicesBatchingDims = []) (h5 : d.startIndexMap = [0]) (h6 : d.indexVectorDim = 1)
    (h7 : d.sliceSizes = ![1, A, B]) : ∃ wf, d = rowDims3 N E A B wf := by
  obtain ⟨od, cd, ob, sb, sm, iv, ss, wf⟩ := d
  dsimp only at h1 h2 h3 h4 h5 h6 h7
  subst h1 h2 h3 h4 h5 h6 h7
  exact ⟨wf, rfl⟩

/-- THE RANK-3 WHOLE-ROW GATHER AT ANY INDEX COLUMN, for any dimension numbers with those fields. -/
theorem gather_rows3_read {N E A B w : Nat} (hN : 0 < N) (d : GatherDims ⟨3, ![N, A, B]⟩ ⟨2, ![E, 1]⟩ ⟨3, ![E, A, B]⟩)
    (h1 : d.offsetDims = [1, 2]) (h2 : d.collapsedSliceDims = [0]) (h3 : d.operandBatchingDims = [])
    (h4 : d.startIndicesBatchingDims = []) (h5 : d.startIndexMap = [0]) (h6 : d.indexVectorDim = 1)
    (h7 : d.sliceSizes = ![1, A, B])
    (x : (⟨3, ![N, A, B]⟩ : Shape).Idx → α) (col : IVec ⟨2, ![E, 1]⟩ w) (e : Fin E) (a : Fin A) (b : Fin B) :
    Host.gather d x col (ix3 e a b)
      = x (ix3 (⟨min (col (ix2 e 0)).toInt.toNat (N - 1), by omega⟩ : Fin N) a b) := by
  obtain ⟨wf, rfl⟩ := eq_rowDims3 d h1 h2 h3 h4 h5 h6 h7
  exact gather_rowDims3_apply hN wf x col e a b

/-- THE RANK-3 ROW GATHER OF A PROGRAM, READ AT `(e, a, b)`: with the index vector normalised as printed and broadcast
    to a column, result `(e, a, b)` is element `(a, b)` of slab `rowOf N (idx e)` of the operand. -/
theorem gather_rows3_apply {N E A B : Nat} (hN : 0 < N) (d : GatherDims ⟨3, ![N, A, B]⟩ ⟨2, ![E, 1]⟩ ⟨3, ![E, A, B]⟩)
    (h1 : d.offsetDims = [1, 2]) (h2 : d.collapsedSliceDims = [0]) (h3 : d.operandBatchingDims = [])
    (h4 : d.startIndicesBatchingDims = []) (h5 : d.startIndexMap = [0]) (h6 : d.indexVectorDim = 1)
    (h7 : d.sliceSizes = ![1, A, B])
    (x : (⟨3, ![N, A, B]⟩ : Shape).Idx → α) (idx : IVec ⟨1, ![E]⟩ 32)
    (hz hn : (⟨0, ![]⟩ : Shape).BroadcastsInDim ⟨1, ![E]⟩ (![] : Fin 0 → Fin 1))
    (hb : (⟨1, ![E]⟩ : Shape).BroadcastsInDim ⟨2, ![E, 1]⟩ (![0] : Fin 1 → Fin 2))
    (e : Fin E) (a : Fin A) (b : Fin B) :
    Host.gather d x
        (broadcastInDim (⟨2, ![E, 1]⟩ : Shape) ![0] hb
          (select (cmpi .slt idx (broadcastInDim (⟨1, ![E]⟩ : Shape) ![] hz (constantI ⟨0, ![]⟩ 32 0#32)))
            (addi idx (broadcastInDim (⟨1, ![E]⟩ : Shape) ![] hn (constantI ⟨0, ![]⟩ 32 (BitVec.ofNat 32 N)))) idx))
        (ix3 e a b)
      = x (ix3 (rowOf N hN (idx (ix1 e))) a b) := by
  rw [gather_rows3_read hN d h1 h2 h3 h4 h5 h6 h7]
  refine congrArg x (congrArg (fun r => ix3 r a b) (Fin.ext ?_))
  change min _ (N - 1) = min _ (N - 1)
  rw [column_apply, normalise_apply]

end Rows3

end Idealize.GatherRows
-- ==== Proof.ReferenceValueStages.lean ====
/-
  The reference's stages read at an index.

  Each stage of the reference's result (ReferenceValueTerm.lean) is read at literal coordinates — edge i, heads h and g,
  coordinate d inside a head — as the mathematical expression it computes: a gathered row is the table's row
  `rowOf 50000 (idx i)`; a product with a 128×128 weight matrix, cut into heads, is the sum over the 128 inputs at
  position h·16 + d; the score is the sum over the sixteen coordinates times 1/4; leaky-relu is `EdgeSpec.lrelu`;
  the maximum from -∞ over the last axis is the least upper bound of the eight activations; the sum from 0 is the
  sum of the eight exponentials; and the last product is the sum over the key heads.
-/
import proofs.«151337_j57836029608550_2_alg».proof.Proof.ReferenceValueTerm
import proofs.«151337_j57836029608550_2_alg».proof.Proof.ReferenceValueDots
import proofs.«151337_j57836029608550_2_alg».proof.Proof.LibGatherRows
import proofs.«151337_j57836029608550_2_alg».proof.Proof.EdgeSpec
import Idealize.ShloMosaic.Lib.Pipeline.Value

noncomputable section

open scoped BigOperators

namespace Cert.ReferenceIdeal.Line

open Cert.ReferenceIdeal Cert.ReferenceIdeal.Gen Idealize.ShloMosaic Idealize.ShloMosaic.ValueIdx
open Idealize.GatherRows Idealize.DotRead

/-! ## Gathers -/

/-- A row gather by an edge list reads, at (i, j), column j of the table's row for the list's entry i. -/
theorem gather_idxCol_apply (x : FVec Ideal S50000x128 .f32) (idx : IVec S800000 32) (i : Fin 800000) (j : Fin 128) :
    Host.gather gather_S50000x128_S800000x1_S800000x128_1_0_n_n_0_1_1128 x (idxCol idx) (ix2 i j)
      = x (ix2 (rowOf 50000 (by decide) (idx (ix1 i))) j) :=
  gather_rows_apply (by decide) _ rfl rfl rfl rfl rfl rfl rfl x idx _ _ _ i j

/-- The slab gather of a [50000, 8, 16] table reads, at (i, g, d), entry (g, d) of the slab for the list's entry i. -/
theorem gather3_idxCol_apply (x : FVec Ideal S50000x8x16 .f32) (idx : IVec S800000 32) (i : Fin 800000) (g : Fin 8)
    (d : Fin 16) :
    Host.gather gather_S50000x8x16_S800000x1_S800000x8x16_12_0_n_n_0_1_1816 x (idxCol idx) (ix3 i g d)
      = x (ix3 (rowOf 50000 (by decide) (idx (ix1 i))) g d) :=
  gather_rows3_apply (by decide) _ rfl rfl rfl rfl rfl rfl rfl x idx _ _ _ i g d

/-! ## Products with a weight matrix, cut into heads -/

/-- Rows of 128 times a 128×128 matrix, viewed as eight heads of sixteen: entry (i, h, d) is the sum over the 128
    inputs against column h·16 + d. -/
theorem proj_apply (X : FVec Ideal S800000x128 .f32) (W : FVec Ideal S128x128 .f32) (i : Fin 800000) (h : Fin 8)
    (d : Fin 16) :
    shapeCast S800000x8x16
        (Host.dotGeneral (F := Ideal) dot_S800000x128_S128x128_S800000x128_1_0_0_1_n_n none X W)
        shapeCasts_S800000x128_S800000x8x16 (ix3 i h d)
      = ∑ j : Fin 128, X (ix2 i j) * W (ix2 j (EdgeSpec.hd h d)) := by
  rw [shapeCast_apply _ _ (ix3 i h d) (ix2 i (EdgeSpec.hd h d)) (by
    rw [Shape.rowMajor_val_two, Shape.rowMajor_val_three]
    show i.val * 128 + (h.val * 16 + d.val) = (i.val * 8 + h.val) * 16 + d.val
    omega)]
  exact dotGeneral_plain_fields_apply _ rfl rfl rfl rfl rfl rfl none X W i _

/-- The same over the 50000 node rows. -/
theorem projN_apply (X : FVec Ideal S50000x128 .f32) (W : FVec Ideal S128x128 .f32) (r : Fin 50000) (h : Fin 8)
    (d : Fin 16) :
    shapeCast S50000x8x16
        (Host.dotGeneral (F := Ideal) dot_S50000x128_S128x128_S50000x128_1_0_0_1_n_n none X W)
        shapeCasts_S50000x128_S50000x8x16 (ix3 r h d)
      = ∑ j : Fin 128, X (ix2 r j) * W (ix2 j (EdgeSpec.hd h d)) := by
  rw [shapeCast_apply _ _ (ix3 r h d) (ix2 r (EdgeSpec.hd h d)) (by
    rw [Shape.rowMajor_val_two, Shape.rowMajor_val_three]
    show r.val * 128 + (h.val * 16 + d.val) = (r.val * 8 + h.val) * 16 + d.val
    omega)]
  exact dotGeneral_plain_fields_apply _ rfl rfl rfl rfl rfl rfl none X W r _

/-- The value heads of edge i: row `src i` of v against Wv. -/
theorem vsTerm_apply (v : FVec Ideal S50000x128 .f32) (wv : FVec Ideal S128x128 .f32) (src : IVec S800000 32)
    (i : Fin 800000) (g : Fin 8) (d : Fin 16) :
    vsTerm v wv src (ix3 i g d)
      = ∑ j : Fin 128, v (ix2 (rowOf 50000 (by decide) (src (ix1 i))) j) * wv (ix2 j (EdgeSpec.hd g d)) := by
  unfold vsTerm
  rw [gather3_idxCol_apply, projN_apply]

/-- The query heads of edge i: row `dst i` of q against Wq. -/
theorem qhTerm_apply (q : FVec Ideal S50000x128 .f32) (wq : FVec Ideal S128x128 .f32) (dst : IVec S800000 32)
    (i : Fin 800000) (h : Fin 8) (d : Fin 16) :
    qhTerm q wq dst (ix3 i h d)
      = ∑ j : Fin 128, q (ix2 (rowOf 50000 (by decide) (dst (ix1 i))) j) * wq (ix2 j (EdgeSpec.hd h d)) := by
  unfold qhTerm
  rw [proj_apply]
  refine Finset.sum_congr rfl fun j _ => ?_
  rw [gather_idxCol_apply]

/-- The key heads of edge i: row `src i` of k plus the edge's features, against Wk. -/
theorem khTerm_apply (k : FVec Ideal S50000x128 .f32) (e : FVec Ideal S800000x128 .f32) (wk : FVec Ideal S128x128 .f32)
    (src : IVec S800000 32) (i : Fin 800000) (g : Fin 8) (d : Fin 16) :
    khTerm k e wk src (ix3 i g d)
      = ∑ j : Fin 128, (k (ix2 (rowOf 50000 (by decide) (src (ix1 i))) j) + e (ix2 i j)) * wk (ix2 j (EdgeSpec.hd g d)) := by
  unfold khTerm
  rw [proj_apply]
  refine Finset.sum_congr rfl fun j _ => ?_
  rw [addf_apply, gather_idxCol_apply]

/-! ## Scores and leaky-relu -/

/-- The scaled score of heads (h, g) of edge i. -/
theorem scTerm_apply (qh kh : FVec Ideal S800000x8x16 .f32) (i : Fin 800000) (h g : Fin 8) :
    scTerm qh kh (ix3 i h g) = (∑ d : Fin 16, qh (ix3 i h d) * kh (ix3 i g d)) * EdgeSpec.quarter := by
  unfold scTerm
  rw [mulf_apply, dotGeneral_rows_fields_apply _ rfl rfl rfl rfl rfl rfl]
  rfl

/-- Leaky-relu, elementwise. -/
theorem actTerm_apply (s : FVec Ideal S800000x8x8 .f32) (j : S800000x8x8.Idx) :
    actTerm s j = EdgeSpec.lrelu (s j) := by
  unfold actTerm EdgeSpec.lrelu EdgeSpec.slope
  rw [select_apply]
  show Scalar.select (Ideal.cmp .oge (s j) (Ideal.ofBits .f32 0x00000000#32)) (s j)
      (Ideal.ofBits .f32 0x3C23D70A#32 * s j) = _
  rw [Ideal.ofBits_zero_f32]
  unfold Ideal.cmp Scalar.select
  by_cases h0 : (0 : EReal) ≤ s j
  · simp [h0]
  · simp [h0]

end Cert.ReferenceIdeal.Line

end
-- ==== Proof.ReferenceValueSoftmax.lean ====
/-
  The reference's softmax stages and its last product, read at an index.

  The maximum over the last axis (a reduce from -∞, then a maximum against -∞) is the least upper bound of the row's
  eight entries; a per-row quantity broadcast back along the last axis reads the row's entry; the exponential of
  the difference, the sum from 0 and the quotient are read elementwise; and the product of the 8×8 weights with the
  8×16 value heads, as rows of 128, reads at column c the sum over the key heads at head c / 16, coordinate c mod 16.
-/
import proofs.«151337_j57836029608550_2_alg».proof.Proof.ReferenceValueTerm
import proofs.«151337_j57836029608550_2_alg».proof.Proof.ReferenceValueDots
import proofs.«151337_j57836029608550_2_alg».proof.Proof.EdgeSpec
import Idealize.ShloMosaic.Lib.Pipeline.Value

noncomputable section

open scoped BigOperators

namespace Cert.ReferenceIdeal.Line

open Cert.ReferenceIdeal Cert.ReferenceIdeal.Gen Idealize.ShloMosaic Idealize.ShloMosaic.ValueIdx
open Idealize.DotRead

/-- The f32 word of -∞ is the least extended real. -/
theorem ofBits_neg_inf : Ideal.ofBits .f32 0xFF800000#32 = (⊥ : EReal) := by
  simp [Ideal.ofBits, Ideal.ieee]

/-- The last axis of [800000, 8, 8] is the one reduced into [800000, 8]. -/
theorem reduces_last : S800000x8x8.Reduces [2] S800000x8 := by decide

/-- The index over (i, h) with g put on the last axis. -/
theorem lift_last (i : Fin 800000) (h g : Fin 8) :
    reduces_last.lift (ix2 i h) (g : Fin (S800000x8x8.size 2)) = ix3 i h g := by
  funext a
  refine Fin.ext ?_
  match a with
  | ⟨0, _⟩ => rfl
  | ⟨1, _⟩ => rfl
  | ⟨2, _⟩ => rfl

/-- A per-(edge, head) quantity copied along the last axis reads, at (i, h, g), its entry (i, h). -/
theorem backTerm_apply (r : FVec Ideal S800000x8 .f32) (i : Fin 800000) (h g : Fin 8) :
    backTerm r (ix3 i h g) = r (ix2 i h) := by
  unfold backTerm
  rw [broadcastInDim_apply _ _ _ (ix3 i h g) (ix3 i h (0 : Fin 1)) (by
    intro a
    match a with
    | ⟨0, _⟩ => rfl
    | ⟨1, _⟩ => rfl
    | ⟨2, _⟩ => rfl)]
  exact broadcastInDim_apply _ _ _ (ix3 i h (0 : Fin 1)) (ix2 i h) (by
    intro a
    match a with
    | ⟨0, _⟩ => rfl
    | ⟨1, _⟩ => rfl)

/-- The maximum over the last axis: the least upper bound of the row's eight entries. -/
theorem maxTerm_apply (a : FVec Ideal S800000x8x8 .f32) (i : Fin 800000) (h : Fin 8) :
    maxTerm a (ix2 i h) = Finset.univ.sup fun g : Fin 8 => a (ix3 i h g) := by
  unfold maxTerm
  rw [maximumf_apply,
    Host.reduce_eq_fold_single FloatOps.maximumf a _ reducesTo_S800000x8x8_S800000x8_d2 reduces_last h_S_]
  show max (Ideal.ofBits .f32 0xFF800000#32)
      ((Finset.univ : Finset (Fin 8)).fold max (Ideal.ofBits .f32 0xFF800000#32) (a ∘ reduces_last.lift (ix2 i h))) = _
  rw [ofBits_neg_inf, max_eq_right bot_le]
  have hf : (a ∘ reduces_last.lift (ix2 i h)) = fun g : Fin 8 => a (ix3 i h g) := by
    funext g
    exact congrArg a (lift_last i h g)
  rw [hf]
  rfl

/-- The host's exponential, elementwise. -/
theorem hostExp_apply {s : Shape} (x : FVec Ideal s .f32) (j : s.Idx) : Host.exp x j = Ideal.exp (x j) := rfl

/-- The shifted exponential, elementwise. -/
theorem exTerm_apply (a : FVec Ideal S800000x8x8 .f32) (i : Fin 800000) (h g : Fin 8) :
    exTerm a (ix3 i h g) = Ideal.exp (a (ix3 i h g) - maxTerm a (ix2 i h)) := by
  unfold exTerm
  rw [hostExp_apply, subf_apply, backTerm_apply]

/-- The host's quotient, elementwise. -/
theorem hostDivf_apply {s : Shape} (x y : FVec Ideal s .f32) (j : s.Idx) :
    Host.divf x y j = Ideal.div (x j) (y j) := rfl

/-- The sum from 0 over the last axis: the sum of the row's eight entries. -/
theorem rowSum_apply (x : FVec Ideal S800000x8x8 .f32) (i : Fin 800000) (h : Fin 8) :
    Host.reduceAdd x (constant (F := Ideal) S_ .f32 0x00000000#32) reducesTo_S800000x8x8_S800000x8_d2 h_S_ (ix2 i h)
      = ∑ g' : Fin 8, x (ix3 i h g') := by
  unfold Host.reduceAdd
  rw [Ideal.hostReduceAdd_def, Ideal.hostReduceAdd_single reducesTo_S800000x8x8_S800000x8_d2 reduces_last x _ (ix2 i h),
    constant_apply, Ideal.ofBits_zero_f32, zero_add]
  exact Finset.sum_congr rfl fun g' _ => congrArg x (lift_last i h g')

/-- The softmax weight: the entry over the sum of its row's eight entries. -/
theorem wgtTerm_apply (x : FVec Ideal S800000x8x8 .f32) (i : Fin 800000) (h g : Fin 8) :
    wgtTerm x (ix3 i h g) = Ideal.div (x (ix3 i h g)) (∑ g' : Fin 8, x (ix3 i h g')) := by
  unfold wgtTerm
  rw [hostDivf_apply, backTerm_apply, rowSum_apply]

/-- The weights against the value heads, as rows of 128: column c is the sum over the key heads g of the weight of
    (head of c, g) times coordinate (c mod 16) of value head g. -/
theorem mix_apply (W : FVec Ideal S800000x8x8 .f32) (Vs : FVec Ideal S800000x8x16 .f32) (i : Fin 800000)
    (c : Fin 128) :
    shapeCast S800000x128
        (Host.dotGeneral (F := Ideal) dot_S800000x8x8_S800000x8x16_S800000x8x16_2_1_1_2_0_0 none W Vs)
        shapeCasts_S800000x8x16_S800000x128 (ix2 i c)
      = ∑ g : Fin 8, W (ix3 i (EdgeSpec.headOf c) g) * Vs (ix3 i g (EdgeSpec.coordOf c)) := by
  rw [shapeCast_apply _ _ (ix2 i c) (ix3 i (EdgeSpec.headOf c) (EdgeSpec.coordOf c)) (by
    rw [Shape.rowMajor_val_two, Shape.rowMajor_val_three]
    show (i.val * 8 + c.val / 16) * 16 + c.val % 16 = i.val * 128 + c.val
    omega)]
  exact dotGeneral_stack_fields_apply _ rfl rfl rfl rfl rfl rfl none W Vs i _ _

end Cert.ReferenceIdeal.Line

end
-- ==== Proof.ReferenceValue.lean ====
/-
  The reference's value.

  The edge rows the reference scatters (`heTerm`, ReferenceValueTerm.lean) are, row by row, the specification of one
  edge (EdgeSpec.lean) at the edge's three rows: the query row is row `dst i` of q against Wq, the key row is row
  `src i` of k plus the edge's features against Wk, the value row is row `src i` of v against Wv — the rows named
  by `rowOf`: 50000 added to a negative index, then clamped into the table. The proof reads the stages at an
  index one after the other (ReferenceValueStages.lean, ReferenceValueSoftmax.lean) and meets the specification's
  definitions stage by stage: score, activation, row maximum, shifted exponential, weight, weighted sum.
-/
import proofs.«151337_j57836029608550_2_alg».proof.Proof.ReferenceValueStages
import proofs.«151337_j57836029608550_2_alg».proof.Proof.ReferenceValueSoftmax

noncomputable section

open scoped BigOperators

namespace Cert.ReferenceIdeal.Line

open Cert.ReferenceIdeal Cert.ReferenceIdeal.Gen Idealize.ShloMosaic Idealize.ShloMosaic.ValueIdx
open Idealize.GatherRows

section
variable (q k v : FVec Ideal S50000x128 .f32) (e : FVec Ideal S800000x128 .f32) (src dst : IVec S800000 32)
  (wq wk wv : FVec Ideal S128x128 .f32)

/-- The query row of edge i: row `dst i` of q against Wq. -/
def qRow (i : Fin 800000) : Fin 128 → EReal :=
  fun c' => ∑ j : Fin 128, q (ix2 (rowOf 50000 (by decide) (dst (ix1 i))) j) * wq (ix2 j c')

/-- The key row of edge i: row `src i` of k plus the edge's features, against Wk. -/
def kRow (i : Fin 800000) : Fin 128 → EReal :=
  fun c' => ∑ j : Fin 128, (k (ix2 (rowOf 50000 (by decide) (src (ix1 i))) j) + e (ix2 i j)) * wk (ix2 j c')

/-- The value row of edge i: row `src i` of v against Wv. -/
def vRow (i : Fin 800000) : Fin 128 → EReal :=
  fun c' => ∑ j : Fin 128, v (ix2 (rowOf 50000 (by decide) (src (ix1 i))) j) * wv (ix2 j c')

/-- The reference's score of heads (h, g) of edge i is the specification's. -/
theorem sc_eq (i : Fin 800000) (h g : Fin 8) :
    scTerm (qhTerm q wq dst) (khTerm k e wk src) (ix3 i h g)
      = EdgeSpec.score (qRow q dst wq i) (kRow k e src wk i) h g := by
  rw [scTerm_apply]
  unfold EdgeSpec.score
  refine congrArg (· * EdgeSpec.quarter) (Finset.sum_congr rfl fun d _ => ?_)
  rw [qhTerm_apply, khTerm_apply]
  rfl

/-- … and so is its activation, … -/
theorem act_eq (i : Fin 800000) (h g : Fin 8) :
    actTerm (scTerm (qhTerm q wq dst) (khTerm k e wk src)) (ix3 i h g)
      = EdgeSpec.act (qRow q dst wq i) (kRow k e src wk i) h g := by
  rw [actTerm_apply, sc_eq]
  rfl

/-- … the row maximum, … -/
theorem max_eq (i : Fin 800000) (h : Fin 8) :
    maxTerm (actTerm (scTerm (qhTerm q wq dst) (khTerm k e wk src))) (ix2 i h)
      = EdgeSpec.rowMax (qRow q dst wq i) (kRow k e src wk i) h := by
  rw [maxTerm_apply]
  unfold EdgeSpec.rowMax
  exact congrArg (Finset.univ.sup) (funext fun g => act_eq q k e src dst wq wk i h g)

/-- … the shifted exponential, … -/
theorem ex_eq (i : Fin 800000) (h g : Fin 8) :
    exTerm (actTerm (scTerm (qhTerm q wq dst) (khTerm k e wk src))) (ix3 i h g)
      = EdgeSpec.ex (qRow q dst wq i) (kRow k e src wk i) h g := by
  rw [exTerm_apply, act_eq, max_eq]
  rfl

/-- … and the softmax weight. -/
theorem wgt_eq (i : Fin 800000) (h g : Fin 8) :
    wgtTerm (exTerm (actTerm (scTerm (qhTerm q wq dst) (khTerm k e wk src)))) (ix3 i h g)
      = EdgeSpec.wgt (qRow q dst wq i) (kRow k e src wk i) h g := by
  rw [wgtTerm_apply, ex_eq]
  unfold EdgeSpec.wgt EdgeSpec.den
  exact congrArg (Ideal.div _) (Finset.sum_congr rfl fun g' _ => ex_eq q k e src dst wq wk i h g')

/-- THE REFERENCE'S EDGE ROWS: row i of what the reference scatters is the specification of one edge at the edge's
    query, key and value rows. -/
theorem he_apply (i : Fin 800000) (c : Fin 128) :
    heTerm q k v e src dst wq wk wv (ix2 i c)
      = EdgeSpec.attnRow
          (fun c' => ∑ j : Fin 128, q (ix2 (rowOf 50000 (by decide) (dst (ix1 i))) j) * wq (ix2 j c'))
          (fun c' => ∑ j : Fin 128, (k (ix2 (rowOf 50000 (by decide) (src (ix1 i))) j) + e (ix2 i j)) * wk (ix2 j c'))
          (fun c' => ∑ j : Fin 128, v (ix2 (rowOf 50000 (by decide) (src (ix1 i))) j) * wv (ix2 j c')) c := by
  show _ = EdgeSpec.attnRow (qRow q dst wq i) (kRow k e src wk i) (vRow v src wv i) c
  unfold heTerm
  rw [mix_apply]
  unfold EdgeSpec.attnRow EdgeSpec.attn
  refine Finset.sum_congr rfl fun g _ => ?_
  rw [wgt_eq, vsTerm_apply]
  rfl

end

end Cert.ReferenceIdeal.Line

end
-- ==== Proof.LibRowLinear.lean ====
/-
  Two general facts about finite sums of real numbers read in the extended reals. Neither mentions a program.

  1. The cast of a finite sum of reals is the sum of the casts (`coe_finset_sum`).
  2. A product distributes over a sum when every entry is a real number, and so a contraction
     Σ_j (a_j + b_j)·w_j splits into Σ_j a_j·w_j + Σ_j b_j·w_j (`sum_add_mul`). On the extended reals this fails
     without the hypothesis ((⊤ + ⊥)·w against ⊤·w + ⊥·w), so it is the place where a value proof over the extended
     reals uses that its inputs are finite.

  Where it is used here: the kernel forms an edge's key row as (k·Wk)[src] + e·Wk, two matrix products added; the
  reference forms it as (k[src] + e)·Wk, one product of a sum. Entry by entry the first is Σ_j a_j·w_j + Σ_j b_j·w_j
  and the second Σ_j (a_j + b_j)·w_j, with a a row of k, b a row of e and w a column of Wk, all finite by the
  precondition.
-/
import Mathlib.Data.EReal.Operations
import Mathlib.Algebra.BigOperators.Group.Finset.Basic

namespace Idealize.ERealSums

/-- An extended real that is a real number: neither infinity. -/
def IsReal (x : EReal) : Prop := x ≠ ⊤ ∧ x ≠ ⊥

/-- A real number read as an extended real is a real number. -/
theorem isReal_coe (x : ℝ) : IsReal (x : EReal) := ⟨EReal.coe_ne_top x, EReal.coe_ne_bot x⟩

/-- The cast of a finite sum of reals is the sum of the casts. -/
theorem coe_finset_sum {ι : Type} (s : Finset ι) (f : ι → ℝ) :
    ((∑ j ∈ s, f j : ℝ) : EReal) = ∑ j ∈ s, (f j : EReal) := by
  classical
  refine Finset.induction_on s (by simp) fun a t ha ih => ?_
  rw [Finset.sum_insert ha, Finset.sum_insert ha, EReal.coe_add, ih]

/-- On real numbers read as extended reals the product distributes over the sum. -/
theorem coe_add_mul (a b w : ℝ) :
    ((a : EReal) + (b : EReal)) * (w : EReal) = (a : EReal) * (w : EReal) + (b : EReal) * (w : EReal) := by
  rw [← EReal.coe_add, ← EReal.coe_mul, ← EReal.coe_mul, ← EReal.coe_mul, ← EReal.coe_add, add_mul]

/-- The same for extended reals known to be real. -/
theorem add_mul_of_isReal {a b w : EReal} (ha : IsReal a) (hb : IsReal b) (hw : IsReal w) :
    (a + b) * w = a * w + b * w := by
  lift a to ℝ using ha
  lift b to ℝ using hb
  lift w to ℝ using hw
  exact coe_add_mul a b w

/-- A row of sums against a column is the sum of the two rows against it, when every entry is real: the contraction of a
    matrix product is additive in its left factor. -/
theorem sum_add_mul {ι : Type} (s : Finset ι) (a b w : ι → EReal)
    (ha : ∀ j, IsReal (a j)) (hb : ∀ j, IsReal (b j)) (hw : ∀ j, IsReal (w j)) :
    (∑ j ∈ s, (a j + b j) * w j) = (∑ j ∈ s, a j * w j) + ∑ j ∈ s, b j * w j := by
  rw [← Finset.sum_add_distrib]
  exact Finset.sum_congr rfl fun j _ => add_mul_of_isReal (ha j) (hb j) (hw j)

end Idealize.ERealSums
-- ==== Proof.FiniteInputs.lean ====
/-
  What the precondition says, decoded: every entry of the three arrays the one distributive step touches — the node keys k,
  the edge features e and the weight Wk — is a real number.

  The precondition is printed as a conjunction of seven `jnp.all(|x| < +∞)`, one per float argument, each a reduction by
  `and` of an array of comparison bits, and states that the result is 1. A conjunction that is 1 has both sides 1; a
  reduction by `and` that is 1 had a 1 at every element; and `|x| < +∞` on the extended reals, with |x| = max x (−x) and
  the f32 word 0x7F800000 denoting ⊤, excludes exactly x = ⊤ and x = ⊥.
-/
import proofs.«151337_j57836029608550_2_alg».proof.Defs
import proofs.«151337_j57836029608550_2_alg».proof.Proof.Gen.Pre_finite_inputs
import proofs.«151337_j57836029608550_2_alg».proof.Proof.LibRowLinear
import Idealize.ShloMosaic.Lib.ReduceAll
import Idealize.ShloMosaic.Lib.ValueIdx

noncomputable section

namespace Cert.Proof.Finite

open Idealize.ShloMosaic Idealize.ERealSums Cert.Pre_finite_inputs Cert.Pre_finite_inputs.Gen

instance : Subsingleton S_.Idx := ⟨fun a b => funext fun d => d.elim0⟩

/-- The +∞ word denotes ⊤. -/
theorem ofBits_inf : Ideal.ofBits .f32 0x7F800000#32 = (⊤ : EReal) := by
  simp [Ideal.ofBits, Ideal.ieee]

/-- An extended real whose absolute value is below ⊤ is a real number. -/
theorem isReal_of_abs_lt (x : EReal) (h : Ideal.cmp .olt (max x (-x)) (Ideal.ofBits .f32 0x7F800000#32) = 1#1) : IsReal x := by
  rw [ofBits_inf] at h
  constructor
  · rintro rfl; simp [Ideal.cmp] at h
  · rintro rfl; simp [Ideal.cmp] at h

/-- One `jnp.all(|a| < +∞)` that is 1: every entry of `a` is a real number. -/
theorem isReal_of_all {s : Shape} {axes : List (Fin s.rank)} (hb : S_.BroadcastsInDim s (![] : Fin 0 → Fin s.rank)) (hr : s.ReducesTo axes S_) (a : FVec Ideal s .f32)
    (h : Host.reduce IntOp.andi (cmpf .olt (Host.absf a) (broadcastInDim s ![] hb (constant S_ .f32 0x7F800000#32)))
      (constantI S_ 1 1#1) hr h_S_ ValueIdx.ix0 = 1#1) (i : s.Idx) : IsReal (a i) := by
  have hi := Host.reduce_andi_all _ _ hr h_S_ ValueIdx.ix0 h i
  exact isReal_of_abs_lt (a i) hi

/-- A pointwise `and` that is 1 at an index has both sides 1 there. -/
theorem andi_split {s : Shape} (X Y : IVec s 1) (i : s.Idx) (h : andi X Y i = 1#1) : X i = 1#1 ∧ Y i = 1#1 :=
  IntOp.andi_eq_one.1 h

/-- The precondition, decoded for the arrays the distributive step reads: every entry of the second, fourth and eighth
    float argument (the node keys, the edge features, the key weight) is a real number. -/
theorem of_fn (a0 a1 a2 : FVec Ideal S50000x128 .f32) (a3 : FVec Ideal S800000x128 .f32) (a4 a5 : IVec S800000 32)
    (a6 a7 a8 : FVec Ideal S128x128 .f32) (h : fn (F := Ideal) a0 a1 a2 a3 a4 a5 a6 a7 a8 = fun _ => 1#1) :
    (∀ i, IsReal (a1 i)) ∧ (∀ i, IsReal (a3 i)) ∧ (∀ i, IsReal (a7 i)) := by
  have h0 := congrFun h ValueIdx.ix0
  dsimp only [fn, fn_part1] at h0
  obtain ⟨h01, h8⟩ := andi_split _ _ _ h0
  obtain ⟨h02, h7⟩ := andi_split _ _ _ h01
  obtain ⟨h03, h6⟩ := andi_split _ _ _ h02
  obtain ⟨h04, h3⟩ := andi_split _ _ _ h03
  obtain ⟨h05, h2⟩ := andi_split _ _ _ h04
  obtain ⟨hh0, h1⟩ := andi_split _ _ _ h05
  exact ⟨isReal_of_all _ _ a1 h1, isReal_of_all _ _ a3 h3, isReal_of_all _ _ a7 h7⟩

end Cert.Proof.Finite

end
-- ==== Proof.KI.Claims.lean ====
/-
  The claims about the kernel program over the extended reals: its frame, and that it ends with the reference's result.

  The run (KI/Run.lean) names every buffer's final contents as a fold `W4`; KI/Values.lean reads the fold; KI/Final0.lean and
  KI/Final1.lean say what the two regions' output arrays hold, index by index; ReferenceValue.lean says the same of the
  reference's edge rows. What is left is to see that the two programs' edge rows are one function of the arguments.
  Row e of the kernel's edge array is the attention row of
     Q = (q·Wq)[ρ(dst e)],   K = (k·Wk)[ρ(src e)] + e_e·Wk,   V = (v·Wv)[ρ(src e)]
  and row e of the reference's is the attention row of
     Q = q[ρ(dst e)]·Wq,     K = (k[ρ(src e)] + e_e)·Wk,      V = v[ρ(src e)]·Wv,
  with ρ the row a gather reads for an index word (the word brought into range, then clamped). A row of a matrix product is
  the product of that row, so Q and V are the same sums; K needs (a + b)·W = a·W + b·W entry by entry, which holds because the
  precondition makes every entry of k, e and Wk a real number. Both programs then add the same edge rows into the same
  destination nodes.
-/
import proofs.«151337_j57836029608550_2_alg».proof.Defs
import proofs.«151337_j57836029608550_2_alg».proof.Proof.KI.Values
import proofs.«151337_j57836029608550_2_alg».proof.Proof.KI.Final0
import proofs.«151337_j57836029608550_2_alg».proof.Proof.KI.Final1
import proofs.«151337_j57836029608550_2_alg».proof.Proof.ReferenceValue
import proofs.«151337_j57836029608550_2_alg».proof.Proof.FiniteInputs
import proofs.«151337_j57836029608550_2_alg».proof.Proof.LibGatherRows
import proofs.«151337_j57836029608550_2_alg».proof.Proof.LibRowLinear
import proofs.«151337_j57836029608550_2_alg».proof.Proof.Gen.Pre_finite_inputs

set_option maxRecDepth 16384

noncomputable section

namespace Cert.Proof.KernelIdeal

open Idealize.ShloMosaic Idealize.ShloMosaic.TcCoe Idealize.ShloMosaic.ValueIdx Idealize.SL.Sem
open Idealize.ERealSums Idealize.GatherRows
open Cert.KernelIdeal Cert.KernelIdeal.Gen Cert.KernelIdeal.Hand

/-! ## The frame -/

/-- Every argument ends as launched: read off the run at the argument's buffer. -/
theorem frame : Cert.frame_KernelIdeal := fun m ρ _ =>
  (θ_run (Cert.KernelIdeal.defs (F := Ideal)) _ _).mono
    (fun r h c => ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c)⟩)
    (run_all (F := Ideal) m ρ rowLocal_ideal)

/-! ## The arrays, as functions on their index types -/

variable (m : (ℓ : Loc nD τ sig) → Buf (Elt Ideal) ℓ) (ρ : Dev nD → PrngReg)

/-- The argument arrays on core `c`: q, k, v, e, src, dst, Wq, Wk, Wv. -/
abbrev aq (c : Dev nD) : S50000x128.Idx → EReal := m ((c : Thread nD τ).loc main_arg0)
abbrev ak (c : Dev nD) : S50000x128.Idx → EReal := m ((c : Thread nD τ).loc main_arg1)
abbrev av (c : Dev nD) : S50000x128.Idx → EReal := m ((c : Thread nD τ).loc main_arg2)
abbrev ae (c : Dev nD) : S800000x128.Idx → EReal := m ((c : Thread nD τ).loc main_arg3)
abbrev asrc (c : Dev nD) : IVec S800000 32 := m ((c : Thread nD τ).loc main_arg4)
abbrev adst (c : Dev nD) : IVec S800000 32 := m ((c : Thread nD τ).loc main_arg5)
abbrev awq (c : Dev nD) : S128x128.Idx → EReal := m ((c : Thread nD τ).loc main_arg6)
abbrev awk (c : Dev nD) : S128x128.Idx → EReal := m ((c : Thread nD τ).loc main_arg7)
abbrev awv (c : Dev nD) : S128x128.Idx → EReal := m ((c : Thread nD τ).loc main_arg8)
/-- The gathered query, key and value rows the edge region is entered with. -/
abbrev gq (c : Dev nD) : S800000x128.Idx → EReal := V2 m ρ c main_v7
abbrev gk (c : Dev nD) : S800000x128.Idx → EReal := V2 m ρ c main_v14
abbrev gv (c : Dev nD) : S800000x128.Idx → EReal := V2 m ρ c main_v21
/-- The edge features and the key weight as the edge region finds them. -/
abbrev ge (c : Dev nD) : S800000x128.Idx → EReal := V2 m ρ c main_arg3
abbrev gwk (c : Dev nD) : S128x128.Idx → EReal := V2 m ρ c main_arg7

/-! ## The gathered rows -/

/-- Row e of the gathered queries is row ρ(dst e) of q·Wq. -/
theorem gq_apply (c : Dev nD) (e : Fin 800000) (j : Fin 128) :
    gq m ρ c (ix2 e j) = ∑ l : Fin 128, aq m c (ix2 (rowOf 50000 (by decide) (adst m c (ix1 e))) l) * awq m c (ix2 l j) := by
  show W2 m ρ c (Proc.devRef .tc main_v7) (ix2 e j) = _
  rw [W2_main_v7]; unfold idxCol
  refine (gather_rows_apply (by decide) gather_S50000x128_S800000x1_S800000x128_1_0_n_n_0_1_1128 rfl rfl rfl rfl rfl rfl rfl
    _ _ _ _ _ e j).trans ?_
  rw [W1_main_v0_0]
  exact final0_6 (V0 m ρ) c _ j

/-- Row e of the gathered keys is row ρ(src e) of k·Wk. -/
theorem gk_apply (c : Dev nD) (e : Fin 800000) (j : Fin 128) :
    gk m ρ c (ix2 e j) = ∑ l : Fin 128, ak m c (ix2 (rowOf 50000 (by decide) (asrc m c (ix1 e))) l) * awk m c (ix2 l j) := by
  show W2 m ρ c (Proc.devRef .tc main_v14) (ix2 e j) = _
  rw [W2_main_v14]; unfold idxCol
  refine (gather_rows_apply (by decide) gather_S50000x128_S800000x1_S800000x128_1_0_n_n_0_1_1128 rfl rfl rfl rfl rfl rfl rfl
    _ _ _ _ _ e j).trans ?_
  rw [W1_main_v0_1]
  exact final0_7 (V0 m ρ) c _ j

/-- Row e of the gathered values is row ρ(src e) of v·Wv. -/
theorem gv_apply (c : Dev nD) (e : Fin 800000) (j : Fin 128) :
    gv m ρ c (ix2 e j) = ∑ l : Fin 128, av m c (ix2 (rowOf 50000 (by decide) (asrc m c (ix1 e))) l) * awv m c (ix2 l j) := by
  show W2 m ρ c (Proc.devRef .tc main_v21) (ix2 e j) = _
  rw [W2_main_v21]; unfold idxCol
  refine (gather_rows_apply (by decide) gather_S50000x128_S800000x1_S800000x128_1_0_n_n_0_1_1128 rfl rfl rfl rfl rfl rfl rfl
    _ _ _ _ _ e j).trans ?_
  rw [W1_main_v0_2]
  exact final0_8 (V0 m ρ) c _ j

theorem ge_eq (c : Dev nD) : ge m ρ c = ae m c := W2_main_arg3 m ρ c
theorem gwk_eq (c : Dev nD) : gwk m ρ c = awk m c := W2_main_arg7 m ρ c

/-! ## The two programs' edge rows are one function -/

/-- The kernel's key row is the reference's: the one distributive step, on real entries. -/
theorem key_row (c : Dev nD) (hk : ∀ i, IsReal (ak m c i)) (he : ∀ i, IsReal (ae m c i)) (hw : ∀ i, IsReal (awk m c i))
    (e : Fin 800000) (j : Fin 128) :
    gk m ρ c (ix2 e j) + ∑ l : Fin 128, ge m ρ c (ix2 e l) * gwk m ρ c (ix2 l j)
      = ∑ l : Fin 128, (ak m c (ix2 (rowOf 50000 (by decide) (asrc m c (ix1 e))) l) + ae m c (ix2 e l)) * awk m c (ix2 l j) := by
  rw [gk_apply m ρ c e j, ge_eq, gwk_eq]
  exact (sum_add_mul Finset.univ _ _ _ (fun l => hk _) (fun l => he _) (fun l => hw _)).symm

/-- The kernel's edge array is the reference's edge rows, when every entry of k, e and Wk is a real number. -/
theorem he_eq (c : Dev nD) (hk : ∀ i, IsReal (ak m c i)) (he : ∀ i, IsReal (ae m c i)) (hw : ∀ i, IsReal (awk m c i)) :
    (dat1 (F := Ideal) (V2 m ρ) c).arrAt 5 cfg1.N
      = Cert.ReferenceIdeal.Line.heTerm (aq m c) (ak m c) (av m c) (ae m c) (asrc m c) (adst m c) (awq m c) (awk m c) (awv m c) := by
  funext i
  obtain ⟨e, k, rfl⟩ : ∃ (e : Fin 800000) (k : Fin 128), i = ix2 e k := ⟨i 0, i 1, eq_ix2 i⟩
  refine (final1_5 (V2 m ρ) c e k).trans ?_
  refine Eq.trans ?_ (Cert.ReferenceIdeal.Line.he_apply (aq m c) (ak m c) (av m c) (ae m c) (asrc m c) (adst m c) (awq m c) (awk m c) (awv m c) e k).symm
  show Cert.EdgeSpec.attnRow (fun j => gq m ρ c (ix2 e j))
      (fun j => gk m ρ c (ix2 e j) + ∑ l : Fin 128, ge m ρ c (ix2 e l) * gwk m ρ c (ix2 l j)) (fun j => gv m ρ c (ix2 e j)) k = _
  rw [show (fun j => gq m ρ c (ix2 e j)) = _ from funext fun j => gq_apply m ρ c e j,
    show (fun j => gv m ρ c (ix2 e j)) = _ from funext fun j => gv_apply m ρ c e j,
    show (fun j => gk m ρ c (ix2 e j) + ∑ l : Fin 128, ge m ρ c (ix2 e l) * gwk m ρ c (ix2 l j)) = _ from
      funext fun j => key_row m ρ c hk he hw e j]

/-! ## The algebraic claim -/

/-- From memories agreeing on the arguments both programs run, and end with the same result: the same scatter-add, by the same
    dst, of the same edge rows into zeros. -/
theorem algebraic : Cert.algebraic_KernelIdeal_ReferenceIdeal := by
  intro m ρ m' ρ' hpre hagree
  refine ⟨fun c => W4 m ρ c (Proc.devRef .tc main_v25), ?_, ?_⟩
  · exact (θ_run (Cert.KernelIdeal.defs (F := Ideal)) _ _).mono
      (fun r h c => ⟨h c _ (mem_uc main_v25 (by decide)),
        (h c _ (mem_uc main_arg0 (by decide))).trans (W4_main_arg0 m ρ c),
        (h c _ (mem_uc main_arg1 (by decide))).trans (W4_main_arg1 m ρ c),
        (h c _ (mem_uc main_arg2 (by decide))).trans (W4_main_arg2 m ρ c),
        (h c _ (mem_uc main_arg3 (by decide))).trans (W4_main_arg3 m ρ c),
        (h c _ (mem_uc main_arg4 (by decide))).trans (W4_main_arg4 m ρ c),
        (h c _ (mem_uc main_arg5 (by decide))).trans (W4_main_arg5 m ρ c),
        (h c _ (mem_uc main_arg6 (by decide))).trans (W4_main_arg6 m ρ c),
        (h c _ (mem_uc main_arg7 (by decide))).trans (W4_main_arg7 m ρ c),
        (h c _ (mem_uc main_arg8 (by decide))).trans (W4_main_arg8 m ρ c)⟩)
      (run_all (F := Ideal) m ρ rowLocal_ideal)
  · refine (θ_run (Cert.ReferenceIdeal.defs (F := Ideal)) _ _).mono (fun r h c => ⟨(h c Cert.ReferenceIdeal.main_v47).trans ?_,
      (h c Cert.ReferenceIdeal.main_arg0).trans (Cert.ReferenceIdeal.Line.kept_arg0 m' c),
      (h c Cert.ReferenceIdeal.main_arg1).trans (Cert.ReferenceIdeal.Line.kept_arg1 m' c),
      (h c Cert.ReferenceIdeal.main_arg2).trans (Cert.ReferenceIdeal.Line.kept_arg2 m' c),
      (h c Cert.ReferenceIdeal.main_arg3).trans (Cert.ReferenceIdeal.Line.kept_arg3 m' c),
      (h c Cert.ReferenceIdeal.main_arg4).trans (Cert.ReferenceIdeal.Line.kept_arg4 m' c),
      (h c Cert.ReferenceIdeal.main_arg5).trans (Cert.ReferenceIdeal.Line.kept_arg5 m' c),
      (h c Cert.ReferenceIdeal.main_arg6).trans (Cert.ReferenceIdeal.Line.kept_arg6 m' c),
      (h c Cert.ReferenceIdeal.main_arg7).trans (Cert.ReferenceIdeal.Line.kept_arg7 m' c),
      (h c Cert.ReferenceIdeal.main_arg8).trans (Cert.ReferenceIdeal.Line.kept_arg8 m' c)⟩)
      (Cert.ReferenceIdeal.Line.run_line (F := Ideal) m' ρ')
    obtain ⟨hk, he, hw⟩ := Cert.Proof.Finite.of_fn _ _ _ _ _ _ _ _ _ (hpre c)
    obtain ⟨a0, a1, a2, a3, a4, a5, a6, a7, a8⟩ := hagree c
    rw [Cert.ReferenceIdeal.Line.result_eq, a0, a1, a2, a3, a4, a5, a6, a7, a8]
    show _ = W4 m ρ c (Proc.devRef .tc main_v25)
    rw [W4_main_v25, he_eq m ρ c hk he hw]
    rfl

end Cert.Proof.KernelIdeal

end
-- ==== Proof.lean ====
/-
  The certificate of a two-kernel graph attention layer against its jnp reference, over the extended reals.

  THE TWO PROGRAMS. Nodes carry rows q, k, v (50000 × 128), edges carry rows e (800000 × 128) and two index lists
  src, dst; Wq, Wk, Wv are 128 × 128. The kernel program first projects the node rows in a 25-point pallas_call
  (Qn = q·Wq, Kn = k·Wk, Vn = v·Wv; the roundings to bf16 on the way into the matrix unit are the identity on the
  extended reals), gathers Qn by dst and Kn, Vn by src on the host, and then, in a 391-point pallas_call over blocks
  of 2048 edges (the last block overhangs the 800000 rows by 768), forms per edge the key row Ks + e·Wk, the 8 × 8
  score matrix of the eight 16-wide heads scaled by 1/4, leaky-relu, a softmax along the last axis, and the weighted
  sum of the value heads; the host adds the edge rows into their destination nodes. The reference does the same with
  the gathers and the products in the other order: (q[dst])·Wq, (k[src] + e)·Wk, (v·Wv)[src].

  WHY THE TWO AGREE. A gather takes whole rows at an index brought into range in one and the same way on both sides,
  and a row of a matrix product depends on that row of the left factor only, so gathering before or after the product is
  the same row. The one law beyond re-indexing is in the keys: (a + b)·W = a·W + b·W entry by entry, which on the
  extended reals needs the entries to be real numbers (LibRowLinear.lean, `sum_add_mul`) — the one use of the
  precondition that every float argument is finite (FiniteInputs.lean). The scale 1/4, the leaky-relu slope and the
  softmax are the same operations on both sides (EdgeSpec.lean states them once; KI/EdgePayload.lean reads the kernel's
  stored block against it, ReferenceValue.lean the reference's edge rows), and the final scatter-add is the same function
  of the same dst and edge rows.

  THE FRAMES. Each kernel program is run region by region through the pipeline library: per pallas_call the body's run at
  every grid point and the pipeline's bookkeeping around it, the host stretches between. The edge region's last block
  overhangs its arrays: a fetch there leaves 768 rows of each staging buffer holding words nothing names, and the body
  computes on them. Over the extended reals (KI/) the proof names what every output block holds on the rows inside the
  array, which is sound because the body works row by row (row r of the stored block depends on row r of each loaded block
  only); at the word level (KB/) the frame asks nothing of the outputs' contents, so the proof data there only relates what
  the body is handed to what it leaves. The reference is a straight line of 65 host operations, none of which writes an
  argument (ReferenceRun.lean).

  `preserves` is `True`: the idealization rewrote no operation.
-/
import proofs.«151337_j57836029608550_2_alg».proof.Defs
import proofs.«151337_j57836029608550_2_alg».proof.Proof.Gen.Kernel
import proofs.«151337_j57836029608550_2_alg».proof.Proof.Gen.Kernel.Skeleton
import proofs.«151337_j57836029608550_2_alg».proof.Proof.Gen.Kernel.Launch
import proofs.«151337_j57836029608550_2_alg».proof.Proof.Gen.Kernel.Regions
import proofs.«151337_j57836029608550_2_alg».proof.Proof.Gen.Kernel.Points
import proofs.«151337_j57836029608550_2_alg».proof.Proof.Gen.KernelIdeal
import proofs.«151337_j57836029608550_2_alg».proof.Proof.Gen.KernelIdeal.Skeleton
import proofs.«151337_j57836029608550_2_alg».proof.Proof.Gen.KernelIdeal.Launch
import proofs.«151337_j57836029608550_2_alg».proof.Proof.Gen.KernelIdeal.Regions
import proofs.«151337_j57836029608550_2_alg».proof.Proof.Gen.KernelIdeal.Points
import proofs.«151337_j57836029608550_2_alg».proof.Proof.Gen.ReferenceIdeal
import proofs.«151337_j57836029608550_2_alg».proof.Proof.Gen.Pre_finite_inputs
import proofs.«151337_j57836029608550_2_alg».proof.Proof.ReferenceFrame
import proofs.«151337_j57836029608550_2_alg».proof.Proof.KB.Frame
import proofs.«151337_j57836029608550_2_alg».proof.Proof.KI.Claims
import Idealize.ShloMosaic.Adequacy
import Idealize.ShloMosaic.Init

noncomputable section

namespace Cert.Proof

open Idealize.ShloMosaic Idealize.SL.Sem Cert.Kernel

/-- The idealization rewrote no operation: there is nothing to preserve. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    Cert.Proof.KernelBits.frame, Cert.Proof.KernelIdeal.frame, Cert.Proof.Reference.frame, preserves,
    Cert.Proof.KernelIdeal.algebraic⟩

end Cert.Proof

end
